-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)) →
    ∃ (v0 : (c : Dev Cert.KernelIdeal.nD) → Buf (Elt Ideal) ((c.tc : Thread Cert.KernelIdeal.nD Cert.KernelIdeal.τ).loc Cert.KernelIdeal.main_v134)) (v1 : (c : Dev Cert.KernelIdeal.nD) → Buf (Elt Ideal) ((c.tc : Thread Cert.KernelIdeal.nD Cert.KernelIdeal.τ).loc Cert.KernelIdeal.main_v135)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v134) = v0 c
          ∧ r.2.mem ((c.tc : Thread Cert.KernelIdeal.nD Cert.KernelIdeal.τ).loc Cert.KernelIdeal.main_v135) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v183) = v0 c
          ∧ r.2.mem ((c.tc : Thread Cert.ReferenceIdeal.nD Cert.ReferenceIdeal.τ).loc Cert.ReferenceIdeal.main_v184) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S30000x64 : Shape := ⟨2, ![30000, 64]⟩
abbrev S20000x64 : Shape := ⟨2, ![20000, 64]⟩
abbrev S20000x2048 : Shape := ⟨2, ![20000, 2048]⟩
abbrev S20000x768 : Shape := ⟨2, ![20000, 768]⟩
abbrev S2048x64 : Shape := ⟨2, ![2048, 64]⟩
abbrev S64 : Shape := ⟨1, ![64]⟩
abbrev S768x64 : Shape := ⟨2, ![768, 64]⟩
abbrev S64x64 : Shape := ⟨2, ![64, 64]⟩
abbrev S64x1 : Shape := ⟨2, ![64, 1]⟩
abbrev S2000000 : Shape := ⟨1, ![2000000]⟩
abbrev S200000 : Shape := ⟨1, ![200000]⟩
abbrev S1000000 : Shape := ⟨1, ![1000000]⟩
abbrev S_ : Shape := ⟨0, ![]⟩

class Facts : Prop where
  bcast_S_S30000x64 : S_.BroadcastsInDim S30000x64 (![] : Fin 0 → Fin S30000x64.rank)
  reducesTo_S30000x64_S_d0_1 : S30000x64.ReducesTo [0, 1] S_
  h_S_ : 0 < S_.numel
  bcast_S_S20000x64 : S_.BroadcastsInDim S20000x64 (![] : Fin 0 → Fin S20000x64.rank)
  reducesTo_S20000x64_S_d0_1 : S20000x64.ReducesTo [0, 1] S_
  bcast_S_S20000x2048 : S_.BroadcastsInDim S20000x2048 (![] : Fin 0 → Fin S20000x2048.rank)
  reducesTo_S20000x2048_S_d0_1 : S20000x2048.ReducesTo [0, 1] S_
  bcast_S_S20000x768 : S_.BroadcastsInDim S20000x768 (![] : Fin 0 → Fin S20000x768.rank)
  reducesTo_S20000x768_S_d0_1 : S20000x768.ReducesTo [0, 1] S_
  bcast_S_S2048x64 : S_.BroadcastsInDim S2048x64 (![] : Fin 0 → Fin S2048x64.rank)
  reducesTo_S2048x64_S_d0_1 : S2048x64.ReducesTo [0, 1] S_
  bcast_S_S64 : S_.BroadcastsInDim S64 (![] : Fin 0 → Fin S64.rank)
  reducesTo_S64_S_d0 : S64.ReducesTo [0] S_
  bcast_S_S768x64 : S_.BroadcastsInDim S768x64 (![] : Fin 0 → Fin S768x64.rank)
  reducesTo_S768x64_S_d0_1 : S768x64.ReducesTo [0, 1] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S2000000 : S_.BroadcastsInDim S2000000 (![] : Fin 0 → Fin S2000000.rank)
  reducesTo_S2000000_S_d0 : S2000000.ReducesTo [0] S_
  bcast_S_S200000 : S_.BroadcastsInDim S200000 (![] : Fin 0 → Fin S200000.rank)
  reducesTo_S200000_S_d0 : S200000.ReducesTo [0] S_
  bcast_S_S1000000 : S_.BroadcastsInDim S1000000 (![] : Fin 0 → Fin S1000000.rank)
  reducesTo_S1000000_S_d0 : S1000000.ReducesTo [0] S_

variable [Facts]

def fn_part6 {F : FTy → Type} [FloatOps F] (main_arg21 : FVec F S200000 .f32) (main_arg22 : FVec F S1000000 .f32) (main_v98 : IVec S_ 1) (main_v101 : IVec S200000 1) (main_c_39 : IVec S_ 1) : IVec S_ 1 :=
  let main_v102 : IVec S_ 1 := (fun x v => Host.reduce IntOp.andi x v reducesTo_S200000_S_d0 h_S_) main_v101 main_c_39
  let main_v103 : IVec S_ 1 := andi main_v98 main_v102
  let main_v104 : FVec F S200000 .f32 := Host.absf main_arg21
  let main_cst_40 : FVec F S_ .f32 := constant S_ .f32 0x7F800000#32
  let main_v105 : FVec F S200000 .f32 := broadcastInDim S200000 ![] bcast_S_S200000 main_cst_40
  let main_v106 : IVec S200000 1 := cmpf .olt main_v104 main_v105
  let main_c_41 : IVec S_ 1 := constantI S_ 1 1#1
  let main_v107 : IVec S_ 1 := (fun x v => Host.reduce IntOp.andi x v reducesTo_S200000_S_d0 h_S_) main_v106 main_c_41
  let main_v108 : IVec S_ 1 := andi main_v103 main_v107
  let main_v109 : FVec F S1000000 .f32 := Host.absf main_arg22
  let main_cst_42 : FVec F S_ .f32 := constant S_ .f32 0x7F800000#32
  let main_v110 : FVec F S1000000 .f32 := broadcastInDim S1000000 ![] bcast_S_S1000000 main_cst_42
  let main_v111 : IVec S1000000 1 := cmpf .olt main_v109 main_v110
  let main_c_43 : IVec S_ 1 := constantI S_ 1 1#1
  let main_v112 : IVec S_ 1 := (fun x v => Host.reduce IntOp.andi x v reducesTo_S1000000_S_d0 h_S_) main_v111 main_c_43
  let main_v113 : IVec S_ 1 := andi main_v108 main_v112
  main_v113

def fn_part5 {F : FTy → Type} [FloatOps F] (main_arg18 : FVec F S64x1 .f32) (main_arg19 : FVec F S2000000 .f32) (main_arg20 : FVec F S200000 .f32) (main_arg21 : FVec F S200000 .f32) (main_arg22 : FVec F S1000000 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64x1 .f32 := Host.absf main_arg18
  let main_cst_34 : FVec F S_ .f32 := constant S_ .f32 0x7F800000#32
  let main_v90 : FVec F S64x1 .f32 := broadcastInDim S64x1 ![] bcast_S_S64x1 main_cst_34
  let main_v91 : IVec S64x1 1 := cmpf .olt main_v89 main_v90
  let main_c_35 : IVec S_ 1 := constantI S_ 1 1#1
  let main_v92 : IVec S_ 1 := (fun x v => Host.reduce IntOp.andi x v reducesTo_S64x1_S_d0_1 h_S_) main_v91 main_c_35
  let main_v93 : IVec S_ 1 := andi main_v88 main_v92
  let main_v94 : FVec F S2000000 .f32 := Host.absf main_arg19
  let main_cst_36 : FVec F S_ .f32 := constant S_ .f32 0x7F800000#32
  let main_v95 : FVec F S2000000 .f32 := broadcastInDim S2000000 ![] bcast_S_S2000000 main_cst_36
  let main_v96 : IVec S2000000 1 := cmpf .olt main_v94 main_v95
  let main_c_37 : IVec S_ 1 := constantI S_ 1 1#1
  let main_v97 : IVec S_ 1 := (fun x v => Host.reduce IntOp.andi x v reducesTo_S2000000_S_d0 h_S_) main_v96 main_c_37
  let main_v98 : IVec S_ 1 := andi main_v93 main_v97
  let main_v99 : FVec F S200000 .f32 := Host.absf main_arg20
  let main_cst_38 : FVec F S_ .f32 := constant S_ .f32 0x7F800000#32
  let main_v100 : FVec F S200000 .f32 := broadcastInDim S200000 ![] bcast_S_S200000 main_cst_38
  let main_v101 : IVec S200000 1 := cmpf .olt main_v99 main_v100
  let main_c_39 : IVec S_ 1 := constantI S_ 1 1#1
  fn_part6 (F := F) main_arg21 main_arg22 main_v98 main_v101 main_c_39

def fn_part4 {F : FTy → Type} [FloatOps F] (main_arg14 : FVec F S64x64 .f32) (main_arg15 : FVec F S64 .f32) (main_arg16 : FVec F S64x64 .f32) (main_arg17 : FVec F S64 .f32) (main_arg18 : FVec F S64x1 .f32) (main_arg19 : FVec F S2000000 .f32) (main_arg20 : FVec F S200000 .f32) (main_arg21 : FVec F S200000 .f32) (main_arg22 : FVec F S1000000 .f32) (main_v63 : IVec S_ 1) (main_v67 : IVec S_ 1) : IVec S_ 1 :=
  let main_v68 : IVec S_ 1 := andi main_v63 main_v67
  let main_v69 : FVec F S64x64 .f32 := Host.absf main_arg14
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  let main_v74 : FVec F S64 .f32 := Host.absf main_arg15
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x64 .f32 := Host.absf main_arg16
  let main_cst_30 : FVec F S_ .f32 := constant S_ .f32 0x7F800000#32
  let main_v80 : FVec F S64x64 .f32 := broadcastInDim S64x64 ![] bcast_S_S64x64 main_cst_30
  let main_v81 : IVec S64x64 1 := cmpf .olt main_v79 main_v80
  let main_c_31 : IVec S_ 1 := constantI S_ 1 1#1
  let main_v82 : IVec S_ 1 := (fun x v => Host.reduce IntOp.andi x v reducesTo_S64x64_S_d0_1 h_S_) main_v81 main_c_31
  let main_v83 : IVec S_ 1 := andi main_v78 main_v82
  let main_v84 : FVec F S64 .f32 := Host.absf main_arg17
  let main_cst_32 : FVec F S_ .f32 := constant S_ .f32 0x7F800000#32
  fn_part5 (F := F) main_arg18 main_arg19 main_arg20 main_arg21 main_arg22 main_v83 main_v84 main_cst_32

def fn_part3 {F : FTy → Type} [FloatOps F] (main_arg11 : FVec F S64 .f32) (main_arg12 : FVec F S64x64 .f32) (main_arg13 : FVec F S64 .f32) (main_arg14 : FVec F S64x64 .f32) (main_arg15 : FVec F S64 .f32) (main_arg16 : FVec F S64x64 .f32) (main_arg17 : FVec F S64 .f32) (main_arg18 : FVec F S64x1 .f32) (main_arg19 : FVec F S2000000 .f32) (main_arg20 : FVec F S200000 .f32) (main_arg21 : FVec F S200000 .f32) (main_arg22 : FVec F S1000000 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg12
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg14 main_arg15 main_arg16 main_arg17 main_arg18 main_arg19 main_arg20 main_arg21 main_arg22 main_v63 main_v67

def fn_part2 {F : FTy → Type} [FloatOps F] (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S64x64 .f32) (main_arg15 : FVec F S64 .f32) (main_arg16 : FVec F S64x64 .f32) (main_arg17 : FVec F S64 .f32) (main_arg18 : FVec F S64x1 .f32) (main_arg19 : FVec F S2000000 .f32) (main_arg20 : FVec F S200000 .f32) (main_arg21 : FVec F S200000 .f32) (main_arg22 : FVec F S1000000 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg10
  let main_cst_18 : FVec F S_ .f32 := constant S_ .f32 0x7F800000#32
  let main_v50 : FVec F S64x64 .f32 := broadcastInDim S64x64 ![] bcast_S_S64x64 main_cst_18
  fn_part3 (F := F) main_arg11 main_arg12 main_arg13 main_arg14 main_arg15 main_arg16 main_arg17 main_arg18 main_arg19 main_arg20 main_arg21 main_arg22 main_v48 main_v49 main_v50

def fn_part1 {F : FTy → Type} [FloatOps F] (main_arg4 : FVec F S2048x64 .f32) (main_arg5 : FVec F S64 .f32) (main_arg6 : FVec F S768x64 .f32) (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S64x64 .f32) (main_arg15 : FVec F S64 .f32) (main_arg16 : FVec F S64x64 .f32) (main_arg17 : FVec F S64 .f32) (main_arg18 : FVec F S64x1 .f32) (main_arg19 : FVec F S2000000 .f32) (main_arg20 : FVec F S200000 .f32) (main_arg21 : FVec F S200000 .f32) (main_arg22 : FVec F S1000000 .f32) (main_v13 : IVec S_ 1) (main_v16 : IVec S20000x768 1) : IVec S_ 1 :=
  let main_c_5 : IVec S_ 1 := constantI S_ 1 1#1
  let main_v17 : IVec S_ 1 := (fun x v => Host.reduce IntOp.andi x v reducesTo_S20000x768_S_d0_1 h_S_) main_v16 main_c_5
  let main_v18 : IVec S_ 1 := andi main_v13 main_v17
  let main_v19 : FVec F S2048x64 .f32 := Host.absf main_arg4
  let main_cst_6 : FVec F S_ .f32 := constant S_ .f32 0x7F800000#32
  let main_v20 : FVec F S2048x64 .f32 := broadcastInDim S2048x64 ![] bcast_S_S2048x64 main_cst_6
  let main_v21 : IVec S2048x64 1 := cmpf .olt main_v19 main_v20
  let main_c_7 : IVec S_ 1 := constantI S_ 1 1#1
  let main_v22 : IVec S_ 1 := (fun x v => Host.reduce IntOp.andi x v reducesTo_S2048x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S768x64 .f32 := Host.absf main_arg6
  let main_cst_10 : FVec F S_ .f32 := constant S_ .f32 0x7F800000#32
  let main_v30 : FVec F S768x64 .f32 := broadcastInDim S768x64 ![] bcast_S_S768x64 main_cst_10
  let main_v31 : IVec S768x64 1 := cmpf .olt main_v29 main_v30
  let main_c_11 : IVec S_ 1 := constantI S_ 1 1#1
  let main_v32 : IVec S_ 1 := (fun x v => Host.reduce IntOp.andi x v reducesTo_S768x64_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S30000x64 .f32) (main_arg1 : FVec F S20000x64 .f32) (main_arg2 : FVec F S20000x2048 .f32) (main_arg3 : FVec F S20000x768 .f32) (main_arg4 : FVec F S2048x64 .f32) (main_arg5 : FVec F S64 .f32) (main_arg6 : FVec F S768x64 .f32) (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S64x64 .f32) (main_arg15 : FVec F S64 .f32) (main_arg16 : FVec F S64x64 .f32) (main_arg17 : FVec F S64 .f32) (main_arg18 : FVec F S64x1 .f32) (main_arg19 : FVec F S2000000 .f32) (main_arg20 : FVec F S200000 .f32) (main_arg21 : FVec F S200000 .f32) (main_arg22 : FVec F S1000000 .f32) (main_arg23 : IVec S2000000 32) (main_arg24 : IVec S2000000 32) (main_arg25 : IVec S200000 32) (main_arg26 : IVec S200000 32) (main_arg27 : IVec S200000 32) (main_arg28 : IVec S200000 32) (main_arg29 : IVec S1000000 32) (main_arg30 : IVec S1000000 32) : IVec S_ 1 :=
  let main_v0 : FVec F S30000x64 .f32 := Host.absf main_arg0
  let main_cst : FVec F S_ .f32 := constant S_ .f32 0x7F800000#32
  let main_v1 : FVec F S30000x64 .f32 := broadcastInDim S30000x64 ![] bcast_S_S30000x64 main_cst
  let main_v2 : IVec S30000x64 1 := cmpf .olt main_v0 main_v1
  let main_c : IVec S_ 1 := constantI S_ 1 1#1
  let main_v3 : IVec S_ 1 := (fun x v => Host.reduce IntOp.andi x v reducesTo_S30000x64_S_d0_1 h_S_) main_v2 main_c
  let main_v4 : FVec F S20000x64 .f32 := Host.absf main_arg1
  let main_cst_0 : FVec F S_ .f32 := constant S_ .f32 0x7F800000#32
  let main_v5 : FVec F S20000x64 .f32 := broadcastInDim S20000x64 ![] bcast_S_S20000x64 main_cst_0
  let main_v6 : IVec S20000x64 1 := cmpf .olt main_v4 main_v5
  let main_c_1 : IVec S_ 1 := constantI S_ 1 1#1
  let main_v7 : IVec S_ 1 := (fun x v => Host.reduce IntOp.andi x v reducesTo_S20000x64_S_d0_1 h_S_) main_v6 main_c_1
  let main_v8 : IVec S_ 1 := andi main_v3 main_v7
  let main_v9 : FVec F S20000x2048 .f32 := Host.absf main_arg2
  let main_cst_2 : FVec F S_ .f32 := constant S_ .f32 0x7F800000#32
  let main_v10 : FVec F S20000x2048 .f32 := broadcastInDim S20000x2048 ![] bcast_S_S20000x2048 main_cst_2
  let main_v11 : IVec S20000x2048 1 := cmpf .olt main_v9 main_v10
  let main_c_3 : IVec S_ 1 := constantI S_ 1 1#1
  let main_v12 : IVec S_ 1 := (fun x v => Host.reduce IntOp.andi x v reducesTo_S20000x2048_S_d0_1 h_S_) main_v11 main_c_3
  let main_v13 : IVec S_ 1 := andi main_v8 main_v12
  let main_v14 : FVec F S20000x768 .f32 := Host.absf main_arg3
  let main_cst_4 : FVec F S_ .f32 := constant S_ .f32 0x7F800000#32
  let main_v15 : FVec F S20000x768 .f32 := broadcastInDim S20000x768 ![] bcast_S_S20000x768 main_cst_4
  let main_v16 : IVec S20000x768 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S30000x64 : Shape := ⟨2, ![30000, 64]⟩
abbrev S20000x64 : Shape := ⟨2, ![20000, 64]⟩
abbrev S20000x2048 : Shape := ⟨2, ![20000, 2048]⟩
abbrev S20000x768 : Shape := ⟨2, ![20000, 768]⟩
abbrev S2048x64 : Shape := ⟨2, ![2048, 64]⟩
abbrev S64 : Shape := ⟨1, ![64]⟩
abbrev S768x64 : Shape := ⟨2, ![768, 64]⟩
abbrev S64x64 : Shape := ⟨2, ![64, 64]⟩
abbrev S64x1 : Shape := ⟨2, ![64, 1]⟩
abbrev S2000000 : Shape := ⟨1, ![2000000]⟩
abbrev S200000 : Shape := ⟨1, ![200000]⟩
abbrev S1000000 : Shape := ⟨1, ![1000000]⟩
abbrev S1x64 : Shape := ⟨2, ![1, 64]⟩
abbrev S1000x2048 : Shape := ⟨2, ![1000, 2048]⟩
abbrev S1000x768 : Shape := ⟨2, ![1000, 768]⟩
abbrev S1000x64 : Shape := ⟨2, ![1000, 64]⟩
abbrev S50000x64 : Shape := ⟨2, ![50000, 64]⟩
abbrev S2000000x1 : Shape := ⟨2, ![2000000, 1]⟩
abbrev S_ : Shape := ⟨0, ![]⟩
abbrev S2000000x64 : Shape := ⟨2, ![2000000, 64]⟩
abbrev S200000x1 : Shape := ⟨2, ![200000, 1]⟩
abbrev S200000x64 : Shape := ⟨2, ![200000, 64]⟩
abbrev S1000000x1 : Shape := ⟨2, ![1000000, 1]⟩
abbrev S1000000x64 : Shape := ⟨2, ![1000000, 64]⟩
abbrev S2x64 : Shape := ⟨2, ![2, 64]⟩
abbrev S2x1 : Shape := ⟨2, ![2, 1]⟩
abbrev S5000x64 : Shape := ⟨2, ![5000, 64]⟩
abbrev S5000x1 : Shape := ⟨2, ![5000, 1]⟩

abbrev nBuf : Space → Nat
  | .hbm => 190
  | .vmem => 35
  | .smem => 0
  | _ => 0

abbrev hbmTy0_0 (i : Nat) : BufTy := match i % 128 with
  | 0 => ⟨S30000x64, .f32⟩
  | 1 => ⟨S20000x64, .f32⟩
  | 2 => ⟨S20000x2048, .f32⟩
  | 3 => ⟨S20000x768, .f32⟩
  | 4 => ⟨S2048x64, .f32⟩
  | 5 => ⟨S64, .f32⟩
  | 6 => ⟨S768x64, .f32⟩
  | 7 => ⟨S64, .f32⟩
  | 8 => ⟨S64x64, .f32⟩
  | 9 => ⟨S64, .f32⟩
  | 10 => ⟨S64x64, .f32⟩
  | 11 => ⟨S64, .f32⟩
  | 12 => ⟨S64x64, .f32⟩
  | 13 => ⟨S64, .f32⟩
  | 14 => ⟨S64x64, .f32⟩
  | 15 => ⟨S64, .f32⟩
  | 16 => ⟨S64x64, .f32⟩
  | 17 => ⟨S64, .f32⟩
  | 18 => ⟨S64x1, .f32⟩
  | 19 => ⟨S2000000, .f32⟩
  | 20 => ⟨S200000, .f32⟩
  | 21 => ⟨S200000, .f32⟩
  | 22 => ⟨S1000000, .f32⟩
  | 23 => ⟨S2000000, .i32⟩
  | 24 => ⟨S2000000, .i32⟩
  | 25 => ⟨S200000, .i32⟩
  | 26 => ⟨S200000, .i32⟩
  | 27 => ⟨S200000, .i32⟩
  | 28 => ⟨S200000, .i32⟩
  | 29 => ⟨S1000000, .i32⟩
  | 30 => ⟨S1000000, .i32⟩
  | 31 => ⟨S1x64, .f32⟩
  | 32 => ⟨S1x64, .f32⟩
  | 33 => ⟨S1x64, .f32⟩
  | 34 => ⟨S1x64, .f32⟩
  | 35 => ⟨S20000x64, .f32⟩
  | 36 => ⟨S20000x64, .f32⟩
  | 37 => ⟨S50000x64, .f32⟩
  | 38 => ⟨S2000000x1, .f32⟩
  | 39 => ⟨S_, .i32⟩
  | 40 => ⟨S2000000, .i32⟩
  | 41 => ⟨S2000000, .i1⟩
  | 42 => ⟨S_, .i32⟩
  | 43 => ⟨S2000000, .i32⟩
  | 44 => ⟨S2000000, .i32⟩
  | 45 => ⟨S2000000, .i32⟩
  | 46 => ⟨S2000000x1, .i32⟩
  | 47 => ⟨S2000000x64, .f32⟩
  | 48 => ⟨S2000000x64, .f32⟩
  | 49 => ⟨S2000000x64, .f32⟩
  | 50 => ⟨S_, .f32⟩
  | 51 => ⟨S50000x64, .f32⟩
  | 52 => ⟨S2000000x1, .i32⟩
  | 53 => ⟨S50000x64, .f32⟩
  | 54 => ⟨S50000x64, .f32⟩
  | 55 => ⟨S2000000x1, .f32⟩
  | 56 => ⟨S_, .i32⟩
  | 57 => ⟨S2000000, .i32⟩
  | 58 => ⟨S2000000, .i1⟩
  | 59 => ⟨S_, .i32⟩
  | 60 => ⟨S2000000, .i32⟩
  | 61 => ⟨S2000000, .i32⟩
  | 62 => ⟨S2000000, .i32⟩
  | 63 => ⟨S2000000x1, .i32⟩
  | 64 => ⟨S2000000x64, .f32⟩
  | 65 => ⟨S2000000x64, .f32⟩
  | 66 => ⟨S2000000x64, .f32⟩
  | 67 => ⟨S_, .f32⟩
  | 68 => ⟨S50000x64, .f32⟩
  | 69 => ⟨S2000000x1, .i32⟩
  | 70 => ⟨S50000x64, .f32⟩
  | 71 => ⟨S50000x64, .f32⟩
  | 72 => ⟨S_, .f32⟩
  | 73 => ⟨S50000x64, .f32⟩
  | 74 => ⟨S50000x64, .f32⟩
  | 75 => ⟨S200000x1, .f32⟩
  | 76 => ⟨S_, .i32⟩
  | 77 => ⟨S200000, .i32⟩
  | 78 => ⟨S200000, .i1⟩
  | 79 => ⟨S_, .i32⟩
  | 80 => ⟨S200000, .i32⟩
  | 81 => ⟨S200000, .i32⟩
  | 82 => ⟨S200000, .i32⟩
  | 83 => ⟨S200000x1, .i32⟩
  | 84 => ⟨S200000x64, .f32⟩
  | 85 => ⟨S200000x64, .f32⟩
  | 86 => ⟨S200000x64, .f32⟩
  | 87 => ⟨S_, .f32⟩
  | 88 => ⟨S20000x64, .f32⟩
  | 89 => ⟨S200000x1, .i32⟩
  | 90 => ⟨S20000x64, .f32⟩
  | 91 => ⟨S200000x1, .f32⟩
  | 92 => ⟨S_, .i32⟩
  | 93 => ⟨S200000, .i32⟩
  | 94 => ⟨S200000, .i1⟩
  | 95 => ⟨S_, .i32⟩
  | 96 => ⟨S200000, .i32⟩
  | 97 => ⟨S200000, .i32⟩
  | 98 => ⟨S200000, .i32⟩
  | 99 => ⟨S200000x1, .i32⟩
  | 100 => ⟨S200000x64, .f32⟩
  | 101 => ⟨S200000x64, .f32⟩
  | 102 => ⟨S200000x64, .f32⟩
  | 103 => ⟨S_, .f32⟩
  | 104 => ⟨S20000x64, .f32⟩
  | 105 => ⟨S200000x1, .i32⟩
  | 106 => ⟨S20000x64, .f32⟩
  | 107 => ⟨S1000000x1, .f32⟩
  | 108 => ⟨S_, .i32⟩
  | 109 => ⟨S1000000, .i32⟩
  | 110 => ⟨S1000000, .i1⟩
  | 111 => ⟨S_, .i32⟩
  | 112 => ⟨S1000000, .i32⟩
  | 113 => ⟨S1000000, .i32⟩
  | 114 => ⟨S1000000, .i32⟩
  | 115 => ⟨S1000000x1, .i32⟩
  | 116 => ⟨S1000000x64, .f32⟩
  | 117 => ⟨S1000000x64, .f32⟩
  | 118 => ⟨S1000000x64, .f32⟩
  | 119 => ⟨S_, .f32⟩
  | 120 => ⟨S30000x64, .f32⟩
  | 121 => ⟨S1000000x1, .i32⟩
  | 122 => ⟨S30000x64, .f32⟩
  | 123 => ⟨S50000x64, .f32⟩
  | 124 => ⟨S1000000x1, .f32⟩
  | 125 => ⟨S_, .i32⟩
  | 126 => ⟨S1000000, .i32⟩
  | 127 => ⟨S1000000, .i1⟩
  | _ => ⟨S30000x64, .f32⟩

abbrev hbmTy0_1 (i : Nat) : BufTy := match i % 128 with
  | 0 => ⟨S_, .i32⟩
  | 1 => ⟨S1000000, .i32⟩
  | 2 => ⟨S1000000, .i32⟩
  | 3 => ⟨S1000000, .i32⟩
  | 4 => ⟨S1000000x1, .i32⟩
  | 5 => ⟨S1000000x64, .f32⟩
  | 6 => ⟨S1000000x64, .f32⟩
  | 7 => ⟨S1000000x64, .f32⟩
  | 8 => ⟨S_, .f32⟩
  | 9 => ⟨S30000x64, .f32⟩
  | 10 => ⟨S1000000x1, .i32⟩
  | 11 => ⟨S30000x64, .f32⟩
  | 12 => ⟨S50000x64, .f32⟩
  | 13 => ⟨S2x64, .f32⟩
  | 14 => ⟨S2x64, .f32⟩
  | 15 => ⟨S1x64, .f32⟩
  | 16 => ⟨S2x64, .f32⟩
  | 17 => ⟨S2x64, .f32⟩
  | 18 => ⟨S2x64, .f32⟩
  | 19 => ⟨S2x1, .f32⟩
  | 20 => ⟨S2x64, .f32⟩
  | 21 => ⟨S2x64, .f32⟩
  | 22 => ⟨S1x64, .f32⟩
  | 23 => ⟨S2x64, .f32⟩
  | 24 => ⟨S2x64, .f32⟩
  | 25 => ⟨S2x64, .f32⟩
  | 26 => ⟨S2x1, .f32⟩
  | 27 => ⟨S2x1, .f32⟩
  | 28 => ⟨S2x1, .f32⟩
  | 29 => ⟨S2x1, .f32⟩
  | 30 => ⟨S_, .f32⟩
  | 31 => ⟨S2x1, .f32⟩
  | 32 => ⟨S2x1, .f32⟩
  | 33 => ⟨S_, .f32⟩
  | 34 => ⟨S2x1, .f32⟩
  | 35 => ⟨S2x1, .f32⟩
  | 36 => ⟨S_, .f32⟩
  | 37 => ⟨S2x1, .f32⟩
  | 38 => ⟨S2x1, .f32⟩
  | 39 => ⟨S2x64, .f32⟩
  | 40 => ⟨S2x64, .f32⟩
  | 41 => ⟨S2x64, .f32⟩
  | 42 => ⟨S2x64, .f32⟩
  | 43 => ⟨S2x64, .f32⟩
  | 44 => ⟨S2x64, .f32⟩
  | 45 => ⟨S2x64, .f32⟩
  | 46 => ⟨S2x64, .f32⟩
  | 47 => ⟨S2x64, .f32⟩
  | 48 => ⟨S1x64, .f32⟩
  | 49 => ⟨S64, .f32⟩
  | 50 => ⟨S2x64, .f32⟩
  | 51 => ⟨S2x64, .f32⟩
  | 52 => ⟨S1x64, .f32⟩
  | 53 => ⟨S64, .f32⟩
  | 54 => ⟨S1x64, .f32⟩
  | 55 => ⟨S1x64, .f32⟩
  | 56 => ⟨S1x64, .f32⟩
  | 57 => ⟨S1x64, .f32⟩
  | 58 => ⟨S1x64, .f32⟩
  | 59 => ⟨S50000x64, .f32⟩
  | 60 => ⟨S30000x64, .f32⟩
  | 61 => ⟨S20000x64, .f32⟩
  | _ => ⟨S30000x64, .f32⟩

abbrev hbmTy (i : Nat) : BufTy := match i / 128 with
  | 0 => hbmTy0_0 i
  | 1 => hbmTy0_1 i
  | _ => ⟨S30000x64, .f32⟩

abbrev bufTy : (tb : Table) → Fin (tcTables nBuf tb) → BufTy
  | .hbm, ⟨i, _⟩ => hbmTy i
  | .local _ .vmem, ⟨0, _⟩ => ⟨S1000x2048, .f32⟩
  | .local _ .vmem, ⟨1, _⟩ => ⟨S1000x2048, .f32⟩
  | .local _ .vmem, ⟨2, _⟩ => ⟨S1000x768, .f32⟩
  | .local _ .vmem, ⟨3, _⟩ => ⟨S1000x768, .f32⟩
  | .local _ .vmem, ⟨4, _⟩ => ⟨S1000x64, .f32⟩
  | .local _ .vmem, ⟨5, _⟩ => ⟨S1000x64, .f32⟩
  | .local _ .vmem, ⟨6, _⟩ => ⟨S2048x64, .f32⟩
  | .local _ .vmem, ⟨7, _⟩ => ⟨S1x64, .f32⟩
  | .local _ .vmem, ⟨8, _⟩ => ⟨S64x64, .f32⟩
  | .local _ .vmem, ⟨9, _⟩ => ⟨S1x64, .f32⟩
  | .local _ .vmem, ⟨10, _⟩ => ⟨S768x64, .f32⟩
  | .local _ .vmem, ⟨11, _⟩ => ⟨S1x64, .f32⟩
  | .local _ .vmem, ⟨12, _⟩ => ⟨S64x64, .f32⟩
  | .local _ .vmem, ⟨13, _⟩ => ⟨S1x64, .f32⟩
  | .local _ .vmem, ⟨14, _⟩ => ⟨S1000x64, .f32⟩
  | .local _ .vmem, ⟨15, _⟩ => ⟨S1000x64, .f32⟩
  | .local _ .vmem, ⟨16, _⟩ => ⟨S1000x64, .f32⟩
  | .local _ .vmem, ⟨17, _⟩ => ⟨S1000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S64x64, .f32⟩
  | .local _ .vmem, ⟨25, _⟩ => ⟨S1x64, .f32⟩
  | .local _ .vmem, ⟨26, _⟩ => ⟨S64x1, .f32⟩
  | .local _ .vmem, ⟨27, _⟩ => ⟨S64x64, .f32⟩
  | .local _ .vmem, ⟨28, _⟩ => ⟨S1x64, .f32⟩
  | .local _ .vmem, ⟨29, _⟩ => ⟨S64x64, .f32⟩
  | .local _ .vmem, ⟨30, _⟩ => ⟨S1x64, .f32⟩
  | .local _ .vmem, ⟨31, _⟩ => ⟨S1x64, .f32⟩
  | .local _ .vmem, ⟨32, _⟩ => ⟨S1x64, .f32⟩
  | .local _ .vmem, ⟨33, _⟩ => ⟨S5000x64, .f32⟩
  | .local _ .vmem, ⟨34, _⟩ => ⟨S5000x64, .f32⟩
  | _, _ => ⟨S30000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4_0 : Ref sig .tc := ⟨.hbm, 35, rfl⟩
abbrev main_v4_1 : Ref sig .tc := ⟨.hbm, 36, rfl⟩
abbrev main_v5 : Ref sig .tc := ⟨.hbm, 37, rfl⟩
abbrev main_v6 : Ref sig .tc := ⟨.hbm, 38, rfl⟩
abbrev main_c : Ref sig .tc := ⟨.hbm, 39, rfl⟩
abbrev main_v7 : Ref sig .tc := ⟨.hbm, 40, rfl⟩
abbrev main_v8 : Ref sig .tc := ⟨.hbm, 41, rfl⟩
abbrev main_c_0 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_cst : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_c_1 : Ref sig .tc := ⟨.hbm, 56, rfl⟩
abbrev main_v21 : Ref sig .tc := ⟨.hbm, 57, rfl⟩
abbrev main_v22 : Ref sig .tc := ⟨.hbm, 58, rfl⟩
abbrev main_c_2 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_cst_3 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_cst_4 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_c_5 : Ref sig .tc := ⟨.hbm, 76, rfl⟩
abbrev main_v37 : Ref sig .tc := ⟨.hbm, 77, rfl⟩
abbrev main_v38 : Ref sig .tc := ⟨.hbm, 78, rfl⟩
abbrev main_c_6 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_cst_7 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_c_8 : Ref sig .tc := ⟨.hbm, 92, rfl⟩
abbrev main_v50 : Ref sig .tc := ⟨.hbm, 93, rfl⟩
abbrev main_v51 : Ref sig .tc := ⟨.hbm, 94, rfl⟩
abbrev main_c_9 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_cst_10 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_c_11 : Ref sig .tc := ⟨.hbm, 108, rfl⟩
abbrev main_v63 : Ref sig .tc := ⟨.hbm, 109, rfl⟩
abbrev main_v64 : Ref sig .tc := ⟨.hbm, 110, rfl⟩
abbrev main_c_12 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_cst_13 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_c_14 : Ref sig .tc := ⟨.hbm, 125, rfl⟩
abbrev main_v77 : Ref sig .tc := ⟨.hbm, 126, rfl⟩
abbrev main_v78 : Ref sig .tc := ⟨.hbm, 127, rfl⟩
abbrev main_c_15 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_cst_16 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_cst_17 : Ref sig .tc := ⟨.hbm, 158, rfl⟩
abbrev main_v107 : Ref sig .tc := ⟨.hbm, 159, rfl⟩
abbrev main_v108 : Ref sig .tc := ⟨.hbm, 160, rfl⟩
abbrev main_cst_18 : Ref sig .tc := ⟨.hbm, 161, rfl⟩
abbrev main_v109 : Ref sig .tc := ⟨.hbm, 162, rfl⟩
abbrev main_v110 : Ref sig .tc := ⟨.hbm, 163, rfl⟩
abbrev main_cst_19 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg4_0 : Ref sig .tc := ⟨.vmem, 25, rfl⟩
abbrev cc1_stg5_0 : Ref sig .tc := ⟨.vmem, 26, rfl⟩
abbrev cc1_stg6_0 : Ref sig .tc := ⟨.vmem, 27, rfl⟩
abbrev cc1_stg7_0 : Ref sig .tc := ⟨.vmem, 28, rfl⟩
abbrev cc1_stg8_0 : Ref sig .tc := ⟨.vmem, 29, rfl⟩
abbrev cc1_stg9_0 : Ref sig .tc := ⟨.vmem, 30, rfl⟩
abbrev cc1_stg10_0 : Ref sig .tc := ⟨.vmem, 31, rfl⟩
abbrev cc1_stg11_0 : Ref sig .tc := ⟨.vmem, 32, rfl⟩
abbrev cc1_stg12_0 : Ref sig .tc := ⟨.vmem, 33, rfl⟩
abbrev cc1_stg12_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem4_0 : DmaSem sig := 25
abbrev cc1_sem5_0 : DmaSem sig := 26
abbrev cc1_sem6_0 : DmaSem sig := 27
abbrev cc1_sem7_0 : DmaSem sig := 28
abbrev cc1_sem8_0 : DmaSem sig := 29
abbrev cc1_sem9_0 : DmaSem sig := 30
abbrev cc1_sem10_0 : DmaSem sig := 31
abbrev cc1_sem11_0 : DmaSem sig := 32
abbrev cc1_sem12_0 : DmaSem sig := 33
abbrev cc1_sem12_1 : DmaSem sig := 34

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S768x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1000x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1000x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x64 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S5000x64 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

class Facts₀ : Prop where
  shapeCasts_S64_S1x64 : S64.ShapeCasts S1x64
  inb_S1000x2048_S1000x2048_0_0 : ∀ a, (![0, 0] : Fin 2 → Nat) a + S1000x2048.size a ≤ S1000x2048.size a
  h_S1000x2048 : 0 < S1000x2048.numel
  bitsLt_bf16_f32 : FTy.bits .bf16 < FTy.bits .f32
  inb_S2048x64_S2048x64_0_0 : ∀ a, (![0, 0] : Fin 2 → Nat) a + S2048x64.size a ≤ S2048x64.size a
  h_S2048x64 : 0 < S2048x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1000x64 : S1x64.Broadcasts S1000x64
  inb_S64x64_S64x64_0_0 : ∀ a, (![0, 0] : Fin 2 → Nat) a + S64x64.size a ≤ S64x64.size a
  h_S64x64 : 0 < S64x64.numel
  inb_S1000x64_S1000x64_0_0 : ∀ a, (![0, 0] : Fin 2 → Nat) a + S1000x64.size a ≤ S1000x64.size a
  h_S1000x64 : 0 < S1000x64.numel
  inb_S1000x768_S1000x768_0_0 : ∀ a, (![0, 0] : Fin 2 → Nat) a + S1000x768.size a ≤ S1000x768.size a
  h_S1000x768 : 0 < S1000x768.numel
  inb_S768x64_S768x64_0_0 : ∀ a, (![0, 0] : Fin 2 → Nat) a + S768x64.size a ≤ S768x64.size a
  h_S768x64 : 0 < S768x64.numel
  concatenates_S30000x64_S20000x64_S50000x64_d0 : Shape.Concatenates [S30000x64, S20000x64] S50000x64 0
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S2000000x1_S2000000x64_0_1 : S2000000x1.BroadcastsInDim S2000000x64 (![0, 1] : Fin 2 → Fin S2000000x64.rank)
  bcast_S_S50000x64 : S_.BroadcastsInDim S50000x64 (![] : Fin 0 → Fin S50000x64.rank)
  bcast_S200000_S200000x1_0 : S200000.BroadcastsInDim S200000x1 (![0] : Fin 1 → Fin S200000x1.rank)
  bcast_S_S200000 : S_.BroadcastsInDim S200000 (![] : Fin 0 → Fin S200000.rank)
  bcast_S200000x1_S200000x64_0_1 : S200000x1.BroadcastsInDim S200000x64 (![0, 1] : Fin 2 → Fin S200000x64.rank)
  bcast_S_S20000x64 : S_.BroadcastsInDim S20000x64 (![] : Fin 0 → Fin S20000x64.rank)
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S1000000x1_S1000000x64_0_1 : S1000000x1.BroadcastsInDim S1000000x64 (![0, 1] : Fin 2 → Fin S1000000x64.rank)
  bcast_S_S30000x64 : S_.BroadcastsInDim S30000x64 (![] : Fin 0 → Fin S30000x64.rank)
  slices_S50000x64_S2x64_0_0 : S50000x64.Slices ![0, 0] S2x64
  bcast_S64_S1x64_1 : S64.BroadcastsInDim S1x64 (![1] : Fin 1 → Fin S1x64.rank)
  bcast_S1x64_S2x64_0_1 : S1x64.BroadcastsInDim S2x64 (![0, 1] : Fin 2 → Fin S2x64.rank)
  bcast_S_S2x1 : S_.BroadcastsInDim S2x1 (![] : Fin 0 → Fin S2x1.rank)
  bcast_S2x1_S2x64_0_1 : S2x1.BroadcastsInDim S2x64 (![0, 1] : Fin 2 → Fin S2x64.rank)
  slices_S2x64_S1x64_0_0 : S2x64.Slices ![0, 0] S1x64
  shapeCasts_S1x64_S64 : S1x64.ShapeCasts S64
  slices_S2x64_S1x64_1_0 : S2x64.Slices ![1, 0] S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x1_S64x1_0_0 : ∀ a, (![0, 0] : Fin 2 → Nat) a + S64x1.size a ≤ S64x1.size a
  h_S64x1 : 0 < S64x1.numel
  broadcasts_S1x64_S5000x64 : S1x64.Broadcasts S5000x64
  broadcasts_S5000x1_S5000x64 : S5000x1.Broadcasts S5000x64
  slices_S50000x64_S30000x64_0_0 : S50000x64.Slices ![0, 0] S30000x64
  slices_S50000x64_S20000x64_30000_0 : S50000x64.Slices ![30000, 0] S20000x64
  dot_S1000x2048_S2048x64_S1000x64_1_0_0_1_n_n_wf : DotDims.WF S1000x2048 S2048x64 S1000x64 [1] [0] [0] [1] [] []
  dot_S1000x64_S64x64_S1000x64_1_0_0_1_n_n_wf : DotDims.WF S1000x64 S64x64 S1000x64 [1] [0] [0] [1] [] []
  dot_S1000x768_S768x64_S1000x64_1_0_0_1_n_n_wf : DotDims.WF S1000x768 S768x64 S1000x64 [1] [0] [0] [1] [] []
  gather_S50000x64_S2000000x1_S2000000x64_1_0_n_n_0_1_164_wf : GatherDims.WF S50000x64 S2000000x1 S2000000x64 [1] [0] [] [0] [] 1 ![1, 64]
  scatter_S50000x64_S2000000x1_S2000000x64_1_0_0_1_wf : ScatterDims.WF S50000x64 S2000000x1 S2000000x64 [1] [0] [0] 1
  gather_S20000x64_S200000x1_S200000x64_1_0_n_n_0_1_164_wf : GatherDims.WF S20000x64 S200000x1 S200000x64 [1] [0] [] [0] [] 1 ![1, 64]
  scatter_S20000x64_S200000x1_S200000x64_1_0_0_1_wf : ScatterDims.WF S20000x64 S200000x1 S200000x64 [1] [0] [0] 1
  gather_S20000x64_S1000000x1_S1000000x64_1_0_n_n_0_1_164_wf : GatherDims.WF S20000x64 S1000000x1 S1000000x64 [1] [0] [] [0] [] 1 ![1, 64]
  scatter_S30000x64_S1000000x1_S1000000x64_1_0_0_1_wf : ScatterDims.WF S30000x64 S1000000x1 S1000000x64 [1] [0] [0] 1
  dot_S2x64_S64x64_S2x64_1_0_0_1_n_n_wf : DotDims.WF S2x64 S64x64 S2x64 [1] [0] [0] [1] [] []
  dot_S2x64_S64x1_S2x1_1_0_0_1_n_n_wf : DotDims.WF S2x64 S64x1 S2x1 [1] [0] [0] [1] [] []
  dot_S5000x64_S64x64_S5000x64_1_0_0_1_n_n_wf : DotDims.WF S5000x64 S64x64 S5000x64 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x2048.size a ≤ S20000x2048.size a
  hwx0_0 : ∀ i : grid0.Coords, EltTy.bits .f32 = 32 ∨ (Rect.block (s := S20000x2048) S1000x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x768.size a ≤ S20000x768.size a
  hwx0_1 : ∀ i : grid0.Coords, EltTy.bits .f32 = 32 ∨ (Rect.block (s := S20000x768) S1000x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x64.size a ≤ S20000x64.size a
  hwx0_2 : ∀ i : grid0.Coords, EltTy.bits .f32 = 32 ∨ (Rect.block (s := S20000x64) S1000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S2048x64.size a
  hwx0_3 : ∀ i : grid0.Coords, EltTy.bits .f32 = 32 ∨ (Rect.block (s := S2048x64) S2048x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S768x64.size a ≤ S768x64.size a
  hwx0_7 : ∀ i : grid0.Coords, EltTy.bits .f32 = 32 ∨ (Rect.block (s := S768x64) S768x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x64.size a ≤ S64x64.size a
  hwx0_9 : ∀ i : grid0.Coords, EltTy.bits .f32 = 32 ∨ (Rect.block (s := S64x64) S64x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1000x64.size a ≤ S20000x64.size a
  hwx0_11 : ∀ i : grid0.Coords, EltTy.bits .f32 = 32 ∨ (Rect.block (s := S20000x64) S1000x64.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1000x64.size a ≤ S20000x64.size a
  hwx0_12 : ∀ i : grid0.Coords, EltTy.bits .f32 = 32 ∨ (Rect.block (s := S20000x64) S1000x64.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x1.size a ≤ S64x1.size a
  hwx1_5 : ∀ i : grid1.Coords, EltTy.bits .f32 = 32 ∨ (Rect.block (s := S64x1) S64x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x64.size a ≤ S64x64.size a
  hwx1_6 : ∀ i : grid1.Coords, EltTy.bits .f32 = 32 ∨ (Rect.block (s := S64x64) S64x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x64.size a ≤ S64x64.size a
  hwx1_8 : ∀ i : grid1.Coords, EltTy.bits .f32 = 32 ∨ (Rect.block (s := S64x64) S64x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x64.size a ≤ S1x64.size a
  hwx1_10 : ∀ i : grid1.Coords, EltTy.bits .f32 = 32 ∨ (Rect.block (s := S1x64) S1x64.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x64.size a ≤ S1x64.size a
  hwx1_11 : ∀ i : grid1.Coords, EltTy.bits .f32 = 32 ∨ (Rect.block (s := S1x64) S1x64.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S5000x64.size a ≤ S50000x64.size a
  hwx1_12 : ∀ i : grid1.Coords, EltTy.bits .f32 = 32 ∨ (Rect.block (s := S50000x64) S5000x64.size (cc1_transform_12 i) (hinb1_12 i)).WholeWords (EltTy.packing .f32)

variable [Facts₀]

def dot_S1000x2048_S2048x64_S1000x64_1_0_0_1_n_n : DotDims S1000x2048 S2048x64 S1000x64 where
  lhsContracting := [1]
  rhsContracting := [0]
  lhsNonContracting := [0]
  rhsNonContracting := [1]
  lhsBatch := []
  rhsBatch := []
  wf := dot_S1000x2048_S2048x64_S1000x64_1_0_0_1_n_n_wf
def dot_S1000x64_S64x64_S1000x64_1_0_0_1_n_n : DotDims S1000x64 S64x64 S1000x64 where
  lhsContracting := [1]
  rhsContracting := [0]
  lhsNonContracting := [0]
  rhsNonContracting := [1]
  lhsBatch := []
  rhsBatch := []
  wf := dot_S1000x64_S64x64_S1000x64_1_0_0_1_n_n_wf
def dot_S1000x768_S768x64_S1000x64_1_0_0_1_n_n : DotDims S1000x768 S768x64 S1000x64 where
  lhsContracting := [1]
  rhsContracting := [0]
  lhsNonContracting := [0]
  rhsNonContracting := [1]
  lhsBatch := []
  rhsBatch := []
  wf := dot_S1000x768_S768x64_S1000x64_1_0_0_1_n_n_wf
def gather_S50000x64_S2000000x1_S2000000x64_1_0_n_n_0_1_164 : GatherDims S50000x64 S2000000x1 S2000000x64 where
  offsetDims := [1]
  collapsedSliceDims := [0]
  operandBatchingDims := []
  startIndicesBatchingDims := []
  startIndexMap := [0]
  indexVectorDim := 1
  sliceSizes := ![1, 64]
  wf := gather_S50000x64_S2000000x1_S2000000x64_1_0_n_n_0_1_164_wf
def scatter_S50000x64_S2000000x1_S2000000x64_1_0_0_1 : ScatterDims S50000x64 S2000000x1 S2000000x64 where
  updateWindowDims := [1]
  insertedWindowDims := [0]
  scatterDimsToOperandDims := [0]
  indexVectorDim := 1
  wf := scatter_S50000x64_S2000000x1_S2000000x64_1_0_0_1_wf
def gather_S20000x64_S200000x1_S200000x64_1_0_n_n_0_1_164 : GatherDims S20000x64 S200000x1 S200000x64 where
  offsetDims := [1]
  collapsedSliceDims := [0]
  operandBatchingDims := []
  startIndicesBatchingDims := []
  startIndexMap := [0]
  indexVectorDim := 1
  sliceSizes := ![1, 64]
  wf := gather_S20000x64_S200000x1_S200000x64_1_0_n_n_0_1_164_wf
def scatter_S20000x64_S200000x1_S200000x64_1_0_0_1 : ScatterDims S20000x64 S200000x1 S200000x64 where
  updateWindowDims := [1]
  insertedWindowDims := [0]
  scatterDimsToOperandDims := [0]
  indexVectorDim := 1
  wf := scatter_S20000x64_S200000x1_S200000x64_1_0_0_1_wf
def gather_S20000x64_S1000000x1_S1000000x64_1_0_n_n_0_1_164 : GatherDims S20000x64 S1000000x1 S1000000x64 where
  offsetDims := [1]
  collapsedSliceDims := [0]
  operandBatchingDims := []
  startIndicesBatchingDims := []
  startIndexMap := [0]
  indexVectorDim := 1
  sliceSizes := ![1, 64]
  wf := gather_S20000x64_S1000000x1_S1000000x64_1_0_n_n_0_1_164_wf
def scatter_S30000x64_S1000000x1_S1000000x64_1_0_0_1 : ScatterDims S30000x64 S1000000x1 S1000000x64 where
  updateWindowDims := [1]
  insertedWindowDims := [0]
  scatterDimsToOperandDims := [0]
  indexVectorDim := 1
  wf := scatter_S30000x64_S1000000x1_S1000000x64_1_0_0_1_wf
def dot_S2x64_S64x64_S2x64_1_0_0_1_n_n : DotDims S2x64 S64x64 S2x64 where
  lhsContracting := [1]
  rhsContracting := [0]
  lhsNonContracting := [0]
  rhsNonContracting := [1]
  lhsBatch := []
  rhsBatch := []
  wf := dot_S2x64_S64x64_S2x64_1_0_0_1_n_n_wf
def dot_S2x64_S64x1_S2x1_1_0_0_1_n_n : DotDims S2x64 S64x1 S2x1 where
  lhsContracting := [1]
  rhsContracting := [0]
  lhsNonContracting := [0]
  rhsNonContracting := [1]
  lhsBatch := []
  rhsBatch := []
  wf := dot_S2x64_S64x1_S2x1_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_arg2) S1000x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1000x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S2048x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S768x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S64x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v3) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v4_0) S1000x64.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v4_1) S1000x64.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_v35) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v75) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v89) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg16) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v128) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg18) S64x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg12) S64x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v129) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg14) S64x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v130) S1x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v131) S1x64.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v132) S1x64.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v133) S5000x64.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

class Facts : Prop extends Facts₀ where

variable [Facts]
-- ==== ReferenceIdeal.lean ====
abbrev S30000x64 : Shape := ⟨2, ![30000, 64]⟩
abbrev S20000x64 : Shape := ⟨2, ![20000, 64]⟩
abbrev S20000x2048 : Shape := ⟨2, ![20000, 2048]⟩
abbrev S20000x768 : Shape := ⟨2, ![20000, 768]⟩
abbrev S2048x64 : Shape := ⟨2, ![2048, 64]⟩
abbrev S64 : Shape := ⟨1, ![64]⟩
abbrev S768x64 : Shape := ⟨2, ![768, 64]⟩
abbrev S64x64 : Shape := ⟨2, ![64, 64]⟩
abbrev S64x1 : Shape := ⟨2, ![64, 1]⟩
abbrev S2000000 : Shape := ⟨1, ![2000000]⟩
abbrev S200000 : Shape := ⟨1, ![200000]⟩
abbrev S1000000 : Shape := ⟨1, ![1000000]⟩
abbrev S1x64 : Shape := ⟨2, ![1, 64]⟩
abbrev S_ : Shape := ⟨0, ![]⟩
abbrev S50000x64 : Shape := ⟨2, ![50000, 64]⟩
abbrev S2000000x1 : Shape := ⟨2, ![2000000, 1]⟩
abbrev S2000000x64 : Shape := ⟨2, ![2000000, 64]⟩
abbrev S200000x1 : Shape := ⟨2, ![200000, 1]⟩
abbrev S200000x64 : Shape := ⟨2, ![200000, 64]⟩
abbrev S1000000x1 : Shape := ⟨2, ![1000000, 1]⟩
abbrev S1000000x64 : Shape := ⟨2, ![1000000, 64]⟩
abbrev S50000x1 : Shape := ⟨2, ![50000, 1]⟩
abbrev S50000x2 : Shape := ⟨2, ![50000, 2]⟩
abbrev S50000 : Shape := ⟨1, ![50000]⟩

abbrev nBuf : Space → Nat
  | .hbm => 247
  | .vmem => 0
  | .smem => 0
  | _ => 0

abbrev hbmTy0_0 (i : Nat) : BufTy := match i % 128 with
  | 0 => ⟨S30000x64, .f32⟩
  | 1 => ⟨S20000x64, .f32⟩
  | 2 => ⟨S20000x2048, .f32⟩
  | 3 => ⟨S20000x768, .f32⟩
  | 4 => ⟨S2048x64, .f32⟩
  | 5 => ⟨S64, .f32⟩
  | 6 => ⟨S768x64, .f32⟩
  | 7 => ⟨S64, .f32⟩
  | 8 => ⟨S64x64, .f32⟩
  | 9 => ⟨S64, .f32⟩
  | 10 => ⟨S64x64, .f32⟩
  | 11 => ⟨S64, .f32⟩
  | 12 => ⟨S64x64, .f32⟩
  | 13 => ⟨S64, .f32⟩
  | 14 => ⟨S64x64, .f32⟩
  | 15 => ⟨S64, .f32⟩
  | 16 => ⟨S64x64, .f32⟩
  | 17 => ⟨S64, .f32⟩
  | 18 => ⟨S64x1, .f32⟩
  | 19 => ⟨S2000000, .f32⟩
  | 20 => ⟨S200000, .f32⟩
  | 21 => ⟨S200000, .f32⟩
  | 22 => ⟨S1000000, .f32⟩
  | 23 => ⟨S2000000, .i32⟩
  | 24 => ⟨S2000000, .i32⟩
  | 25 => ⟨S200000, .i32⟩
  | 26 => ⟨S200000, .i32⟩
  | 27 => ⟨S200000, .i32⟩
  | 28 => ⟨S200000, .i32⟩
  | 29 => ⟨S1000000, .i32⟩
  | 30 => ⟨S1000000, .i32⟩
  | 31 => ⟨S20000x64, .f32⟩
  | 32 => ⟨S1x64, .f32⟩
  | 33 => ⟨S20000x64, .f32⟩
  | 34 => ⟨S20000x64, .f32⟩
  | 35 => ⟨S20000x64, .f32⟩
  | 36 => ⟨S1x64, .f32⟩
  | 37 => ⟨S20000x64, .f32⟩
  | 38 => ⟨S20000x64, .f32⟩
  | 39 => ⟨S20000x64, .f32⟩
  | 40 => ⟨S20000x64, .f32⟩
  | 41 => ⟨S_, .f32⟩
  | 42 => ⟨S20000x64, .f32⟩
  | 43 => ⟨S20000x64, .f32⟩
  | 44 => ⟨S_, .f32⟩
  | 45 => ⟨S20000x64, .f32⟩
  | 46 => ⟨S20000x64, .f32⟩
  | 47 => ⟨S20000x64, .f32⟩
  | 48 => ⟨S20000x64, .f32⟩
  | 49 => ⟨S1x64, .f32⟩
  | 50 => ⟨S20000x64, .f32⟩
  | 51 => ⟨S20000x64, .f32⟩
  | 52 => ⟨S20000x64, .f32⟩
  | 53 => ⟨S1x64, .f32⟩
  | 54 => ⟨S20000x64, .f32⟩
  | 55 => ⟨S20000x64, .f32⟩
  | 56 => ⟨S20000x64, .f32⟩
  | 57 => ⟨S20000x64, .f32⟩
  | 58 => ⟨S_, .f32⟩
  | 59 => ⟨S20000x64, .f32⟩
  | 60 => ⟨S20000x64, .f32⟩
  | 61 => ⟨S_, .f32⟩
  | 62 => ⟨S20000x64, .f32⟩
  | 63 => ⟨S20000x64, .f32⟩
  | 64 => ⟨S20000x64, .f32⟩
  | 65 => ⟨S50000x64, .f32⟩
  | 66 => ⟨S2000000x1, .f32⟩
  | 67 => ⟨S_, .i32⟩
  | 68 => ⟨S2000000, .i32⟩
  | 69 => ⟨S2000000, .i1⟩
  | 70 => ⟨S_, .i32⟩
  | 71 => ⟨S2000000, .i32⟩
  | 72 => ⟨S2000000, .i32⟩
  | 73 => ⟨S2000000, .i32⟩
  | 74 => ⟨S2000000x1, .i32⟩
  | 75 => ⟨S2000000x64, .f32⟩
  | 76 => ⟨S2000000x64, .f32⟩
  | 77 => ⟨S2000000x64, .f32⟩
  | 78 => ⟨S_, .f32⟩
  | 79 => ⟨S50000x64, .f32⟩
  | 80 => ⟨S2000000x1, .i32⟩
  | 81 => ⟨S50000x64, .f32⟩
  | 82 => ⟨S50000x64, .f32⟩
  | 83 => ⟨S2000000x1, .f32⟩
  | 84 => ⟨S_, .i32⟩
  | 85 => ⟨S2000000, .i32⟩
  | 86 => ⟨S2000000, .i1⟩
  | 87 => ⟨S_, .i32⟩
  | 88 => ⟨S2000000, .i32⟩
  | 89 => ⟨S2000000, .i32⟩
  | 90 => ⟨S2000000, .i32⟩
  | 91 => ⟨S2000000x1, .i32⟩
  | 92 => ⟨S2000000x64, .f32⟩
  | 93 => ⟨S2000000x64, .f32⟩
  | 94 => ⟨S2000000x64, .f32⟩
  | 95 => ⟨S_, .f32⟩
  | 96 => ⟨S50000x64, .f32⟩
  | 97 => ⟨S2000000x1, .i32⟩
  | 98 => ⟨S50000x64, .f32⟩
  | 99 => ⟨S50000x64, .f32⟩
  | 100 => ⟨S_, .f32⟩
  | 101 => ⟨S50000x64, .f32⟩
  | 102 => ⟨S50000x64, .f32⟩
  | 103 => ⟨S200000x1, .f32⟩
  | 104 => ⟨S_, .i32⟩
  | 105 => ⟨S200000, .i32⟩
  | 106 => ⟨S200000, .i1⟩
  | 107 => ⟨S_, .i32⟩
  | 108 => ⟨S200000, .i32⟩
  | 109 => ⟨S200000, .i32⟩
  | 110 => ⟨S200000, .i32⟩
  | 111 => ⟨S200000x1, .i32⟩
  | 112 => ⟨S200000x64, .f32⟩
  | 113 => ⟨S200000x64, .f32⟩
  | 114 => ⟨S200000x64, .f32⟩
  | 115 => ⟨S_, .f32⟩
  | 116 => ⟨S20000x64, .f32⟩
  | 117 => ⟨S200000x1, .i32⟩
  | 118 => ⟨S20000x64, .f32⟩
  | 119 => ⟨S200000x1, .f32⟩
  | 120 => ⟨S_, .i32⟩
  | 121 => ⟨S200000, .i32⟩
  | 122 => ⟨S200000, .i1⟩
  | 123 => ⟨S_, .i32⟩
  | 124 => ⟨S200000, .i32⟩
  | 125 => ⟨S200000, .i32⟩
  | 126 => ⟨S200000, .i32⟩
  | 127 => ⟨S200000x1, .i32⟩
  | _ => ⟨S30000x64, .f32⟩

abbrev hbmTy0_1 (i : Nat) : BufTy := match i % 128 with
  | 0 => ⟨S200000x64, .f32⟩
  | 1 => ⟨S200000x64, .f32⟩
  | 2 => ⟨S200000x64, .f32⟩
  | 3 => ⟨S_, .f32⟩
  | 4 => ⟨S20000x64, .f32⟩
  | 5 => ⟨S200000x1, .i32⟩
  | 6 => ⟨S20000x64, .f32⟩
  | 7 => ⟨S1000000x1, .f32⟩
  | 8 => ⟨S_, .i32⟩
  | 9 => ⟨S1000000, .i32⟩
  | 10 => ⟨S1000000, .i1⟩
  | 11 => ⟨S_, .i32⟩
  | 12 => ⟨S1000000, .i32⟩
  | 13 => ⟨S1000000, .i32⟩
  | 14 => ⟨S1000000, .i32⟩
  | 15 => ⟨S1000000x1, .i32⟩
  | 16 => ⟨S1000000x64, .f32⟩
  | 17 => ⟨S1000000x64, .f32⟩
  | 18 => ⟨S1000000x64, .f32⟩
  | 19 => ⟨S_, .f32⟩
  | 20 => ⟨S30000x64, .f32⟩
  | 21 => ⟨S1000000x1, .i32⟩
  | 22 => ⟨S30000x64, .f32⟩
  | 23 => ⟨S50000x64, .f32⟩
  | 24 => ⟨S1000000x1, .f32⟩
  | 25 => ⟨S_, .i32⟩
  | 26 => ⟨S1000000, .i32⟩
  | 27 => ⟨S1000000, .i1⟩
  | 28 => ⟨S_, .i32⟩
  | 29 => ⟨S1000000, .i32⟩
  | 30 => ⟨S1000000, .i32⟩
  | 31 => ⟨S1000000, .i32⟩
  | 32 => ⟨S1000000x1, .i32⟩
  | 33 => ⟨S1000000x64, .f32⟩
  | 34 => ⟨S1000000x64, .f32⟩
  | 35 => ⟨S1000000x64, .f32⟩
  | 36 => ⟨S_, .f32⟩
  | 37 => ⟨S30000x64, .f32⟩
  | 38 => ⟨S1000000x1, .i32⟩
  | 39 => ⟨S30000x64, .f32⟩
  | 40 => ⟨S50000x64, .f32⟩
  | 41 => ⟨S50000x64, .f32⟩
  | 42 => ⟨S1x64, .f32⟩
  | 43 => ⟨S50000x64, .f32⟩
  | 44 => ⟨S50000x64, .f32⟩
  | 45 => ⟨S50000x64, .f32⟩
  | 46 => ⟨S50000x1, .f32⟩
  | 47 => ⟨S50000x64, .f32⟩
  | 48 => ⟨S1x64, .f32⟩
  | 49 => ⟨S50000x64, .f32⟩
  | 50 => ⟨S50000x64, .f32⟩
  | 51 => ⟨S50000x64, .f32⟩
  | 52 => ⟨S50000x1, .f32⟩
  | 53 => ⟨S50000x2, .f32⟩
  | 54 => ⟨S_, .f32⟩
  | 55 => ⟨S50000, .f32⟩
  | 56 => ⟨S_, .f32⟩
  | 57 => ⟨S50000, .f32⟩
  | 58 => ⟨S50000, .f32⟩
  | 59 => ⟨S50000x1, .f32⟩
  | 60 => ⟨S50000x2, .f32⟩
  | 61 => ⟨S50000x2, .f32⟩
  | 62 => ⟨S50000x2, .f32⟩
  | 63 => ⟨S_, .f32⟩
  | 64 => ⟨S50000, .f32⟩
  | 65 => ⟨S50000x1, .f32⟩
  | 66 => ⟨S50000x2, .f32⟩
  | 67 => ⟨S50000x2, .f32⟩
  | 68 => ⟨S50000x1, .f32⟩
  | 69 => ⟨S50000x64, .f32⟩
  | 70 => ⟨S50000x64, .f32⟩
  | 71 => ⟨S50000x1, .f32⟩
  | 72 => ⟨S50000x64, .f32⟩
  | 73 => ⟨S50000x64, .f32⟩
  | 74 => ⟨S50000x64, .f32⟩
  | 75 => ⟨S50000x64, .f32⟩
  | 76 => ⟨S1x64, .f32⟩
  | 77 => ⟨S50000x64, .f32⟩
  | 78 => ⟨S50000x64, .f32⟩
  | 79 => ⟨S50000x64, .f32⟩
  | 80 => ⟨S50000x64, .f32⟩
  | 81 => ⟨S_, .f32⟩
  | 82 => ⟨S50000x64, .f32⟩
  | 83 => ⟨S50000x64, .f32⟩
  | 84 => ⟨S_, .f32⟩
  | 85 => ⟨S50000x64, .f32⟩
  | 86 => ⟨S50000x64, .f32⟩
  | 87 => ⟨S50000x64, .f32⟩
  | 88 => ⟨S1x64, .f32⟩
  | 89 => ⟨S50000x64, .f32⟩
  | 90 => ⟨S50000x64, .f32⟩
  | 91 => ⟨S50000x64, .f32⟩
  | 92 => ⟨S50000x64, .f32⟩
  | 93 => ⟨S_, .f32⟩
  | 94 => ⟨S50000x64, .f32⟩
  | 95 => ⟨S50000x64, .f32⟩
  | 96 => ⟨S_, .f32⟩
  | 97 => ⟨S50000x64, .f32⟩
  | 98 => ⟨S50000x64, .f32⟩
  | 99 => ⟨S50000x64, .f32⟩
  | 100 => ⟨S1x64, .f32⟩
  | 101 => ⟨S64, .f32⟩
  | 102 => ⟨S1x64, .f32⟩
  | 103 => ⟨S50000x64, .f32⟩
  | 104 => ⟨S50000x64, .f32⟩
  | 105 => ⟨S50000x64, .f32⟩
  | 106 => ⟨S1x64, .f32⟩
  | 107 => ⟨S64, .f32⟩
  | 108 => ⟨S1x64, .f32⟩
  | 109 => ⟨S50000x64, .f32⟩
  | 110 => ⟨S50000x64, .f32⟩
  | 111 => ⟨S50000x64, .f32⟩
  | 112 => ⟨S50000x64, .f32⟩
  | 113 => ⟨S_, .f32⟩
  | 114 => ⟨S50000x64, .f32⟩
  | 115 => ⟨S50000x64, .f32⟩
  | 116 => ⟨S50000x64, .f32⟩
  | 117 => ⟨S30000x64, .f32⟩
  | 118 => ⟨S20000x64, .f32⟩
  | _ => ⟨S30000x64, .f32⟩

abbrev hbmTy (i : Nat) : BufTy := match i / 128 with
  | 0 => hbmTy0_0 i
  | 1 => hbmTy0_1 i
  | _ => ⟨S30000x64, .f32⟩

abbrev bufTy : (tb : Table) → Fin (tcTables nBuf tb) → BufTy
  | .hbm, ⟨i, _⟩ => hbmTy i
  | _, _ => ⟨S30000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_cst : Ref sig .tc := ⟨.hbm, 41, rfl⟩
abbrev main_v10 : Ref sig .tc := ⟨.hbm, 42, rfl⟩
abbrev main_v11 : Ref sig .tc := ⟨.hbm, 43, rfl⟩
abbrev main_cst_0 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_cst_1 : Ref sig .tc := ⟨.hbm, 58, rfl⟩
abbrev main_v25 : Ref sig .tc := ⟨.hbm, 59, rfl⟩
abbrev main_v26 : Ref sig .tc := ⟨.hbm, 60, rfl⟩
abbrev main_cst_2 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_c : Ref sig .tc := ⟨.hbm, 67, rfl⟩
abbrev main_v32 : Ref sig .tc := ⟨.hbm, 68, rfl⟩
abbrev main_v33 : Ref sig .tc := ⟨.hbm, 69, rfl⟩
abbrev main_c_3 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_cst_4 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_c_5 : Ref sig .tc := ⟨.hbm, 84, rfl⟩
abbrev main_v46 : Ref sig .tc := ⟨.hbm, 85, rfl⟩
abbrev main_v47 : Ref sig .tc := ⟨.hbm, 86, rfl⟩
abbrev main_c_6 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_cst_7 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_cst_8 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_c_9 : Ref sig .tc := ⟨.hbm, 104, rfl⟩
abbrev main_v62 : Ref sig .tc := ⟨.hbm, 105, rfl⟩
abbrev main_v63 : Ref sig .tc := ⟨.hbm, 106, rfl⟩
abbrev main_c_10 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_cst_11 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_c_12 : Ref sig .tc := ⟨.hbm, 120, rfl⟩
abbrev main_v75 : Ref sig .tc := ⟨.hbm, 121, rfl⟩
abbrev main_v76 : Ref sig .tc := ⟨.hbm, 122, rfl⟩
abbrev main_c_13 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_cst_14 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_c_15 : Ref sig .tc := ⟨.hbm, 136, rfl⟩
abbrev main_v88 : Ref sig .tc := ⟨.hbm, 137, rfl⟩
abbrev main_v89 : Ref sig .tc := ⟨.hbm, 138, rfl⟩
abbrev main_c_16 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_cst_17 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_c_18 : Ref sig .tc := ⟨.hbm, 153, rfl⟩
abbrev main_v102 : Ref sig .tc := ⟨.hbm, 154, rfl⟩
abbrev main_v103 : Ref sig .tc := ⟨.hbm, 155, rfl⟩
abbrev main_c_19 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_cst_20 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_cst_21 : Ref sig .tc := ⟨.hbm, 182, rfl⟩
abbrev main_v128 : Ref sig .tc := ⟨.hbm, 183, rfl⟩
abbrev main_cst_22 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_cst_23 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_cst_24 : Ref sig .tc := ⟨.hbm, 209, rfl⟩
abbrev main_v152 : Ref sig .tc := ⟨.hbm, 210, rfl⟩
abbrev main_v153 : Ref sig .tc := ⟨.hbm, 211, rfl⟩
abbrev main_cst_25 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_cst_26 : Ref sig .tc := ⟨.hbm, 221, rfl⟩
abbrev main_v162 : Ref sig .tc := ⟨.hbm, 222, rfl⟩
abbrev main_v163 : Ref sig .tc := ⟨.hbm, 223, rfl⟩
abbrev main_cst_27 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_v168 : Ref sig .tc := ⟨.hbm, 229, rfl⟩
abbrev main_v169 : Ref sig .tc := ⟨.hbm, 230, rfl⟩
abbrev main_v170 : Ref sig .tc := ⟨.hbm, 231, rfl⟩
abbrev main_v171 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩
abbrev main_v175 : Ref sig .tc := ⟨.hbm, 236, rfl⟩
abbrev main_v176 : Ref sig .tc := ⟨.hbm, 237, rfl⟩
abbrev main_v177 : Ref sig .tc := ⟨.hbm, 238, rfl⟩
abbrev main_v178 : Ref sig .tc := ⟨.hbm, 239, rfl⟩
abbrev main_v179 : Ref sig .tc := ⟨.hbm, 240, rfl⟩
abbrev main_cst_28 : Ref sig .tc := ⟨.hbm, 241, rfl⟩
abbrev main_v180 : Ref sig .tc := ⟨.hbm, 242, rfl⟩
abbrev main_v181 : Ref sig .tc := ⟨.hbm, 243, rfl⟩
abbrev main_v182 : Ref sig .tc := ⟨.hbm, 244, rfl⟩
abbrev main_v183 : Ref sig .tc := ⟨.hbm, 245, rfl⟩
abbrev main_v184 : Ref sig .tc := ⟨.hbm, 246, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S20000x64_0_1 : S1x64.BroadcastsInDim S20000x64 (![0, 1] : Fin 2 → Fin S20000x64.rank)
  bcast_S_S20000x64 : S_.BroadcastsInDim S20000x64 (![] : Fin 0 → Fin S20000x64.rank)
  concatenates_S30000x64_S20000x64_S50000x64_d0 : Shape.Concatenates [S30000x64, S20000x64] S50000x64 0
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S2000000x1_S2000000x64_0_1 : S2000000x1.BroadcastsInDim S2000000x64 (![0, 1] : Fin 2 → Fin S2000000x64.rank)
  bcast_S_S50000x64 : S_.BroadcastsInDim S50000x64 (![] : Fin 0 → Fin S50000x64.rank)
  bcast_S200000_S200000x1_0 : S200000.BroadcastsInDim S200000x1 (![0] : Fin 1 → Fin S200000x1.rank)
  bcast_S_S200000 : S_.BroadcastsInDim S200000 (![] : Fin 0 → Fin S200000.rank)
  bcast_S200000x1_S200000x64_0_1 : S200000x1.BroadcastsInDim S200000x64 (![0, 1] : Fin 2 → Fin S200000x64.rank)
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S1000000x1_S1000000x64_0_1 : S1000000x1.BroadcastsInDim S1000000x64 (![0, 1] : Fin 2 → Fin S1000000x64.rank)
  bcast_S_S30000x64 : S_.BroadcastsInDim S30000x64 (![] : Fin 0 → Fin S30000x64.rank)
  bcast_S1x64_S50000x64_0_1 : S1x64.BroadcastsInDim S50000x64 (![0, 1] : Fin 2 → Fin S50000x64.rank)
  concatenates_S50000x1_S50000x1_S50000x2_d1 : Shape.Concatenates [S50000x1, S50000x1] S50000x2 1
  reducesTo_S50000x2_S50000_d1 : S50000x2.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x2_0_1 : S50000x1.BroadcastsInDim S50000x2 (![0, 1] : Fin 2 → Fin S50000x2.rank)
  slices_S50000x2_S50000x1_0_0 : S50000x2.Slices ![0, 0] S50000x1
  bcast_S50000x1_S50000x64_0_1 : S50000x1.BroadcastsInDim S50000x64 (![0, 1] : Fin 2 → Fin S50000x64.rank)
  slices_S50000x2_S50000x1_0_1 : S50000x2.Slices ![0, 1] S50000x1
  slices_S50000x64_S1x64_0_0 : S50000x64.Slices ![0, 0] S1x64
  shapeCasts_S1x64_S64 : S1x64.ShapeCasts S64
  slices_S50000x64_S1x64_1_0 : S50000x64.Slices ![1, 0] S1x64
  slices_S50000x64_S30000x64_0_0 : S50000x64.Slices ![0, 0] S30000x64
  slices_S50000x64_S20000x64_30000_0 : S50000x64.Slices ![30000, 0] S20000x64
  dot_S20000x2048_S2048x64_S20000x64_1_0_0_1_n_n_wf : DotDims.WF S20000x2048 S2048x64 S20000x64 [1] [0] [0] [1] [] []
  dot_S20000x64_S64x64_S20000x64_1_0_0_1_n_n_wf : DotDims.WF S20000x64 S64x64 S20000x64 [1] [0] [0] [1] [] []
  dot_S20000x768_S768x64_S20000x64_1_0_0_1_n_n_wf : DotDims.WF S20000x768 S768x64 S20000x64 [1] [0] [0] [1] [] []
  gather_S50000x64_S2000000x1_S2000000x64_1_0_n_n_0_1_164_wf : GatherDims.WF S50000x64 S2000000x1 S2000000x64 [1] [0] [] [0] [] 1 ![1, 64]
  scatter_S50000x64_S2000000x1_S2000000x64_1_0_0_1_wf : ScatterDims.WF S50000x64 S2000000x1 S2000000x64 [1] [0] [0] 1
  gather_S20000x64_S200000x1_S200000x64_1_0_n_n_0_1_164_wf : GatherDims.WF S20000x64 S200000x1 S200000x64 [1] [0] [] [0] [] 1 ![1, 64]
  scatter_S20000x64_S200000x1_S200000x64_1_0_0_1_wf : ScatterDims.WF S20000x64 S200000x1 S200000x64 [1] [0] [0] 1
  gather_S20000x64_S1000000x1_S1000000x64_1_0_n_n_0_1_164_wf : GatherDims.WF S20000x64 S1000000x1 S1000000x64 [1] [0] [] [0] [] 1 ![1, 64]
  scatter_S30000x64_S1000000x1_S1000000x64_1_0_0_1_wf : ScatterDims.WF S30000x64 S1000000x1 S1000000x64 [1] [0] [0] 1
  dot_S50000x64_S64x64_S50000x64_1_0_0_1_n_n_wf : DotDims.WF S50000x64 S64x64 S50000x64 [1] [0] [0] [1] [] []
  dot_S50000x64_S64x1_S50000x1_1_0_0_1_n_n_wf : DotDims.WF S50000x64 S64x1 S50000x1 [1] [0] [0] [1] [] []

variable [Facts₀]

def dot_S20000x2048_S2048x64_S20000x64_1_0_0_1_n_n : DotDims S20000x2048 S2048x64 S20000x64 where
  lhsContracting := [1]
  rhsContracting := [0]
  lhsNonContracting := [0]
  rhsNonContracting := [1]
  lhsBatch := []
  rhsBatch := []
  wf := dot_S20000x2048_S2048x64_S20000x64_1_0_0_1_n_n_wf
def dot_S20000x64_S64x64_S20000x64_1_0_0_1_n_n : DotDims S20000x64 S64x64 S20000x64 where
  lhsContracting := [1]
  rhsContracting := [0]
  lhsNonContracting := [0]
  rhsNonContracting := [1]
  lhsBatch := []
  rhsBatch := []
  wf := dot_S20000x64_S64x64_S20000x64_1_0_0_1_n_n_wf
def dot_S20000x768_S768x64_S20000x64_1_0_0_1_n_n : DotDims S20000x768 S768x64 S20000x64 where
  lhsContracting := [1]
  rhsContracting := [0]
  lhsNonContracting := [0]
  rhsNonContracting := [1]
  lhsBatch := []
  rhsBatch := []
  wf := dot_S20000x768_S768x64_S20000x64_1_0_0_1_n_n_wf
def gather_S50000x64_S2000000x1_S2000000x64_1_0_n_n_0_1_164 : GatherDims S50000x64 S2000000x1 S2000000x64 where
  offsetDims := [1]
  collapsedSliceDims := [0]
  operandBatchingDims := []
  startIndicesBatchingDims := []
  startIndexMap := [0]
  indexVectorDim := 1
  sliceSizes := ![1, 64]
  wf := gather_S50000x64_S2000000x1_S2000000x64_1_0_n_n_0_1_164_wf
def scatter_S50000x64_S2000000x1_S2000000x64_1_0_0_1 : ScatterDims S50000x64 S2000000x1 S2000000x64 where
  updateWindowDims := [1]
  insertedWindowDims := [0]
  scatterDimsToOperandDims := [0]
  indexVectorDim := 1
  wf := scatter_S50000x64_S2000000x1_S2000000x64_1_0_0_1_wf
def gather_S20000x64_S200000x1_S200000x64_1_0_n_n_0_1_164 : GatherDims S20000x64 S200000x1 S200000x64 where
  offsetDims := [1]
  collapsedSliceDims := [0]
  operandBatchingDims := []
  startIndicesBatchingDims := []
  startIndexMap := [0]
  indexVectorDim := 1
  sliceSizes := ![1, 64]
  wf := gather_S20000x64_S200000x1_S200000x64_1_0_n_n_0_1_164_wf
def scatter_S20000x64_S200000x1_S200000x64_1_0_0_1 : ScatterDims S20000x64 S200000x1 S200000x64 where
  updateWindowDims := [1]
  insertedWindowDims := [0]
  scatterDimsToOperandDims := [0]
  indexVectorDim := 1
  wf := scatter_S20000x64_S200000x1_S200000x64_1_0_0_1_wf
def gather_S20000x64_S1000000x1_S1000000x64_1_0_n_n_0_1_164 : GatherDims S20000x64 S1000000x1 S1000000x64 where
  offsetDims := [1]
  collapsedSliceDims := [0]
  operandBatchingDims := []
  startIndicesBatchingDims := []
  startIndexMap := [0]
  indexVectorDim := 1
  sliceSizes := ![1, 64]
  wf := gather_S20000x64_S1000000x1_S1000000x64_1_0_n_n_0_1_164_wf
def scatter_S30000x64_S1000000x1_S1000000x64_1_0_0_1 : ScatterDims S30000x64 S1000000x1 S1000000x64 where
  updateWindowDims := [1]
  insertedWindowDims := [0]
  scatterDimsToOperandDims := [0]
  indexVectorDim := 1
  wf := scatter_S30000x64_S1000000x1_S1000000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf

class Facts : Prop extends Facts₀ where

variable [Facts]
-- ==== Proof.KernelRun.lean ====
/-
  The kernel's program, run from any launch memory: every weakly fair execution terminates without a fault, the
  argument arrays end as launched, and the two result arrays end at the contents the program's last stretch of host
  operations leaves: the buffer contents are folded through the program (a stretch of host operations applies its
  operations; a kernel region replaces its arrays by what its grid points wrote back), and the final state is read
  against the last fold at the two result buffers as well as at the arguments.
-/
import proofs.«181136_j28157805592958_1_alg».proof.Proof.Gen.KernelIdeal.Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of production extents (`View.cover_of_tiled`): the elaborator's structural look
-- recurses once per coordinate of the long axes
set_option maxRecDepth 16384

noncomputable section

namespace Cert.KernelIdeal.RunValue

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run with the results named: the frame's launch over the same segments, read also at the two result buffers. -/
theorem run_named : θ_run defs (onTc (τ := τ) (main (F := F))) ⟨m, fun _ => 0, ρ⟩ (fun r => ∀ c : Dev nD,
      r.2.mem ((c.tc : Thread nD τ).loc main_v134) = W5 m ρ c (Proc.devRef .tc main_v134)
      ∧ r.2.mem ((c.tc : Thread nD τ).loc main_v135) = W5 m ρ c (Proc.devRef .tc main_v135)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v134 (by decide)), h c _ (mem_uc main_v135 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c),
       (h c _ (mem_uc main_arg13 (by decide))).trans (W5_main_arg13 m ρ c),
       (h c _ (mem_uc main_arg14 (by decide))).trans (W5_main_arg14 m ρ c),
       (h c _ (mem_uc main_arg15 (by decide))).trans (W5_main_arg15 m ρ c),
       (h c _ (mem_uc main_arg16 (by decide))).trans (W5_main_arg16 m ρ c),
       (h c _ (mem_uc main_arg17 (by decide))).trans (W5_main_arg17 m ρ c),
       (h c _ (mem_uc main_arg18 (by decide))).trans (W5_main_arg18 m ρ c),
       (h c _ (mem_uc main_arg19 (by decide))).trans (W5_main_arg19 m ρ c),
       (h c _ (mem_uc main_arg20 (by decide))).trans (W5_main_arg20 m ρ c),
       (h c _ (mem_uc main_arg21 (by decide))).trans (W5_main_arg21 m ρ c),
       (h c _ (mem_uc main_arg22 (by decide))).trans (W5_main_arg22 m ρ c),
       (h c _ (mem_uc main_arg23 (by decide))).trans (W5_main_arg23 m ρ c),
       (h c _ (mem_uc main_arg24 (by decide))).trans (W5_main_arg24 m ρ c),
       (h c _ (mem_uc main_arg25 (by decide))).trans (W5_main_arg25 m ρ c),
       (h c _ (mem_uc main_arg26 (by decide))).trans (W5_main_arg26 m ρ c),
       (h c _ (mem_uc main_arg27 (by decide))).trans (W5_main_arg27 m ρ c),
       (h c _ (mem_uc main_arg28 (by decide))).trans (W5_main_arg28 m ρ c),
       (h c _ (mem_uc main_arg29 (by decide))).trans (W5_main_arg29 m ρ c),
       (h c _ (mem_uc main_arg30 (by decide))).trans (W5_main_arg30 m ρ c)⟩)

end Cert.KernelIdeal.RunValue

end
-- ==== Proof.HostEdges.lean ====
/-
  The buffer contents at the boundaries of the kernel's program, read where the proof needs them.
  No host operation and no kernel region writes an argument array, so at every boundary an argument holds its launch
  contents.  A bias vector of 64 entries is handed to a kernel as a 1 × 64 array with the same entries.  The two
  results are the first 30000 and the last 20000 rows of the fused table.
-/
import proofs.«181136_j28157805592958_1_alg».proof.Proof.Gen.KernelIdeal.Frame
import Idealize.ShloMosaic.Lib.StableHlo.Run
import Idealize.ShloMosaic.Lib.ValueIdx
import Idealize.ShloMosaic.Lib.ValueLayout

set_option maxRecDepth 16384

noncomputable section

namespace Cert.KernelIdeal.Edges

open Cert.KernelIdeal Cert.KernelIdeal.Gen
open Idealize.ShloMosaic Idealize.ShloMosaic.TcCoe Idealize.SL.Sem Idealize.ShloMosaic.StableHlo Idealize.ShloMosaic.ValueIdx

variable {F : FTy → Type} [FloatOps F]
variable (m : (ℓ : Loc nD τ sig) → Buf (Elt F) ℓ) (ρ : Dev nD → PrngReg)

/-! ## The arguments at the three inner boundaries -/

theorem W1_arg0 (c : Dev nD) : W1 m ρ c (Proc.devRef .tc main_arg0) = m ((c : Thread nD τ).loc main_arg0) :=
  (StableHlo.after_of_forall_not_mem (b := Proc.devRef .tc main_arg0) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_arg0 (c : Dev nD) : W2 m ρ c (Proc.devRef .tc main_arg0) = m ((c : Thread nD τ).loc main_arg0) :=
  (W2_of_ne m ρ c main_arg0 (by decide)).trans (W1_arg0 m ρ c)
theorem W3_arg0 (c : Dev nD) : W3 m ρ c (Proc.devRef .tc main_arg0) = m ((c : Thread nD τ).loc main_arg0) :=
  (StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg0 m ρ c)

theorem W1_arg1 (c : Dev nD) : W1 m ρ c (Proc.devRef .tc main_arg1) = m ((c : Thread nD τ).loc main_arg1) :=
  (StableHlo.after_of_forall_not_mem (b := Proc.devRef .tc main_arg1) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_arg1 (c : Dev nD) : W2 m ρ c (Proc.devRef .tc main_arg1) = m ((c : Thread nD τ).loc main_arg1) :=
  ((W2_arr m ρ c 2).trans (((dat0 (V1 m ρ) c).arrAt_in 2 rfl _).trans (A_eq0 (V1 m ρ) c 2))).trans (W1_arg1 m ρ c)
theorem W3_arg1 (c : Dev nD) : W3 m ρ c (Proc.devRef .tc main_arg1) = m ((c : Thread nD τ).loc main_arg1) :=
  (StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg1 m ρ c)

theorem W1_arg2 (c : Dev nD) : W1 m ρ c (Proc.devRef .tc main_arg2) = m ((c : Thread nD τ).loc main_arg2) :=
  (StableHlo.after_of_forall_not_mem (b := Proc.devRef .tc main_arg2) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_arg2 (c : Dev nD) : W2 m ρ c (Proc.devRef .tc main_arg2) = m ((c : Thread nD τ).loc main_arg2) :=
  ((W2_arr m ρ c 0).trans (((dat0 (V1 m ρ) c).arrAt_in 0 rfl _).trans (A_eq0 (V1 m ρ) c 0))).trans (W1_arg2 m ρ c)
theorem W3_arg2 (c : Dev nD) : W3 m ρ c (Proc.devRef .tc main_arg2) = m ((c : Thread nD τ).loc main_arg2) :=
  (StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg2 m ρ c)

theorem W1_arg3 (c : Dev nD) : W1 m ρ c (Proc.devRef .tc main_arg3) = m ((c : Thread nD τ).loc main_arg3) :=
  (StableHlo.after_of_forall_not_mem (b := Proc.devRef .tc main_arg3) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_arg3 (c : Dev nD) : W2 m ρ c (Proc.devRef .tc main_arg3) = m ((c : Thread nD τ).loc main_arg3) :=
  ((W2_arr m ρ c 1).trans (((dat0 (V1 m ρ) c).arrAt_in 1 rfl _).trans (A_eq0 (V1 m ρ) c 1))).trans (W1_arg3 m ρ c)
theorem W3_arg3 (c : Dev nD) : W3 m ρ c (Proc.devRef .tc main_arg3) = m ((c : Thread nD τ).loc main_arg3) :=
  (StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg3 m ρ c)

theorem W1_arg4 (c : Dev nD) : W1 m ρ c (Proc.devRef .tc main_arg4) = m ((c : Thread nD τ).loc main_arg4) :=
  (StableHlo.after_of_forall_not_mem (b := Proc.devRef .tc main_arg4) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_arg4 (c : Dev nD) : W2 m ρ c (Proc.devRef .tc main_arg4) = m ((c : Thread nD τ).loc main_arg4) :=
  ((W2_arr m ρ c 3).trans (((dat0 (V1 m ρ) c).arrAt_in 3 rfl _).trans (A_eq0 (V1 m ρ) c 3))).trans (W1_arg4 m ρ c)
theorem W3_arg4 (c : Dev nD) : W3 m ρ c (Proc.devRef .tc main_arg4) = m ((c : Thread nD τ).loc main_arg4) :=
  (StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg4 m ρ c)

theorem W1_arg5 (c : Dev nD) : W1 m ρ c (Proc.devRef .tc main_arg5) = m ((c : Thread nD τ).loc main_arg5) :=
  (StableHlo.after_of_forall_not_mem (b := Proc.devRef .tc main_arg5) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_arg5 (c : Dev nD) : W2 m ρ c (Proc.devRef .tc main_arg5) = m ((c : Thread nD τ).loc main_arg5) :=
  (W2_of_ne m ρ c main_arg5 (by decide)).trans (W1_arg5 m ρ c)
theorem W3_arg5 (c : Dev nD) : W3 m ρ c (Proc.devRef .tc main_arg5) = m ((c : Thread nD τ).loc main_arg5) :=
  (StableHlo.after_of_forall_not_mem (b := Proc.devRef .tc main_arg5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg5 m ρ c)

theorem W1_arg6 (c : Dev nD) : W1 m ρ c (Proc.devRef .tc main_arg6) = m ((c : Thread nD τ).loc main_arg6) :=
  (StableHlo.after_of_forall_not_mem (b := Proc.devRef .tc main_arg6) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_arg6 (c : Dev nD) : W2 m ρ c (Proc.devRef .tc main_arg6) = m ((c : Thread nD τ).loc main_arg6) :=
  ((W2_arr m ρ c 7).trans (((dat0 (V1 m ρ) c).arrAt_in 7 rfl _).trans (A_eq0 (V1 m ρ) c 7))).trans (W1_arg6 m ρ c)
theorem W3_arg6 (c : Dev nD) : W3 m ρ c (Proc.devRef .tc main_arg6) = m ((c : Thread nD τ).loc main_arg6) :=
  (StableHlo.after_of_forall_not_mem (b := Proc.devRef .tc main_arg6) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg6 m ρ c)

theorem W1_arg7 (c : Dev nD) : W1 m ρ c (Proc.devRef .tc main_arg7) = m ((c : Thread nD τ).loc main_arg7) :=
  (StableHlo.after_of_forall_not_mem (b := Proc.devRef .tc main_arg7) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_arg7 (c : Dev nD) : W2 m ρ c (Proc.devRef .tc main_arg7) = m ((c : Thread nD τ).loc main_arg7) :=
  (W2_of_ne m ρ c main_arg7 (by decide)).trans (W1_arg7 m ρ c)
theorem W3_arg7 (c : Dev nD) : W3 m ρ c (Proc.devRef .tc main_arg7) = m ((c : Thread nD τ).loc main_arg7) :=
  (StableHlo.after_of_forall_not_mem (b := Proc.devRef .tc main_arg7) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg7 m ρ c)

theorem W1_arg8 (c : Dev nD) : W1 m ρ c (Proc.devRef .tc main_arg8) = m ((c : Thread nD τ).loc main_arg8) :=
  (StableHlo.after_of_forall_not_mem (b := Proc.devRef .tc main_arg8) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_arg8 (c : Dev nD) : W2 m ρ c (Proc.devRef .tc main_arg8) = m ((c : Thread nD τ).loc main_arg8) :=
  ((W2_arr m ρ c 5).trans (((dat0 (V1 m ρ) c).arrAt_in 5 rfl _).trans (A_eq0 (V1 m ρ) c 5))).trans (W1_arg8 m ρ c)
theorem W3_arg8 (c : Dev nD) : W3 m ρ c (Proc.devRef .tc main_arg8) = m ((c : Thread nD τ).loc main_arg8) :=
  (StableHlo.after_of_forall_not_mem (b := Proc.devRef .tc main_arg8) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg8 m ρ c)

theorem W1_arg9 (c : Dev nD) : W1 m ρ c (Proc.devRef .tc main_arg9) = m ((c : Thread nD τ).loc main_arg9) :=
  (StableHlo.after_of_forall_not_mem (b := Proc.devRef .tc main_arg9) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_arg9 (c : Dev nD) : W2 m ρ c (Proc.devRef .tc main_arg9) = m ((c : Thread nD τ).loc main_arg9) :=
  (W2_of_ne m ρ c main_arg9 (by decide)).trans (W1_arg9 m ρ c)
theorem W3_arg9 (c : Dev nD) : W3 m ρ c (Proc.devRef .tc main_arg9) = m ((c : Thread nD τ).loc main_arg9) :=
  (StableHlo.after_of_forall_not_mem (b := Proc.devRef .tc main_arg9) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg9 m ρ c)

theorem W1_arg10 (c : Dev nD) : W1 m ρ c (Proc.devRef .tc main_arg10) = m ((c : Thread nD τ).loc main_arg10) :=
  (StableHlo.after_of_forall_not_mem (b := Proc.devRef .tc main_arg10) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_arg10 (c : Dev nD) : W2 m ρ c (Proc.devRef .tc main_arg10) = m ((c : Thread nD τ).loc main_arg10) :=
  ((W2_arr m ρ c 9).trans (((dat0 (V1 m ρ) c).arrAt_in 9 rfl _).trans (A_eq0 (V1 m ρ) c 9))).trans (W1_arg10 m ρ c)
theorem W3_arg10 (c : Dev nD) : W3 m ρ c (Proc.devRef .tc main_arg10) = m ((c : Thread nD τ).loc main_arg10) :=
  (StableHlo.after_of_forall_not_mem (b := Proc.devRef .tc main_arg10) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg10 m ρ c)

theorem W1_arg11 (c : Dev nD) : W1 m ρ c (Proc.devRef .tc main_arg11) = m ((c : Thread nD τ).loc main_arg11) :=
  (StableHlo.after_of_forall_not_mem (b := Proc.devRef .tc main_arg11) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_arg11 (c : Dev nD) : W2 m ρ c (Proc.devRef .tc main_arg11) = m ((c : Thread nD τ).loc main_arg11) :=
  (W2_of_ne m ρ c main_arg11 (by decide)).trans (W1_arg11 m ρ c)
theorem W3_arg11 (c : Dev nD) : W3 m ρ c (Proc.devRef .tc main_arg11) = m ((c : Thread nD τ).loc main_arg11) :=
  (StableHlo.after_of_forall_not_mem (b := Proc.devRef .tc main_arg11) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg11 m ρ c)

theorem W1_arg12 (c : Dev nD) : W1 m ρ c (Proc.devRef .tc main_arg12) = m ((c : Thread nD τ).loc main_arg12) :=
  (StableHlo.after_of_forall_not_mem (b := Proc.devRef .tc main_arg12) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_arg12 (c : Dev nD) : W2 m ρ c (Proc.devRef .tc main_arg12) = m ((c : Thread nD τ).loc main_arg12) :=
  (W2_of_ne m ρ c main_arg12 (by decide)).trans (W1_arg12 m ρ c)
theorem W3_arg12 (c : Dev nD) : W3 m ρ c (Proc.devRef .tc main_arg12) = m ((c : Thread nD τ).loc main_arg12) :=
  (StableHlo.after_of_forall_not_mem (b := Proc.devRef .tc main_arg12) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg12 m ρ c)

theorem W1_arg13 (c : Dev nD) : W1 m ρ c (Proc.devRef .tc main_arg13) = m ((c : Thread nD τ).loc main_arg13) :=
  (StableHlo.after_of_forall_not_mem (b := Proc.devRef .tc main_arg13) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_arg13 (c : Dev nD) : W2 m ρ c (Proc.devRef .tc main_arg13) = m ((c : Thread nD τ).loc main_arg13) :=
  (W2_of_ne m ρ c main_arg13 (by decide)).trans (W1_arg13 m ρ c)
theorem W3_arg13 (c : Dev nD) : W3 m ρ c (Proc.devRef .tc main_arg13) = m ((c : Thread nD τ).loc main_arg13) :=
  (StableHlo.after_of_forall_not_mem (b := Proc.devRef .tc main_arg13) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg13 m ρ c)

theorem W1_arg14 (c : Dev nD) : W1 m ρ c (Proc.devRef .tc main_arg14) = m ((c : Thread nD τ).loc main_arg14) :=
  (StableHlo.after_of_forall_not_mem (b := Proc.devRef .tc main_arg14) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_arg14 (c : Dev nD) : W2 m ρ c (Proc.devRef .tc main_arg14) = m ((c : Thread nD τ).loc main_arg14) :=
  (W2_of_ne m ρ c main_arg14 (by decide)).trans (W1_arg14 m ρ c)
theorem W3_arg14 (c : Dev nD) : W3 m ρ c (Proc.devRef .tc main_arg14) = m ((c : Thread nD τ).loc main_arg14) :=
  (StableHlo.after_of_forall_not_mem (b := Proc.devRef .tc main_arg14) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg14 m ρ c)

theorem W1_arg15 (c : Dev nD) : W1 m ρ c (Proc.devRef .tc main_arg15) = m ((c : Thread nD τ).loc main_arg15) :=
  (StableHlo.after_of_forall_not_mem (b := Proc.devRef .tc main_arg15) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_arg15 (c : Dev nD) : W2 m ρ c (Proc.devRef .tc main_arg15) = m ((c : Thread nD τ).loc main_arg15) :=
  (W2_of_ne m ρ c main_arg15 (by decide)).trans (W1_arg15 m ρ c)
theorem W3_arg15 (c : Dev nD) : W3 m ρ c (Proc.devRef .tc main_arg15) = m ((c : Thread nD τ).loc main_arg15) :=
  (StableHlo.after_of_forall_not_mem (b := Proc.devRef .tc main_arg15) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg15 m ρ c)

theorem W1_arg16 (c : Dev nD) : W1 m ρ c (Proc.devRef .tc main_arg16) = m ((c : Thread nD τ).loc main_arg16) :=
  (StableHlo.after_of_forall_not_mem (b := Proc.devRef .tc main_arg16) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_arg16 (c : Dev nD) : W2 m ρ c (Proc.devRef .tc main_arg16) = m ((c : Thread nD τ).loc main_arg16) :=
  (W2_of_ne m ρ c main_arg16 (by decide)).trans (W1_arg16 m ρ c)
theorem W3_arg16 (c : Dev nD) : W3 m ρ c (Proc.devRef .tc main_arg16) = m ((c : Thread nD τ).loc main_arg16) :=
  (StableHlo.after_of_forall_not_mem (b := Proc.devRef .tc main_arg16) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg16 m ρ c)

theorem W1_arg17 (c : Dev nD) : W1 m ρ c (Proc.devRef .tc main_arg17) = m ((c : Thread nD τ).loc main_arg17) :=
  (StableHlo.after_of_forall_not_mem (b := Proc.devRef .tc main_arg17) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_arg17 (c : Dev nD) : W2 m ρ c (Proc.devRef .tc main_arg17) = m ((c : Thread nD τ).loc main_arg17) :=
  (W2_of_ne m ρ c main_arg17 (by decide)).trans (W1_arg17 m ρ c)
theorem W3_arg17 (c : Dev nD) : W3 m ρ c (Proc.devRef .tc main_arg17) = m ((c : Thread nD τ).loc main_arg17) :=
  (StableHlo.after_of_forall_not_mem (b := Proc.devRef .tc main_arg17) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg17 m ρ c)

theorem W1_arg18 (c : Dev nD) : W1 m ρ c (Proc.devRef .tc main_arg18) = m ((c : Thread nD τ).loc main_arg18) :=
  (StableHlo.after_of_forall_not_mem (b := Proc.devRef .tc main_arg18) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_arg18 (c : Dev nD) : W2 m ρ c (Proc.devRef .tc main_arg18) = m ((c : Thread nD τ).loc main_arg18) :=
  (W2_of_ne m ρ c main_arg18 (by decide)).trans (W1_arg18 m ρ c)
theorem W3_arg18 (c : Dev nD) : W3 m ρ c (Proc.devRef .tc main_arg18) = m ((c : Thread nD τ).loc main_arg18) :=
  (StableHlo.after_of_forall_not_mem (b := Proc.devRef .tc main_arg18) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg18 m ρ c)

theorem W1_arg19 (c : Dev nD) : W1 m ρ c (Proc.devRef .tc main_arg19) = m ((c : Thread nD τ).loc main_arg19) :=
  (StableHlo.after_of_forall_not_mem (b := Proc.devRef .tc main_arg19) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_arg19 (c : Dev nD) : W2 m ρ c (Proc.devRef .tc main_arg19) = m ((c : Thread nD τ).loc main_arg19) :=
  (W2_of_ne m ρ c main_arg19 (by decide)).trans (W1_arg19 m ρ c)
theorem W3_arg19 (c : Dev nD) : W3 m ρ c (Proc.devRef .tc main_arg19) = m ((c : Thread nD τ).loc main_arg19) :=
  (StableHlo.after_of_forall_not_mem (b := Proc.devRef .tc main_arg19) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg19 m ρ c)

theorem W1_arg20 (c : Dev nD) : W1 m ρ c (Proc.devRef .tc main_arg20) = m ((c : Thread nD τ).loc main_arg20) :=
  (StableHlo.after_of_forall_not_mem (b := Proc.devRef .tc main_arg20) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_arg20 (c : Dev nD) : W2 m ρ c (Proc.devRef .tc main_arg20) = m ((c : Thread nD τ).loc main_arg20) :=
  (W2_of_ne m ρ c main_arg20 (by decide)).trans (W1_arg20 m ρ c)
theorem W3_arg20 (c : Dev nD) : W3 m ρ c (Proc.devRef .tc main_arg20) = m ((c : Thread nD τ).loc main_arg20) :=
  (StableHlo.after_of_forall_not_mem (b := Proc.devRef .tc main_arg20) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg20 m ρ c)

theorem W1_arg21 (c : Dev nD) : W1 m ρ c (Proc.devRef .tc main_arg21) = m ((c : Thread nD τ).loc main_arg21) :=
  (StableHlo.after_of_forall_not_mem (b := Proc.devRef .tc main_arg21) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_arg21 (c : Dev nD) : W2 m ρ c (Proc.devRef .tc main_arg21) = m ((c : Thread nD τ).loc main_arg21) :=
  (W2_of_ne m ρ c main_arg21 (by decide)).trans (W1_arg21 m ρ c)
theorem W3_arg21 (c : Dev nD) : W3 m ρ c (Proc.devRef .tc main_arg21) = m ((c : Thread nD τ).loc main_arg21) :=
  (StableHlo.after_of_forall_not_mem (b := Proc.devRef .tc main_arg21) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg21 m ρ c)

theorem W1_arg22 (c : Dev nD) : W1 m ρ c (Proc.devRef .tc main_arg22) = m ((c : Thread nD τ).loc main_arg22) :=
  (StableHlo.after_of_forall_not_mem (b := Proc.devRef .tc main_arg22) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_arg22 (c : Dev nD) : W2 m ρ c (Proc.devRef .tc main_arg22) = m ((c : Thread nD τ).loc main_arg22) :=
  (W2_of_ne m ρ c main_arg22 (by decide)).trans (W1_arg22 m ρ c)
theorem W3_arg22 (c : Dev nD) : W3 m ρ c (Proc.devRef .tc main_arg22) = m ((c : Thread nD τ).loc main_arg22) :=
  (StableHlo.after_of_forall_not_mem (b := Proc.devRef .tc main_arg22) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg22 m ρ c)

theorem W1_arg23 (c : Dev nD) : W1 m ρ c (Proc.devRef .tc main_arg23) = m ((c : Thread nD τ).loc main_arg23) :=
  (StableHlo.after_of_forall_not_mem (b := Proc.devRef .tc main_arg23) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_arg23 (c : Dev nD) : W2 m ρ c (Proc.devRef .tc main_arg23) = m ((c : Thread nD τ).loc main_arg23) :=
  (W2_of_ne m ρ c main_arg23 (by decide)).trans (W1_arg23 m ρ c)
theorem W3_arg23 (c : Dev nD) : W3 m ρ c (Proc.devRef .tc main_arg23) = m ((c : Thread nD τ).loc main_arg23) :=
  (StableHlo.after_of_forall_not_mem (b := Proc.devRef .tc main_arg23) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg23 m ρ c)

theorem W1_arg24 (c : Dev nD) : W1 m ρ c (Proc.devRef .tc main_arg24) = m ((c : Thread nD τ).loc main_arg24) :=
  (StableHlo.after_of_forall_not_mem (b := Proc.devRef .tc main_arg24) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_arg24 (c : Dev nD) : W2 m ρ c (Proc.devRef .tc main_arg24) = m ((c : Thread nD τ).loc main_arg24) :=
  (W2_of_ne m ρ c main_arg24 (by decide)).trans (W1_arg24 m ρ c)
theorem W3_arg24 (c : Dev nD) : W3 m ρ c (Proc.devRef .tc main_arg24) = m ((c : Thread nD τ).loc main_arg24) :=
  (StableHlo.after_of_forall_not_mem (b := Proc.devRef .tc main_arg24) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg24 m ρ c)

theorem W1_arg25 (c : Dev nD) : W1 m ρ c (Proc.devRef .tc main_arg25) = m ((c : Thread nD τ).loc main_arg25) :=
  (StableHlo.after_of_forall_not_mem (b := Proc.devRef .tc main_arg25) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_arg25 (c : Dev nD) : W2 m ρ c (Proc.devRef .tc main_arg25) = m ((c : Thread nD τ).loc main_arg25) :=
  (W2_of_ne m ρ c main_arg25 (by decide)).trans (W1_arg25 m ρ c)
theorem W3_arg25 (c : Dev nD) : W3 m ρ c (Proc.devRef .tc main_arg25) = m ((c : Thread nD τ).loc main_arg25) :=
  (StableHlo.after_of_forall_not_mem (b := Proc.devRef .tc main_arg25) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg25 m ρ c)

theorem W1_arg26 (c : Dev nD) : W1 m ρ c (Proc.devRef .tc main_arg26) = m ((c : Thread nD τ).loc main_arg26) :=
  (StableHlo.after_of_forall_not_mem (b := Proc.devRef .tc main_arg26) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_arg26 (c : Dev nD) : W2 m ρ c (Proc.devRef .tc main_arg26) = m ((c : Thread nD τ).loc main_arg26) :=
  (W2_of_ne m ρ c main_arg26 (by decide)).trans (W1_arg26 m ρ c)
theorem W3_arg26 (c : Dev nD) : W3 m ρ c (Proc.devRef .tc main_arg26) = m ((c : Thread nD τ).loc main_arg26) :=
  (StableHlo.after_of_forall_not_mem (b := Proc.devRef .tc main_arg26) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg26 m ρ c)

theorem W1_arg27 (c : Dev nD) : W1 m ρ c (Proc.devRef .tc main_arg27) = m ((c : Thread nD τ).loc main_arg27) :=
  (StableHlo.after_of_forall_not_mem (b := Proc.devRef .tc main_arg27) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_arg27 (c : Dev nD) : W2 m ρ c (Proc.devRef .tc main_arg27) = m ((c : Thread nD τ).loc main_arg27) :=
  (W2_of_ne m ρ c main_arg27 (by decide)).trans (W1_arg27 m ρ c)
theorem W3_arg27 (c : Dev nD) : W3 m ρ c (Proc.devRef .tc main_arg27) = m ((c : Thread nD τ).loc main_arg27) :=
  (StableHlo.after_of_forall_not_mem (b := Proc.devRef .tc main_arg27) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg27 m ρ c)

theorem W1_arg28 (c : Dev nD) : W1 m ρ c (Proc.devRef .tc main_arg28) = m ((c : Thread nD τ).loc main_arg28) :=
  (StableHlo.after_of_forall_not_mem (b := Proc.devRef .tc main_arg28) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_arg28 (c : Dev nD) : W2 m ρ c (Proc.devRef .tc main_arg28) = m ((c : Thread nD τ).loc main_arg28) :=
  (W2_of_ne m ρ c main_arg28 (by decide)).trans (W1_arg28 m ρ c)
theorem W3_arg28 (c : Dev nD) : W3 m ρ c (Proc.devRef .tc main_arg28) = m ((c : Thread nD τ).loc main_arg28) :=
  (StableHlo.after_of_forall_not_mem (b := Proc.devRef .tc main_arg28) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg28 m ρ c)

theorem W1_arg29 (c : Dev nD) : W1 m ρ c (Proc.devRef .tc main_arg29) = m ((c : Thread nD τ).loc main_arg29) :=
  (StableHlo.after_of_forall_not_mem (b := Proc.devRef .tc main_arg29) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_arg29 (c : Dev nD) : W2 m ρ c (Proc.devRef .tc main_arg29) = m ((c : Thread nD τ).loc main_arg29) :=
  (W2_of_ne m ρ c main_arg29 (by decide)).trans (W1_arg29 m ρ c)
theorem W3_arg29 (c : Dev nD) : W3 m ρ c (Proc.devRef .tc main_arg29) = m ((c : Thread nD τ).loc main_arg29) :=
  (StableHlo.after_of_forall_not_mem (b := Proc.devRef .tc main_arg29) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg29 m ρ c)

theorem W1_arg30 (c : Dev nD) : W1 m ρ c (Proc.devRef .tc main_arg30) = m ((c : Thread nD τ).loc main_arg30) :=
  (StableHlo.after_of_forall_not_mem (b := Proc.devRef .tc main_arg30) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
theorem W2_arg30 (c : Dev nD) : W2 m ρ c (Proc.devRef .tc main_arg30) = m ((c : Thread nD τ).loc main_arg30) :=
  (W2_of_ne m ρ c main_arg30 (by decide)).trans (W1_arg30 m ρ c)
theorem W3_arg30 (c : Dev nD) : W3 m ρ c (Proc.devRef .tc main_arg30) = m ((c : Thread nD τ).loc main_arg30) :=
  (StableHlo.after_of_forall_not_mem (b := Proc.devRef .tc main_arg30) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arg30 m ρ c)

/-! ## The bias vectors as 1 × 64 arrays -/

theorem W1_v0 (c : Dev nD) : W1 m ρ c (Proc.devRef .tc main_v0) = shapeCast S1x64 (m ((c : Thread nD τ).loc main_arg5)) shapeCasts_S64_S1x64 := by
  show StableHlo.after hostOps0 (W0 m ρ c) (Proc.devRef .tc main_v0) = _
  after_results
  rfl

theorem W1_v1 (c : Dev nD) : W1 m ρ c (Proc.devRef .tc main_v1) = shapeCast S1x64 (m ((c : Thread nD τ).loc main_arg9)) shapeCasts_S64_S1x64 := by
  show StableHlo.after hostOps0 (W0 m ρ c) (Proc.devRef .tc main_v1) = _
  after_results
  rfl

theorem W1_v2 (c : Dev nD) : W1 m ρ c (Proc.devRef .tc main_v2) = shapeCast S1x64 (m ((c : Thread nD τ).loc main_arg7)) shapeCasts_S64_S1x64 := by
  show StableHlo.after hostOps0 (W0 m ρ c) (Proc.devRef .tc main_v2) = _
  after_results
  rfl

theorem W1_v3 (c : Dev nD) : W1 m ρ c (Proc.devRef .tc main_v3) = shapeCast S1x64 (m ((c : Thread nD τ).loc main_arg11)) shapeCasts_S64_S1x64 := by
  show StableHlo.after hostOps0 (W0 m ρ c) (Proc.devRef .tc main_v3) = _
  after_results
  rfl

theorem W3_v128 (c : Dev nD) : W3 m ρ c (Proc.devRef .tc main_v128) = shapeCast S1x64 (m ((c : Thread nD τ).loc main_arg17)) shapeCasts_S64_S1x64 := by
  rw [← W2_arg17 m ρ c]
  show StableHlo.after hostOps1 (W2 m ρ c) (Proc.devRef .tc main_v128) = _
  after_results_simp
  rfl

theorem W3_v129 (c : Dev nD) : W3 m ρ c (Proc.devRef .tc main_v129) = shapeCast S1x64 (m ((c : Thread nD τ).loc main_arg13)) shapeCasts_S64_S1x64 := by
  rw [← W2_arg13 m ρ c]
  show StableHlo.after hostOps1 (W2 m ρ c) (Proc.devRef .tc main_v129) = _
  after_results_simp
  rfl

theorem W3_v130 (c : Dev nD) : W3 m ρ c (Proc.devRef .tc main_v130) = shapeCast S1x64 (m ((c : Thread nD τ).loc main_arg15)) shapeCasts_S64_S1x64 := by
  rw [← W2_arg15 m ρ c]
  show StableHlo.after hostOps1 (W2 m ρ c) (Proc.devRef .tc main_v130) = _
  after_results_simp
  rfl

/-- A 64-vector seen as a 1 × 64 array has the same entries. -/
theorem row_entry {α : Type} (x : S64.Idx → α) (k : Fin 64) :
    shapeCast S1x64 x shapeCasts_S64_S1x64 (ix2 (0 : Fin 1) k) = x (ix1 k) :=
  shapeCast_a_1a_apply x shapeCasts_S64_S1x64 0 k

/-! ## The results: two row ranges of the fused table -/

theorem W5_v134 (c : Dev nD) : W5 m ρ c (Proc.devRef .tc main_v134)
    = extractStridedSlice S30000x64 ![0, 0] (W4 m ρ c (Proc.devRef .tc main_v133)) slices_S50000x64_S30000x64_0_0 := by
  show StableHlo.after hostOps2 (W4 m ρ c) (Proc.devRef .tc main_v134) = _
  after_results

theorem W5_v135 (c : Dev nD) : W5 m ρ c (Proc.devRef .tc main_v135)
    = extractStridedSlice S20000x64 ![30000, 0] (W4 m ρ c (Proc.devRef .tc main_v133)) slices_S50000x64_S20000x64_30000_0 := by
  show StableHlo.after hostOps2 (W4 m ρ c) (Proc.devRef .tc main_v135) = _
  after_results

end Cert.KernelIdeal.Edges

end
-- ==== Proof.Spec.lean ====
/-
  The mathematics of the two programs, stated once over the extended reals, index by index.

  Items are rows of 64 numbers.  `affine x W b` is the row `x · W + b`.

  * Gating (first kernel): entry `(r, j)` of a gated item table is
    `Gi(r, j) · σ((feat(r, ·) · Wp + bp) · Wg + bg)(j)`, with `σ x = 1 / (1 + e^(-x))`.
  * Fusion (second kernel).  A row `x` has the attention logit `att x = tanh (x · Wq1 + bq1) · Wq2`.
    Two rows `x, y` (the two modalities of one node) with logits `a, b` are blended into the common row
    `w · x + w' · y`.  The kernel takes `w = σ (a - b)` and `w' = 1 - w` (`commonK`); the reference takes the
    two-way softmax `w = e^(a - M) / (e^(a - M) + e^(b - M))`, `w' = e^(b - M) / (…)`, `M = max a b` (`commonR`).
    The output row is `c + ((σ (c · Wpv + bpv) · d0 + σ (c · Wpt + bpt) · d1) + common) / 3`, where `c` is the content
    row and `d0`, `d1` are two fixed rows: node 0's first-modality row minus its common row, and node 1's
    second-modality row minus its common row.
-/
import Idealize.ShloMosaic.PureOps.Ideal
import Idealize.ShloMosaic.Lib.ValueIdx

noncomputable section

namespace Cert.Spec

open Idealize.ShloMosaic Idealize.ShloMosaic.ValueIdx

/-- An `a × b` array of extended reals. -/
abbrev Arr2 (a b : ℕ) : Type := (⟨2, ![a, b]⟩ : Shape).Idx → EReal

/-- Row `r` of an array with 64 columns. -/
def row {n D : ℕ} (A : Arr2 n D) (r : Fin n) : Fin D → EReal := fun l => A (ix2 r l)

/-- Column `k` of the row `x · W + b`. -/
def affine {D : ℕ} (x : Fin D → EReal) (W : Arr2 D 64) (b : Fin 64 → EReal) (k : Fin 64) : EReal :=
  (∑ l : Fin D, x l * W (ix2 l k)) + b k

/-- Entry `(r, j)` of a gated item table. -/
def gateAt {D : ℕ} (feat : Arr2 20000 D) (Gi : Arr2 20000 64) (Wp : Arr2 D 64) (bp : Fin 64 → EReal)
    (Wg : Arr2 64 64) (bg : Fin 64 → EReal) (r : Fin 20000) (j : Fin 64) : EReal :=
  Gi (ix2 r j) * Ideal.logistic (affine (affine (row feat r) Wp bp) Wg bg j)

/-- A gated item table. -/
def gate {D : ℕ} (feat : Arr2 20000 D) (Gi : Arr2 20000 64) (Wp : Arr2 D 64) (bp : Fin 64 → EReal)
    (Wg : Arr2 64 64) (bg : Fin 64 → EReal) : Arr2 20000 64 :=
  fun i => gateAt feat Gi Wp bp Wg bg (i 0) (i 1)

/-- The attention logit of a row. -/
def att (x : Fin 64 → EReal) (Wq1 : Arr2 64 64) (bq1 : Fin 64 → EReal) (Wq2 : Arr2 64 1) : EReal :=
  ∑ k : Fin 64, Ideal.tanh (affine x Wq1 bq1 k) * Wq2 (ix2 k (0 : Fin 1))

/-- The kernel's weight of the first modality, from the two logits. -/
def wK (a b : EReal) : EReal := Ideal.logistic (a - b)

/-- The kernel's common row. -/
def commonK (x y : Fin 64 → EReal) (a b : EReal) (j : Fin 64) : EReal :=
  wK a b * x j + (1 - wK a b) * y j

/-- The two-way softmax weights of the reference. -/
def softW0 (a b : EReal) : EReal :=
  Ideal.div (Ideal.exp (a - max a b)) (Ideal.exp (a - max a b) + Ideal.exp (b - max a b))
def softW1 (a b : EReal) : EReal :=
  Ideal.div (Ideal.exp (b - max a b)) (Ideal.exp (a - max a b) + Ideal.exp (b - max a b))

/-- The reference's common row. -/
def commonR (x y : Fin 64 → EReal) (a b : EReal) (j : Fin 64) : EReal :=
  softW0 a b * x j + softW1 a b * y j

/-- The literal `3.0`, kept as its word. -/
def three : EReal := Ideal.ofBits .f32 0x40400000#32

/-- Column `j` of an output row, from the content row `c`, the common row `cm` and the two fixed rows. -/
def outRow (c cm d0 d1 : Fin 64 → EReal) (Wpv : Arr2 64 64) (bpv : Fin 64 → EReal) (Wpt : Arr2 64 64)
    (bpt : Fin 64 → EReal) (j : Fin 64) : EReal :=
  c j + Ideal.div ((Ideal.logistic (affine c Wpv bpv j) * d0 j + Ideal.logistic (affine c Wpt bpt j) * d1 j) + cm j) three

/-- The common row of node `r`, as the kernel blends it. -/
def cmK (mmv mmt : Arr2 50000 64) (Wq1 : Arr2 64 64) (bq1 : Fin 64 → EReal) (Wq2 : Arr2 64 1) (r : Fin 50000) :
    Fin 64 → EReal :=
  commonK (row mmv r) (row mmt r) (att (row mmv r) Wq1 bq1 Wq2) (att (row mmt r) Wq1 bq1 Wq2)

/-- The common row of node `r`, as the reference blends it. -/
def cmR (mmv mmt : Arr2 50000 64) (Wq1 : Arr2 64 64) (bq1 : Fin 64 → EReal) (Wq2 : Arr2 64 1) (r : Fin 50000) :
    Fin 64 → EReal :=
  commonR (row mmv r) (row mmt r) (att (row mmv r) Wq1 bq1 Wq2) (att (row mmt r) Wq1 bq1 Wq2)

/-- Node 0 and node 1. -/
abbrev n0 : Fin 50000 := ⟨0, by omega⟩
abbrev n1 : Fin 50000 := ⟨1, by omega⟩

/-- The fused table as the second kernel computes it, the two fixed rows given. -/
def fuseK (content mmv mmt : Arr2 50000 64) (Wq1 : Arr2 64 64) (bq1 : Fin 64 → EReal) (Wq2 : Arr2 64 1)
    (Wpv : Arr2 64 64) (bpv : Fin 64 → EReal) (Wpt : Arr2 64 64) (bpt : Fin 64 → EReal)
    (d0 d1 : Fin 64 → EReal) : Arr2 50000 64 :=
  fun i => outRow (row content (i 0)) (cmK mmv mmt Wq1 bq1 Wq2 (i 0)) d0 d1 Wpv bpv Wpt bpt (i 1)

/-- The two fixed rows as the kernel's program computes them beforehand. -/
def d0K (mmv mmt : Arr2 50000 64) (Wq1 : Arr2 64 64) (bq1 : Fin 64 → EReal) (Wq2 : Arr2 64 1) (j : Fin 64) : EReal :=
  row mmv n0 j - cmK mmv mmt Wq1 bq1 Wq2 n0 j
def d1K (mmv mmt : Arr2 50000 64) (Wq1 : Arr2 64 64) (bq1 : Fin 64 → EReal) (Wq2 : Arr2 64 1) (j : Fin 64) : EReal :=
  row mmt n1 j - cmK mmv mmt Wq1 bq1 Wq2 n1 j

/-- The fused table as the reference computes it. -/
def fuseR (content mmv mmt : Arr2 50000 64) (Wq1 : Arr2 64 64) (bq1 : Fin 64 → EReal) (Wq2 : Arr2 64 1)
    (Wpv : Arr2 64 64) (bpv : Fin 64 → EReal) (Wpt : Arr2 64 64) (bpt : Fin 64 → EReal) : Arr2 50000 64 :=
  fun i => outRow (row content (i 0)) (cmR mmv mmt Wq1 bq1 Wq2 (i 0))
    (fun j => row mmv n0 j - cmR mmv mmt Wq1 bq1 Wq2 n0 j) (fun j => row mmt n1 j - cmR mmv mmt Wq1 bq1 Wq2 n1 j)
    Wpv bpv Wpt bpt (i 1)

end Cert.Spec

end
-- ==== Proof.LibVec.lean ====
/-
  Reads of vector operations at an index, at the ideal values (floats are extended reals), for
  arrays of `a` rows: general in the row count and program-free.

  * a length-`a` vector cast to a column `[a, 1]`, and a column broadcast along the rows to `[a, b]`
    (the two keepdims forms a row statistic goes through): `colCast_apply`, `colBroadcast_apply`;
  * a length-`b` vector cast to `[1, b]` and broadcast down the rows: `rowBroadcast_apply`;
  * the sum along the lanes of an `[a, b]` array at row `r` is `∑ k, x (r, k)`: `laneSum_apply`;
  * a matrix product into a zero accumulator at `(r, j)` is `∑ k, X (r, k) * Y (k, j)`, for any
    dimension-numbers record whose operand indices are the plain ones: `matmul_rowcol`;
  * `rsqrt_apply`, the pointwise read the library does not state.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibVec

open Idealize.ShloMosaic Idealize.ShloMosaic.ValueIdx

variable {α : Type}

/-- A length-`a` vector cast to the column `[a, 1]` reads, at `(r, u)`, the vector at `r`. -/
theorem colCast_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column at `r`. -/
theorem colBroadcast_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- A length-`b` vector cast to `[1, b]` and broadcast down `a` rows reads, at `(r, c)`, the vector at `c`. -/
theorem rowBroadcast_apply {a b : ℕ} (g : (⟨1, ![b]⟩ : Shape).Idx → α) (h1 : (⟨1, ![b]⟩ : Shape).ShapeCasts ⟨2, ![1, b]⟩)
    (h2 : (⟨2, ![1, b]⟩ : Shape).Broadcasts ⟨2, ![a, b]⟩) (r : Fin a) (c : Fin b) :
    broadcastTo ⟨2, ![a, b]⟩ (shapeCast ⟨2, ![1, b]⟩ g h1) h2 (ix2 r c) = g (ix1 c) := by
  rw [broadcastTo_1b_ab_apply, shapeCast_a_1a_apply]

/-- The sum along the lanes of an `[a, b]` array, at row `r`, is the sum of that row's entries. -/
theorem laneSum_apply {a b : ℕ} {φ : FTy} (x : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ x acc h hφ hacc (ix1 r) = ∑ k : Fin b, x (ix2 r k) := by
  rw [Ideal.multiReduction_add_single]
  refine Finset.sum_congr rfl fun k _ => congrArg x (funext fun ax => Fin.ext ?_)
  match ax with
  | ⟨0, _⟩ => rfl
  | ⟨1, _⟩ => rfl

/-- The same for an f32 array summed from the zero word, with the neutrality proof spelt as a printed program spells it. -/
theorem laneSum_f32_apply {a b : ℕ} (x : FVec Ideal ⟨2, ![a, b]⟩ .f32)
    (h : (⟨2, ![a, b]⟩ : Shape).Reduces [1] ⟨1, ![a]⟩) (hacc : (0x00000000#32 : BitVec 32) = 0x00000000#32) (r : Fin a) :
    multiReduction .add [1] ⟨1, ![a]⟩ x 0x00000000#32 h (.inl rfl) hacc (ix1 r) = ∑ k : Fin b, x (ix2 r k) :=
  laneSum_apply x _ h (.inl rfl) hacc r

/-- `rsqrt` of an array reads entry by entry. -/
theorem rsqrt_apply {s : Shape} {φ : FTy} (x : FVec Ideal s φ) (i : s.Idx) : rsqrt x i = Ideal.rsqrt (x i) := rfl

/-- A matrix product `X · Y` into a zero accumulator, at `(r, j)`, is `∑ k, X (r, k) * Y (k, j)`, for a
    dimension-numbers record with one contracted axis of extent `K` whose operand indices are the plain
    ones (row of the output and contraction index on the left; contraction index and column on the right). -/
theorem matmul_rowcol {n K m : ℕ} {φ₁ φ₂ : FTy} (d : DotDims ⟨2, ![n, K]⟩ ⟨2, ![K, m]⟩ ⟨2, ![n, m]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (X : FVec Ideal ⟨2, ![n, K]⟩ φ₁) (Y : FVec Ideal ⟨2, ![K, m]⟩ φ₂) (r : Fin n) (j : Fin m) :
    matmul d prec X Y (constant ⟨2, ![n, m]⟩ .f32 0x00000000#32) (ix2 r j) = ∑ k : Fin K, X (ix2 r k) * Y (ix2 k j) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 r j) ((contrEquiv1 d K hr hs).symm k) = ix2 r k := funext fun ax => Fin.ext (by
    match ax with
    | ⟨0, _⟩ => exact hl0 _ _
    | ⟨1, _⟩ => exact (hl1 _ _).trans hk)
  have er : d.rhsIdx (ix2 r j) ((contrEquiv1 d K hr hs).symm k) = ix2 k j := funext fun ax => Fin.ext (by
    match ax with
    | ⟨0, _⟩ => exact (hr0 _ _).trans hk
    | ⟨1, _⟩ => exact hr1 _ _)
  rw [el, er]

end Cert.LibVec

end
-- ==== Proof.GateRef.lean ====
/-
  The gated item tables as the reference computes them on the host, index by index.

  The reference writes a gated table as `Gi * (1 / (1 + exp (-((feat · Wp + bp) · Wg + bg))))`: two matrix
  products, each followed by a bias broadcast down the rows, then negate, exponential, add one, divide and
  multiply.  Read at entry `(r, j)` this is `Gi (r, j) * σ (affine (affine (row feat r) Wp bp) Wg bg j)`,
  the specification's `gate`.
-/
import proofs.«181136_j28157805592958_1_alg».proof.Proof.Gen.ReferenceIdeal
import proofs.«181136_j28157805592958_1_alg».proof.Proof.Spec
import proofs.«181136_j28157805592958_1_alg».proof.Proof.LibVec
import Idealize.ShloMosaic.Lib.IdealHost
import Idealize.ShloMosaic.Lib.Pipeline.Value

noncomputable section

namespace Cert.ReferenceIdeal.GateRef

open Cert.ReferenceIdeal Cert.ReferenceIdeal.Gen Idealize.ShloMosaic Idealize.ShloMosaic.ValueIdx

/-- A host matrix product `X · Y` at `(r, j)` is `∑ k, X (r, k) * Y (k, j)`, for a dimension-numbers record
    with one contracted axis of extent `K` whose operand indices are the plain ones. -/
theorem hostDot_rowcol {n K m : ℕ} {φ₁ φ₂ : FTy} (d : DotDims ⟨2, ![n, K]⟩ ⟨2, ![K, m]⟩ ⟨2, ![n, m]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (X : FVec Ideal ⟨2, ![n, K]⟩ φ₁) (Y : FVec Ideal ⟨2, ![K, m]⟩ φ₂) (r : Fin n) (j : Fin m) :
    Host.dotGeneral d prec X Y (ix2 r j) = ∑ k : Fin K, X (ix2 r k) * Y (ix2 k j) := by
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 r j) ((contrEquiv1 d K hr hs).symm k) = ix2 r k := funext fun ax => Fin.ext (by
    match ax with
    | ⟨0, _⟩ => exact hl0 _ _
    | ⟨1, _⟩ => exact (hl1 _ _).trans hk)
  have er : d.rhsIdx (ix2 r j) ((contrEquiv1 d K hr hs).symm k) = ix2 k j := funext fun ax => Fin.ext (by
    match ax with
    | ⟨0, _⟩ => exact (hr0 _ _).trans hk
    | ⟨1, _⟩ => exact hr1 _ _)
  rw [el, er]

/-- A length-64 vector broadcast to `[1, 64]` and then down `a` rows reads, at `(r, c)`, the vector at `c`. -/
theorem rowBias_apply {α : Type} {a : ℕ} (g : (⟨1, ![64]⟩ : Shape).Idx → α)
    (h1 : (⟨1, ![64]⟩ : Shape).BroadcastsInDim ⟨2, ![1, 64]⟩ ![1])
    (h2 : (⟨2, ![1, 64]⟩ : Shape).BroadcastsInDim ⟨2, ![a, 64]⟩ ![0, 1]) (r : Fin a) (c : Fin 64) :
    broadcastInDim ⟨2, ![a, 64]⟩ ![0, 1] h2 (broadcastInDim ⟨2, ![1, 64]⟩ ![1] h1 g) (ix2 r c) = g (ix1 c) := by
  rw [broadcastInDim_apply ![0, 1] h2 _ (ix2 r c) (ix2 (0 : Fin 1) c) (fun ax => by
        match ax with
        | ⟨0, _⟩ => rfl
        | ⟨1, _⟩ => rfl),
      broadcastInDim_apply ![1] h1 g (ix2 (0 : Fin 1) c) (ix1 c) (fun ax => by
        match ax with
        | ⟨0, _⟩ => rfl)]

/-- The host's exponential and negation read entry by entry. -/
theorem hostExp_apply {s : Shape} {φ : FTy} (x : FVec Ideal s φ) (i : s.Idx) : Host.exp x i = Ideal.exp (x i) := rfl
theorem hostNegf_apply {s : Shape} {φ : FTy} (x : FVec Ideal s φ) (i : s.Idx) : Host.negf x i = -(x i) := rfl

/-- The first-modality gated table of the reference is the specification's. -/
theorem gate_v_ref (feat : FVec Ideal S20000x2048 .f32) (Gi : FVec Ideal S20000x64 .f32) (Wp : FVec Ideal S2048x64 .f32)
    (bp : FVec Ideal S64 .f32) (Wg : FVec Ideal S64x64 .f32) (bg : FVec Ideal S64 .f32) :
    mulf Gi (Host.divf (broadcastInDim S20000x64 ![] bcast_S_S20000x64 (constant (F := Ideal) S_ .f32 0x3F800000#32)) (addf (broadcastInDim S20000x64 ![] bcast_S_S20000x64 (constant (F := Ideal) S_ .f32 0x3F800000#32)) (Host.exp (Host.negf (addf (Host.dotGeneral dot_S20000x64_S64x64_S20000x64_1_0_0_1_n_n none (addf (Host.dotGeneral dot_S20000x2048_S2048x64_S20000x64_1_0_0_1_n_n none feat Wp) (broadcastInDim S20000x64 ![0, 1] bcast_S1x64_S20000x64_0_1 (broadcastInDim S1x64 ![1] bcast_S64_S1x64_1 bp))) Wg) (broadcastInDim S20000x64 ![0, 1] bcast_S1x64_S20000x64_0_1 (broadcastInDim S1x64 ![1] bcast_S64_S1x64_1 bg)))))))
      = Cert.Spec.gate feat Gi Wp (fun k => bp (ix1 k)) Wg (fun k => bg (ix1 k)) := by
  funext i
  obtain ⟨p, q, rfl⟩ : ∃ (p : Fin 20000) (q : Fin 64), i = ix2 p q := ⟨i 0, i 1, eq_ix2 i⟩
  rw [mulf_apply, hostDivf_apply, addf_apply, broadcastInDim_scalar_apply, constant_apply, Ideal.ofBits_one_f32,
    hostExp_apply, hostNegf_apply, addf_apply, rowBias_apply,
    hostDot_rowcol dot_S20000x64_S64x64_S20000x64_1_0_0_1_n_n rfl rfl (fun _ _ => rfl) (fun _ _ => rfl) (fun _ _ => rfl)
      (fun _ _ => rfl)]
  have inner : ∀ k : Fin 64,
      (addf (Host.dotGeneral dot_S20000x2048_S2048x64_S20000x64_1_0_0_1_n_n none feat Wp)
        (broadcastInDim S20000x64 ![0, 1] bcast_S1x64_S20000x64_0_1 (broadcastInDim S1x64 ![1] bcast_S64_S1x64_1 bp))) (ix2 p k)
        = Cert.Spec.affine (Cert.Spec.row feat p) Wp (fun k => bp (ix1 k)) k := fun k => by
    rw [addf_apply, rowBias_apply,
      hostDot_rowcol dot_S20000x2048_S2048x64_S20000x64_1_0_0_1_n_n rfl rfl (fun _ _ => rfl) (fun _ _ => rfl) (fun _ _ => rfl)
        (fun _ _ => rfl)]
    rfl
  simp only [inner]
  rfl

/-- The second-modality gated table of the reference is the specification's. -/
theorem gate_t_ref (feat : FVec Ideal S20000x768 .f32) (Gi : FVec Ideal S20000x64 .f32) (Wp : FVec Ideal S768x64 .f32)
    (bp : FVec Ideal S64 .f32) (Wg : FVec Ideal S64x64 .f32) (bg : FVec Ideal S64 .f32) :
    mulf Gi (Host.divf (broadcastInDim S20000x64 ![] bcast_S_S20000x64 (constant (F := Ideal) S_ .f32 0x3F800000#32)) (addf (broadcastInDim S20000x64 ![] bcast_S_S20000x64 (constant (F := Ideal) S_ .f32 0x3F800000#32)) (Host.exp (Host.negf (addf (Host.dotGeneral dot_S20000x64_S64x64_S20000x64_1_0_0_1_n_n none (addf (Host.dotGeneral dot_S20000x768_S768x64_S20000x64_1_0_0_1_n_n none feat Wp) (broadcastInDim S20000x64 ![0, 1] bcast_S1x64_S20000x64_0_1 (broadcastInDim S1x64 ![1] bcast_S64_S1x64_1 bp))) Wg) (broadcastInDim S20000x64 ![0, 1] bcast_S1x64_S20000x64_0_1 (broadcastInDim S1x64 ![1] bcast_S64_S1x64_1 bg)))))))
      = Cert.Spec.gate feat Gi Wp (fun k => bp (ix1 k)) Wg (fun k => bg (ix1 k)) := by
  funext i
  obtain ⟨p, q, rfl⟩ : ∃ (p : Fin 20000) (q : Fin 64), i = ix2 p q := ⟨i 0, i 1, eq_ix2 i⟩
  rw [mulf_apply, hostDivf_apply, addf_apply, broadcastInDim_scalar_apply, constant_apply, Ideal.ofBits_one_f32,
    hostExp_apply, hostNegf_apply, addf_apply, rowBias_apply,
    hostDot_rowcol dot_S20000x64_S64x64_S20000x64_1_0_0_1_n_n rfl rfl (fun _ _ => rfl) (fun _ _ => rfl) (fun _ _ => rfl)
      (fun _ _ => rfl)]
  have inner : ∀ k : Fin 64,
      (addf (Host.dotGeneral dot_S20000x768_S768x64_S20000x64_1_0_0_1_n_n none feat Wp)
        (broadcastInDim S20000x64 ![0, 1] bcast_S1x64_S20000x64_0_1 (broadcastInDim S1x64 ![1] bcast_S64_S1x64_1 bp))) (ix2 p k)
        = Cert.Spec.affine (Cert.Spec.row feat p) Wp (fun k => bp (ix1 k)) k := fun k => by
    rw [addf_apply, rowBias_apply,
      hostDot_rowcol dot_S20000x768_S768x64_S20000x64_1_0_0_1_n_n rfl rfl (fun _ _ => rfl) (fun _ _ => rfl) (fun _ _ => rfl)
        (fun _ _ => rfl)]
    rfl
  simp only [inner]
  rfl

end Cert.ReferenceIdeal.GateRef

end
-- ==== Proof.HostMid.lean ====
/-
  The host operations between the two kernel regions are the same graph propagation in both programs: sparse
  products `out(rows(e)) += vals(e) · x(cols(e))` over the edges `e` (a gather, a row scaling, a scatter-add into
  zeros), sums, a division by 3 and concatenations.  So the three tables the second region reads — the content
  table, and the two modality tables built from the gated item tables — are, as whole arrays, the same terms of the
  arguments in both programs; the gated tables enter through their common value `gate …`.  Nothing here is read
  index by index: both sides are one expression, compared as written.
-/
import proofs.«181136_j28157805592958_1_alg».proof.Proof.Gen.KernelIdeal.Frame
import proofs.«181136_j28157805592958_1_alg».proof.Proof.Gen.ReferenceIdeal.Run
import proofs.«181136_j28157805592958_1_alg».proof.Proof.Spec
import proofs.«181136_j28157805592958_1_alg».proof.Proof.GateRef
import Idealize.ShloMosaic.PureOps.Ideal
import Idealize.ShloMosaic.Lib.StableHlo.Run
import Idealize.ShloMosaic.Lib.ValueIdx

noncomputable section

namespace Cert.HostMid

open Idealize.ShloMosaic Idealize.ShloMosaic.TcCoe Idealize.SL.Sem Idealize.ShloMosaic.StableHlo Idealize.ShloMosaic.ValueIdx

variable (W : Valuation Cert.KernelIdeal.τ Cert.KernelIdeal.sig (Elt Ideal)) (V0 : Valuation Cert.ReferenceIdeal.τ Cert.ReferenceIdeal.sig (Elt Ideal))

set_option maxRecDepth 8192 in
/-- The content table: the mean of the embeddings and their first two propagations over the user-item graph. -/
theorem content_eq (h0 : V0 (Proc.devRef .tc Cert.ReferenceIdeal.main_arg0) = W (Proc.devRef .tc Cert.KernelIdeal.main_arg0)) (h1 : V0 (Proc.devRef .tc Cert.ReferenceIdeal.main_arg1) = W (Proc.devRef .tc Cert.KernelIdeal.main_arg1)) (h19 : V0 (Proc.devRef .tc Cert.ReferenceIdeal.main_arg19) = W (Proc.devRef .tc Cert.KernelIdeal.main_arg19)) (h23 : V0 (Proc.devRef .tc Cert.ReferenceIdeal.main_arg23) = W (Proc.devRef .tc Cert.KernelIdeal.main_arg23)) (h24 : V0 (Proc.devRef .tc Cert.ReferenceIdeal.main_arg24) = W (Proc.devRef .tc Cert.KernelIdeal.main_arg24)) :
    StableHlo.after (Cert.KernelIdeal.Gen.hostOps1 (F := Ideal)) W (Proc.devRef .tc Cert.KernelIdeal.main_v35) = Cert.ReferenceIdeal.Value.res_main_v60 V0 := by
  unfold Cert.ReferenceIdeal.Value.res_main_v60 Cert.ReferenceIdeal.Value.res_main_v43 Cert.ReferenceIdeal.Value.res_main_v30
  rw [h0, h1, h19, h23, h24]
  after_results_simp
  rfl

set_option maxRecDepth 8192 in
/-- The first modality's table: the gated visual items propagated over their neighbour graph, lifted to the users, and stacked. -/
theorem mmv_eq (h1 : V0 (Proc.devRef .tc Cert.ReferenceIdeal.main_arg1) = W (Proc.devRef .tc Cert.KernelIdeal.main_arg1)) (h2 : V0 (Proc.devRef .tc Cert.ReferenceIdeal.main_arg2) = W (Proc.devRef .tc Cert.KernelIdeal.main_arg2)) (h4 : V0 (Proc.devRef .tc Cert.ReferenceIdeal.main_arg4) = W (Proc.devRef .tc Cert.KernelIdeal.main_arg4)) (h5 : V0 (Proc.devRef .tc Cert.ReferenceIdeal.main_arg5) = W (Proc.devRef .tc Cert.KernelIdeal.main_arg5)) (h8 : V0 (Proc.devRef .tc Cert.ReferenceIdeal.main_arg8) = W (Proc.devRef .tc Cert.KernelIdeal.main_arg8)) (h9 : V0 (Proc.devRef .tc Cert.ReferenceIdeal.main_arg9) = W (Proc.devRef .tc Cert.KernelIdeal.main_arg9)) (h20 : V0 (Proc.devRef .tc Cert.ReferenceIdeal.main_arg20) = W (Proc.devRef .tc Cert.KernelIdeal.main_arg20)) (h22 : V0 (Proc.devRef .tc Cert.ReferenceIdeal.main_arg22) = W (Proc.devRef .tc Cert.KernelIdeal.main_arg22)) (h25 : V0 (Proc.devRef .tc Cert.ReferenceIdeal.main_arg25) = W (Proc.devRef .tc Cert.KernelIdeal.main_arg25)) (h26 : V0 (Proc.devRef .tc Cert.ReferenceIdeal.main_arg26) = W (Proc.devRef .tc Cert.KernelIdeal.main_arg26)) (h29 : V0 (Proc.devRef .tc Cert.ReferenceIdeal.main_arg29) = W (Proc.devRef .tc Cert.KernelIdeal.main_arg29)) (h30 : V0 (Proc.devRef .tc Cert.ReferenceIdeal.main_arg30) = W (Proc.devRef .tc Cert.KernelIdeal.main_arg30))
    (hK : W (Proc.devRef .tc Cert.KernelIdeal.main_v4_0) = Cert.Spec.gate (W (Proc.devRef .tc Cert.KernelIdeal.main_arg2)) (W (Proc.devRef .tc Cert.KernelIdeal.main_arg1)) (W (Proc.devRef .tc Cert.KernelIdeal.main_arg4)) (fun k => (W (Proc.devRef .tc Cert.KernelIdeal.main_arg5)) (ix1 k)) (W (Proc.devRef .tc Cert.KernelIdeal.main_arg8)) (fun k => (W (Proc.devRef .tc Cert.KernelIdeal.main_arg9)) (ix1 k))) :
    StableHlo.after (Cert.KernelIdeal.Gen.hostOps1 (F := Ideal)) W (Proc.devRef .tc Cert.KernelIdeal.main_v75) = Cert.ReferenceIdeal.Value.res_main_v100 V0 := by
  unfold Cert.ReferenceIdeal.Value.res_main_v100 Cert.ReferenceIdeal.Value.res_main_v73
  rw [Cert.ReferenceIdeal.GateRef.gate_v_ref]
  rw [h1, h2, h4, h5, h8, h9, h20, h22, h25, h26, h29, h30, ← hK]
  after_results_simp
  rfl

set_option maxRecDepth 8192 in
/-- The second modality's table, likewise from the gated textual items. -/
theorem mmt_eq (h1 : V0 (Proc.devRef .tc Cert.ReferenceIdeal.main_arg1) = W (Proc.devRef .tc Cert.KernelIdeal.main_arg1)) (h3 : V0 (Proc.devRef .tc Cert.ReferenceIdeal.main_arg3) = W (Proc.devRef .tc Cert.KernelIdeal.main_arg3)) (h6 : V0 (Proc.devRef .tc Cert.ReferenceIdeal.main_arg6) = W (Proc.devRef .tc Cert.KernelIdeal.main_arg6)) (h7 : V0 (Proc.devRef .tc Cert.ReferenceIdeal.main_arg7) = W (Proc.devRef .tc Cert.KernelIdeal.main_arg7)) (h10 : V0 (Proc.devRef .tc Cert.ReferenceIdeal.main_arg10) = W (Proc.devRef .tc Cert.KernelIdeal.main_arg10)) (h11 : V0 (Proc.devRef .tc Cert.ReferenceIdeal.main_arg11) = W (Proc.devRef .tc Cert.KernelIdeal.main_arg11)) (h21 : V0 (Proc.devRef .tc Cert.ReferenceIdeal.main_arg21) = W (Proc.devRef .tc Cert.KernelIdeal.main_arg21)) (h22 : V0 (Proc.devRef .tc Cert.ReferenceIdeal.main_arg22) = W (Proc.devRef .tc Cert.KernelIdeal.main_arg22)) (h27 : V0 (Proc.devRef .tc Cert.ReferenceIdeal.main_arg27) = W (Proc.devRef .tc Cert.KernelIdeal.main_arg27)) (h28 : V0 (Proc.devRef .tc Cert.ReferenceIdeal.main_arg28) = W (Proc.devRef .tc Cert.KernelIdeal.main_arg28)) (h29 : V0 (Proc.devRef .tc Cert.ReferenceIdeal.main_arg29) = W (Proc.devRef .tc Cert.KernelIdeal.main_arg29)) (h30 : V0 (Proc.devRef .tc Cert.ReferenceIdeal.main_arg30) = W (Proc.devRef .tc Cert.KernelIdeal.main_arg30))
    (hK : W (Proc.devRef .tc Cert.KernelIdeal.main_v4_1) = Cert.Spec.gate (W (Proc.devRef .tc Cert.KernelIdeal.main_arg3)) (W (Proc.devRef .tc Cert.KernelIdeal.main_arg1)) (W (Proc.devRef .tc Cert.KernelIdeal.main_arg6)) (fun k => (W (Proc.devRef .tc Cert.KernelIdeal.main_arg7)) (ix1 k)) (W (Proc.devRef .tc Cert.KernelIdeal.main_arg10)) (fun k => (W (Proc.devRef .tc Cert.KernelIdeal.main_arg11)) (ix1 k))) :
    StableHlo.after (Cert.KernelIdeal.Gen.hostOps1 (F := Ideal)) W (Proc.devRef .tc Cert.KernelIdeal.main_v89) = Cert.ReferenceIdeal.Value.res_main_v114 V0 := by
  unfold Cert.ReferenceIdeal.Value.res_main_v114 Cert.ReferenceIdeal.Value.res_main_v86
  rw [Cert.ReferenceIdeal.GateRef.gate_t_ref]
  rw [h1, h3, h6, h7, h10, h11, h21, h22, h27, h28, h29, h30, ← hK]
  after_results_simp
  rfl

end Cert.HostMid

end
-- ==== Proof.LibReal.lean ====
/-
  Real arithmetic on the extended reals: a program-free library.

  At the ideal instance a float is an extended real and every operation is the exact one.  When every
  value involved is a real number (neither infinity), the operations are those of the field of real
  numbers; this file states that closure, operation by operation, and proves the one algebraic fact
  needed about a batch normalisation: the mean of the squared deviations from the mean is the mean of
  the squares minus the square of the mean.
-/
import Idealize.ShloMosaic.PureOps.Ideal
import Idealize.ShloMosaic.PureOps.Ideal.Laws
import Idealize.ShloMosaic.Lib.ValueIdx

noncomputable section

namespace Cert.LibReal

open Idealize.ShloMosaic
open scoped BigOperators

/-! ## Sums of reals inside the extended reals -/

/-- The coercion of a finite sum of reals is the sum of the coercions. -/
theorem coe_sum {κ : Type} (s : Finset κ) (f : κ → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of extended reals each of which is a given real is the coercion of the real sum. -/
theorem sum_eq_coe {κ : Type} (s : Finset κ) (x : κ → EReal) (r : κ → ℝ) (hx : ∀ i ∈ s, x i = (r i : EReal)) :
    ∑ i ∈ s, x i = ((∑ i ∈ s, r i : ℝ) : EReal) := by
  rw [coe_sum]; exact Finset.sum_congr rfl hx

/-- The ideal quotient of two reals, the divisor not zero, is the real quotient. -/
theorem div_coe_coe (x N : ℝ) (hN : N ≠ 0) : Ideal.div (x : EReal) (N : EReal) = ((x / N : ℝ) : EReal) := by
  rw [Ideal.div_coe hN, ← EReal.coe_mul, mul_one_div]

/-! ## The variance identity -/

section Variance
variable {ι : Type} [Fintype ι]

/-- The mean of the family r over a divisor N: (∑ r) / N. -/
def mean (r : ι → ℝ) (N : ℝ) : ℝ := (∑ i, r i) / N

/-- The centred second moment: (∑ (r - mean)²) / N. -/
def varCentered (r : ι → ℝ) (N : ℝ) : ℝ := (∑ i, (r i - mean r N) * (r i - mean r N)) / N

/-- The raw second moment minus the squared mean: (∑ r²) / N - mean². -/
def varMoment (r : ι → ℝ) (N : ℝ) : ℝ := (∑ i, r i * r i) / N - mean r N * mean r N

/-- Over the reals: when N is the number of terms, the mean of the squared deviations from the mean is the
    mean of the squares minus the square of the mean. -/
theorem varCentered_eq_varMoment (r : ι → ℝ) (N : ℝ) (hN : N ≠ 0) (hcard : (Fintype.card ι : ℝ) = N) :
    varCentered r N = varMoment r N := by
  unfold varCentered varMoment mean
  generalize hS : (∑ i, r i) = S
  have h1 : ∑ i, (r i - S / N) * (r i - S / N)
      = (∑ i, r i * r i) - 2 * (S / N) * S + N * ((S / N) * (S / N)) := by
    have h2 : ∀ i, (r i - S / N) * (r i - S / N) = r i * r i - 2 * (S / N) * r i + (S / N) * (S / N) :=
      fun i => by ring
    simp only [h2]
    rw [Finset.sum_add_distrib, Finset.sum_sub_distrib, ← Finset.mul_sum, hS, Finset.sum_const, Finset.card_univ,
      nsmul_eq_mul, hcard]
  rw [h1]
  field_simp
  ring

/-- The centred second moment is not negative when the divisor is positive. -/
theorem varCentered_nonneg (r : ι → ℝ) (N : ℝ) (hN : 0 < N) : 0 ≤ varCentered r N :=
  div_nonneg (Finset.sum_nonneg fun _ _ => mul_self_nonneg _) hN.le

/-- Hence so is the raw second moment minus the squared mean, when N is the number of terms. -/
theorem varMoment_nonneg (r : ι → ℝ) (N : ℝ) (hN : 0 < N) (hcard : (Fintype.card ι : ℝ) = N) : 0 ≤ varMoment r N := by
  rw [← varCentered_eq_varMoment r N hN.ne' hcard]; exact varCentered_nonneg r N hN

/-- In the extended reals, the ideal quotient by N of the sum of a real family is the mean. -/
theorem div_sum_eq_mean (x : ι → EReal) (r : ι → ℝ) (hx : ∀ i, x i = (r i : EReal)) (N : ℝ) (hN : N ≠ 0) :
    Ideal.div (∑ i, x i) (N : EReal) = ((mean r N : ℝ) : EReal) := by
  rw [sum_eq_coe _ x r fun i _ => hx i, div_coe_coe _ _ hN]; rfl

/-- In the extended reals, with m the mean: the ideal quotient by N of the sum of (x - m) * (x - m) is the
    centred second moment. -/
theorem div_sum_centered (x : ι → EReal) (r : ι → ℝ) (hx : ∀ i, x i = (r i : EReal)) (N : ℝ) (hN : N ≠ 0)
    (m : EReal) (hm : m = ((mean r N : ℝ) : EReal)) :
    Ideal.div (∑ i, (x i - m) * (x i - m)) (N : EReal) = ((varCentered r N : ℝ) : EReal) := by
  subst hm
  rw [sum_eq_coe _ _ (fun i => (r i - mean r N) * (r i - mean r N)) fun i _ => by
    rw [hx i, ← EReal.coe_sub, ← EReal.coe_mul], div_coe_coe _ _ hN]
  rfl

/-- In the extended reals, with m the mean: the ideal quotient by N of the sum of x * x, minus m * m, is the
    raw second moment minus the squared mean. -/
theorem div_sum_sq_sub (x : ι → EReal) (r : ι → ℝ) (hx : ∀ i, x i = (r i : EReal)) (N : ℝ) (hN : N ≠ 0)
    (m : EReal) (hm : m = ((mean r N : ℝ) : EReal)) :
    Ideal.div (∑ i, x i * x i) (N : EReal) - m * m = ((varMoment r N : ℝ) : EReal) := by
  subst hm
  rw [sum_eq_coe _ _ (fun i => r i * r i) fun i _ => by rw [hx i, ← EReal.coe_mul], div_coe_coe _ _ hN,
    ← EReal.coe_mul, ← EReal.coe_sub]
  rfl

/-- THE VARIANCE IDENTITY in the extended reals, for a family of reals, N the number of terms, m the mean
    (∑ x) / N:   (∑ (x - m) * (x - m)) / N  =  (∑ x * x) / N  -  m * m. -/
theorem variance_identity (x : ι → EReal) (r : ι → ℝ) (hx : ∀ i, x i = (r i : EReal)) (N : ℝ) (hN : N ≠ 0)
    (hcard : (Fintype.card ι : ℝ) = N) (m : EReal) (hm : m = Ideal.div (∑ i, x i) (N : EReal)) :
    Ideal.div (∑ i, (x i - m) * (x i - m)) (N : EReal) = Ideal.div (∑ i, x i * x i) (N : EReal) - m * m := by
  have hm' : m = ((mean r N : ℝ) : EReal) := hm.trans (div_sum_eq_mean x r hx N hN)
  rw [div_sum_centered x r hx N hN m hm', div_sum_sq_sub x r hx N hN m hm', varCentered_eq_varMoment r N hN hcard]

end Variance

/-! ## Arrays of real numbers -/

/-- Every element of the array is a real number (neither infinity). -/
def IsReal {ι : Type} (x : ι → EReal) : Prop := ∀ i, ∃ r : ℝ, x i = (r : EReal)

/-- An array of reals is the coercion of a real array. -/
theorem IsReal.exists_fun {ι : Type} {x : ι → EReal} (hx : IsReal x) : ∃ r : ι → ℝ, ∀ i, x i = (r i : EReal) :=
  ⟨fun i => (hx i).choose, fun i => (hx i).choose_spec⟩

/-- An extended real is a real number exactly when it is neither infinity. -/
theorem real_iff_ne (a : EReal) : (∃ r : ℝ, a = (r : EReal)) ↔ a ≠ ⊤ ∧ a ≠ ⊥ := by
  constructor
  · rintro ⟨r, rfl⟩; exact ⟨EReal.coe_ne_top r, EReal.coe_ne_bot r⟩
  · rintro ⟨ht, hb⟩
    induction a using EReal.rec with
    | bot => exact absurd rfl hb
    | top => exact absurd rfl ht
    | coe r => exact ⟨r, rfl⟩

/-! ### Elementwise -/

/-- The sum of two reals is a real. -/
theorem real_add {a b : EReal} (ha : ∃ r : ℝ, a = (r : EReal)) (hb : ∃ r : ℝ, b = (r : EReal)) :
    ∃ r : ℝ, a + b = (r : EReal) := by
  obtain ⟨p, rfl⟩ := ha; obtain ⟨q, rfl⟩ := hb; exact ⟨p + q, (EReal.coe_add p q).symm⟩

/-- The difference of two reals is a real. -/
theorem real_sub {a b : EReal} (ha : ∃ r : ℝ, a = (r : EReal)) (hb : ∃ r : ℝ, b = (r : EReal)) :
    ∃ r : ℝ, a - b = (r : EReal) := by
  obtain ⟨p, rfl⟩ := ha; obtain ⟨q, rfl⟩ := hb; exact ⟨p - q, (EReal.coe_sub p q).symm⟩

/-- The product of two reals is a real. -/
theorem real_mul {a b : EReal} (ha : ∃ r : ℝ, a = (r : EReal)) (hb : ∃ r : ℝ, b = (r : EReal)) :
    ∃ r : ℝ, a * b = (r : EReal) := by
  obtain ⟨p, rfl⟩ := ha; obtain ⟨q, rfl⟩ := hb; exact ⟨p * q, (EReal.coe_mul p q).symm⟩

/-- The maximum of two reals is a real: the real maximum. -/
theorem coe_max' (p q : ℝ) : max (p : EReal) (q : EReal) = ((max p q : ℝ) : EReal) := by
  rcases le_total p q with h | h
  · rw [max_eq_right h, max_eq_right (EReal.coe_le_coe_iff.mpr h)]
  · rw [max_eq_left h, max_eq_left (EReal.coe_le_coe_iff.mpr h)]

/-- The maximum of two reals is a real. -/
theorem real_max {a b : EReal} (ha : ∃ r : ℝ, a = (r : EReal)) (hb : ∃ r : ℝ, b = (r : EReal)) :
    ∃ r : ℝ, max a b = (r : EReal) := by
  obtain ⟨p, rfl⟩ := ha; obtain ⟨q, rfl⟩ := hb; exact ⟨max p q, coe_max' p q⟩

/-- The maximum of a real and zero is a real that is not negative. -/
theorem real_max_zero_nonneg {a : EReal} (ha : ∃ r : ℝ, a = (r : EReal)) :
    ∃ r : ℝ, 0 ≤ r ∧ max a 0 = (r : EReal) := by
  obtain ⟨p, rfl⟩ := ha
  exact ⟨max p 0, le_max_right _ _, by rw [← EReal.coe_zero, coe_max']⟩

/-- The ideal quotient of a real by a real that is not zero is a real. -/
theorem real_div {a b : EReal} (ha : ∃ r : ℝ, a = (r : EReal)) (hb : ∃ r : ℝ, r ≠ 0 ∧ b = (r : EReal)) :
    ∃ r : ℝ, Ideal.div a b = (r : EReal) := by
  obtain ⟨p, rfl⟩ := ha; obtain ⟨q, hq, rfl⟩ := hb; exact ⟨p / q, div_coe_coe p q hq⟩

/-- The ideal reciprocal square root of a positive real is the positive real 1 / √p. -/
theorem rsqrt_coe_pos {p : ℝ} (hp : 0 < p) : Ideal.rsqrt (p : EReal) = (((Real.sqrt p)⁻¹ : ℝ) : EReal) := by
  rw [Ideal.rsqrt_coe, if_neg (not_lt.mpr hp.le), if_neg hp.ne']

/-- The ideal reciprocal square root of a positive real is a positive real. -/
theorem real_rsqrt {a : EReal} (ha : ∃ r : ℝ, 0 < r ∧ a = (r : EReal)) :
    ∃ r : ℝ, 0 < r ∧ Ideal.rsqrt a = (r : EReal) := by
  obtain ⟨p, hp, rfl⟩ := ha
  exact ⟨(Real.sqrt p)⁻¹, inv_pos.mpr (Real.sqrt_pos.mpr hp), rsqrt_coe_pos hp⟩

/-- A real that is not negative plus a positive real is a positive real. -/
theorem real_add_pos {a b : EReal} (ha : ∃ r : ℝ, 0 ≤ r ∧ a = (r : EReal)) (hb : ∃ r : ℝ, 0 < r ∧ b = (r : EReal)) :
    ∃ r : ℝ, 0 < r ∧ a + b = (r : EReal) := by
  obtain ⟨p, hp, rfl⟩ := ha; obtain ⟨q, hq, rfl⟩ := hb
  exact ⟨p + q, add_pos_of_nonneg_of_pos hp hq, (EReal.coe_add p q).symm⟩

/-- A finite sum of reals is a real. -/
theorem real_sum {κ : Type} (s : Finset κ) (x : κ → EReal) (h : ∀ i ∈ s, ∃ r : ℝ, x i = (r : EReal)) :
    ∃ r : ℝ, ∑ i ∈ s, x i = (r : EReal) := by
  classical
  induction s using Finset.induction_on with
  | empty => exact ⟨0, by simp⟩
  | insert a s ha ih =>
    rw [Finset.sum_insert ha]
    exact real_add (h a (Finset.mem_insert_self a s)) (ih fun i hi => h i (Finset.mem_insert_of_mem hi))

/-! ### Arrays: re-indexings -/

section Arrays
variable {ι κ : Type} {s t : Shape} {φ : FTy}

/-- Reading an array of reals through any map of indices gives an array of reals: every broadcast,
    reshape, slice, transpose and gather is of this form. -/
theorem IsReal.comp {x : ι → EReal} (hx : IsReal x) (f : κ → ι) : IsReal (fun j => x (f j)) := fun j => hx (f j)

/-- A constant array whose one value is a real is an array of reals. -/
theorem IsReal.const {a : EReal} (ha : ∃ r : ℝ, a = (r : EReal)) : IsReal (fun _ : ι => a) := fun _ => ha

/-- A gather of an array of reals is an array of reals, whatever the index array. -/
theorem IsReal.gather {si : Shape} {w : Nat} (d : GatherDims s si t) {x : s.Idx → EReal} (hx : IsReal x)
    (idx : IVec si w) : IsReal (Host.gather d x idx) := fun _ => hx _

/-- A broadcast along stated axes of an array of reals is an array of reals. -/
theorem IsReal.broadcastInDim {x : s.Idx → EReal} (hx : IsReal x) (t : Shape) (dims : Fin s.rank → Fin t.rank)
    (h : s.BroadcastsInDim t dims) : IsReal (broadcastInDim t dims h x) := fun _ => hx _

/-- A trailing-axes broadcast of an array of reals is an array of reals. -/
theorem IsReal.broadcastTo {x : s.Idx → EReal} (hx : IsReal x) (t : Shape) (h : s.Broadcasts t) :
    IsReal (broadcastTo t x h) := fun _ => hx _

/-- The splat of a real is an array of reals. -/
theorem IsReal.broadcast {a : EReal} (ha : ∃ r : ℝ, a = (r : EReal)) (t : Shape) : IsReal (broadcast t a) := fun _ => ha

/-- A reshape of an array of reals is an array of reals. -/
theorem IsReal.shapeCast {x : s.Idx → EReal} (hx : IsReal x) (t : Shape) (h : s.ShapeCasts t) :
    IsReal (shapeCast t x h) := fun _ => hx _

/-- A slice of an array of reals is an array of reals. -/
theorem IsReal.extractStridedSlice {x : s.Idx → EReal} (hx : IsReal x) (t : Shape) (off : Fin s.rank → Nat)
    (h : s.Slices off t) : IsReal (extractStridedSlice t off x h) := fun _ => hx _

/-- An elementwise choice between two arrays of reals is an array of reals. -/
theorem IsReal.select (c : IVec s 1) {a b : s.Idx → EReal} (ha : IsReal a) (hb : IsReal b) : IsReal (select c a b) := by
  intro i
  show ∃ r : ℝ, (if c i = 1 then a i else b i) = (r : EReal)
  split
  · exact ha i
  · exact hb i

/-! ### Arrays: arithmetic -/

/-- The elementwise sum of two arrays of reals is an array of reals. -/
theorem IsReal.addf {x y : FVec Ideal s φ} (hx : IsReal x) (hy : IsReal y) : IsReal (addf x y) :=
  fun i => real_add (hx i) (hy i)

/-- The elementwise difference of two arrays of reals is an array of reals. -/
theorem IsReal.subf {x y : FVec Ideal s φ} (hx : IsReal x) (hy : IsReal y) : IsReal (subf x y) :=
  fun i => real_sub (hx i) (hy i)

/-- The elementwise product of two arrays of reals is an array of reals. -/
theorem IsReal.mulf {x y : FVec Ideal s φ} (hx : IsReal x) (hy : IsReal y) : IsReal (mulf x y) :=
  fun i => real_mul (hx i) (hy i)

/-- The elementwise maximum of two arrays of reals is an array of reals. -/
theorem IsReal.maximumf {x y : FVec Ideal s φ} (hx : IsReal x) (hy : IsReal y) : IsReal (maximumf x y) :=
  fun i => real_max (hx i) (hy i)

/-- An integer converted to a float is a real: the integer. -/
theorem IsReal.sitofp {w : Nat} (φ : FTy) (x : IVec s w) : IsReal (sitofp (F := Ideal) φ x) :=
  fun i => ⟨((x i).toInt : ℝ), rfl⟩

/-- The integer zero converted to a float is the real zero. -/
theorem sitofp_zero (φ : FTy) (x : IVec s 32) (hx : ∀ i, x i = 0#32) : sitofp (F := Ideal) φ x = fun _ => (0 : EReal) := by
  funext i
  show (((x i).toInt : ℝ) : EReal) = 0
  rw [hx i]; simp

/-- The host's elementwise quotient of an array of reals by an array of reals none of which is zero is an
    array of reals. -/
theorem IsReal.host_divf {x y : FVec Ideal s φ} (hx : IsReal x) (hy : ∀ i, ∃ r : ℝ, r ≠ 0 ∧ y i = (r : EReal)) :
    IsReal (Host.divf x y) := fun i => real_div (hx i) (hy i)

/-- The kernel's elementwise quotient likewise. -/
theorem IsReal.divf {x y : FVec Ideal s φ} (hx : IsReal x) (hy : ∀ i, ∃ r : ℝ, r ≠ 0 ∧ y i = (r : EReal)) :
    IsReal (divf x y) := fun i => real_div (hx i) (hy i)

/-- Every element of the array is a positive real. -/
def IsPos {ι : Type} (x : ι → EReal) : Prop := ∀ i, ∃ r : ℝ, 0 < r ∧ x i = (r : EReal)

/-- Every element of the array is a real that is not negative. -/
def IsNonneg {ι : Type} (x : ι → EReal) : Prop := ∀ i, ∃ r : ℝ, 0 ≤ r ∧ x i = (r : EReal)

/-- Positive reals are reals. -/
theorem IsPos.isReal {x : ι → EReal} (hx : IsPos x) : IsReal x := fun i => (hx i).imp fun _ h => h.2

/-- Reals that are not negative are reals. -/
theorem IsNonneg.isReal {x : ι → EReal} (hx : IsNonneg x) : IsReal x := fun i => (hx i).imp fun _ h => h.2

/-- Positive reals are not zero. -/
theorem IsPos.ne_zero {x : ι → EReal} (hx : IsPos x) : ∀ i, ∃ r : ℝ, r ≠ 0 ∧ x i = (r : EReal) :=
  fun i => (hx i).imp fun _ h => ⟨h.1.ne', h.2⟩

/-- Reading positive reals through any map of indices gives positive reals. -/
theorem IsPos.comp {x : ι → EReal} (hx : IsPos x) (f : κ → ι) : IsPos (fun j => x (f j)) := fun j => hx (f j)

/-- Reading reals that are not negative through any map of indices gives reals that are not negative. -/
theorem IsNonneg.comp {x : ι → EReal} (hx : IsNonneg x) (f : κ → ι) : IsNonneg (fun j => x (f j)) := fun j => hx (f j)

/-- An array of reals that are not negative plus an array of positive reals is an array of positive reals. -/
theorem IsPos.addf {x y : FVec Ideal s φ} (hx : IsNonneg x) (hy : IsPos y) : IsPos (addf x y) :=
  fun i => real_add_pos (hx i) (hy i)

/-- The maximum of an array of reals with the zero array is an array of reals that are not negative. -/
theorem IsNonneg.maximumf_zero {x y : FVec Ideal s φ} (hx : IsReal x) (hy : ∀ i, y i = 0) : IsNonneg (maximumf x y) := by
  intro i
  show ∃ r : ℝ, 0 ≤ r ∧ max (x i) (y i) = (r : EReal)
  rw [hy i]; exact real_max_zero_nonneg (hx i)

/-- The host's reciprocal square root of an array of positive reals is an array of positive reals. -/
theorem IsPos.host_rsqrt {x : FVec Ideal s φ} (hx : IsPos x) : IsPos (Host.rsqrt x) := fun i => real_rsqrt (hx i)

/-- The kernel's reciprocal square root of an array of positive reals is an array of positive reals. -/
theorem IsPos.rsqrt {x : FVec Ideal s φ} (hx : IsPos x) : IsPos (rsqrt x) := fun i => real_rsqrt (hx i)

/-- At the ideal values the host's reciprocal square root and the kernel's are one function. -/
theorem host_rsqrt_eq_rsqrt (x : FVec Ideal s φ) : Host.rsqrt x = rsqrt x := rfl

/-- At the ideal values the host's quotient and the kernel's are one function. -/
theorem host_divf_eq_divf (x y : FVec Ideal s φ) : Host.divf x y = divf x y := rfl

/-! ### Arrays: sums -/

/-- The host's float sum of an array of reals from a real initial value is an array of reals. -/
theorem IsReal.hostReduceAdd {axes : List (Fin s.rank)} (h : s.ReducesTo axes t) {x : s.Idx → EReal} (hx : IsReal x)
    {init : EReal} (hinit : ∃ r : ℝ, init = (r : EReal)) : IsReal (Ideal.hostReduceAdd h x init) :=
  fun _ => real_add hinit (real_sum _ _ fun i _ => hx i)

/-- The same for the host reduction as a program spells it. -/
theorem IsReal.host_reduceAdd {axes : List (Fin s.rank)} {u : Shape} {x : FVec Ideal s φ} (hx : IsReal x)
    {init : u.Idx → Ideal φ} (hinit : IsReal init) (h : s.ReducesTo axes t) (hu : 0 < u.numel) :
    IsReal (Host.reduceAdd x init h hu) :=
  fun _ => real_add (hinit _) (real_sum _ _ fun i _ => hx i)

/-- A kernel's sum reduction of an array of reals is an array of reals. -/
theorem IsReal.reduceAdd {axes : List (Fin s.rank)} (h : s.Reduces axes t) {x : s.Idx → EReal} (hx : IsReal x) :
    IsReal (Ideal.reduceAdd h x) :=
  fun _ => real_sum _ _ fun i _ => hx i

/-- The same for the reduction as a program spells it. -/
theorem IsReal.multiReduction_add {axes : List (Fin s.rank)} {x : FVec Ideal s φ} (hx : IsReal x) (acc : BitVec φ.bits)
    (h : s.Reduces axes t) (hφ : FKind.Formats φ) (hacc : acc = FKind.add.neutral φ hφ) :
    IsReal (multiReduction .add axes t x acc h hφ hacc) := by
  have e : multiReduction .add axes t x acc h hφ hacc = Ideal.reduceAdd h x := rfl
  rw [e]; exact IsReal.reduceAdd h hx

/-- The host's accumulating scatter of real updates into an array of reals is an array of reals, whatever
    the index array: each element is its old value plus a finite sum of updates. -/
theorem IsReal.hostScatterAdd {si su : Shape} (d : ScatterDims s si su) {w : Nat} {x : s.Idx → EReal} (hx : IsReal x)
    (idx : IVec si w) {upd : su.Idx → EReal} (hupd : IsReal upd) : IsReal (Ideal.hostScatterAdd d x idx upd) :=
  fun i => real_add (hx i) (real_sum _ _ fun j _ => hupd j)

/-- The same for the scatter as a program spells it. -/
theorem IsReal.host_scatterAdd {si u : Shape} {w : Nat} (d : ScatterDims s si u) {x : FVec Ideal s φ} (hx : IsReal x)
    (idx : IVec si w) {upd : FVec Ideal u φ} (hupd : IsReal upd) : IsReal (Host.scatterAdd d x idx upd) :=
  fun i => real_add (hx i) (real_sum _ _ fun j _ => hupd j)

/-- The host's matrix product of two arrays of reals is an array of reals: each element is a finite sum of
    products. -/
theorem IsReal.host_dotGeneral {sl sr so : Shape} {φ₁ φ₂ : FTy} (d : DotDims sl sr so) (prec : Option ContractPrecision)
    {l : FVec Ideal sl φ₁} {r : FVec Ideal sr φ₂} (hl : IsReal l) (hr : IsReal r) : IsReal (Host.dotGeneral d prec l r) := by
  intro j
  show ∃ p : ℝ, FloatOps.dotGeneral d prec .single l r j = (p : EReal)
  rw [Ideal.dotGeneral_apply]
  exact real_sum _ _ fun k _ => real_mul (hl _) (hr _)

/-- The kernel's matrix product of two arrays of reals onto a real accumulator is an array of reals. -/
theorem IsReal.matmul {sl sr so : Shape} {φ₁ φ₂ : FTy} (d : DotDims sl sr so) (prec : Option ContractPrecision)
    {l : FVec Ideal sl φ₁} {r : FVec Ideal sr φ₂} {acc : FVec Ideal so .f32} (hl : IsReal l) (hr : IsReal r)
    (hacc : IsReal acc) : IsReal (matmul d prec l r acc) := by
  intro j
  show ∃ p : ℝ, FloatOps.matmul d prec l r acc j = (p : EReal)
  rw [Ideal.matmul_apply]
  exact real_add (hacc j) (real_sum _ _ fun k _ => real_mul (hl _) (hr _))

end Arrays

/-! ## The float constants, as the reals their patterns denote -/

/-- The pattern of +0.0 denotes 0. -/
theorem ofBits_zero : Ideal.ofBits .f32 0x00000000#32 = 0 := by
  simp [Ideal.ofBits, Ideal.ieee]

/-- The pattern 0x47435000 denotes the real 50000. -/
theorem ofBits_50000 : Ideal.ofBits .f32 0x47435000#32 = ((50000 : ℝ) : EReal) := by
  simp [Ideal.ofBits, Ideal.ieee, -EReal.coe_mul]; norm_num

/-- The pattern 0x3727C5AC denotes the real 10995116 / 2 ^ 40 (about 1e-5). -/
theorem ofBits_eps_val : Ideal.ofBits .f32 0x3727C5AC#32 = (((10995116 : ℝ) / 2 ^ 40 : ℝ) : EReal) := by
  simp [Ideal.ofBits, Ideal.ieee, -EReal.coe_mul]; norm_num

/-- The pattern 0x3727C5AC denotes a positive real. -/
theorem ofBits_eps : ∃ ε : ℝ, 0 < ε ∧ Ideal.ofBits .f32 0x3727C5AC#32 = (ε : EReal) :=
  ⟨(10995116 : ℝ) / 2 ^ 40, by positivity, ofBits_eps_val⟩

/-- The quiet-NaN pattern denotes the bottom element. -/
theorem ofBits_nan : Ideal.ofBits .f32 0x7FC00000#32 = ⊥ := by
  simp [Ideal.ofBits, Ideal.ieee]

/-- The pattern of +∞ denotes the top element. -/
theorem ofBits_inf : Ideal.ofBits .f32 0x7F800000#32 = ⊤ := by
  simp [Ideal.ofBits, Ideal.ieee]

section Constants
variable (s : Shape)

/-- The splat of +0.0 is the zero array. -/
theorem constant_zero : (constant s .f32 0x00000000#32 : FVec Ideal s .f32) = fun _ => (0 : EReal) :=
  funext fun _ => ofBits_zero

/-- The splat of 0x47435000 is the array of the real 50000. -/
theorem constant_50000 : (constant s .f32 0x47435000#32 : FVec Ideal s .f32) = fun _ => ((50000 : ℝ) : EReal) :=
  funext fun _ => ofBits_50000

/-- The splat of 0x3727C5AC is the array of the positive real 10995116 / 2 ^ 40. -/
theorem constant_eps :
    (constant s .f32 0x3727C5AC#32 : FVec Ideal s .f32) = fun _ => (((10995116 : ℝ) / 2 ^ 40 : ℝ) : EReal) :=
  funext fun _ => ofBits_eps_val

/-- The splat of +0.0 is an array of reals. -/
theorem isReal_constant_zero : IsReal (constant s .f32 0x00000000#32 : FVec Ideal s .f32) :=
  fun _ => ⟨0, ofBits_zero⟩

/-- The splat of 0x47435000 is an array of reals. -/
theorem isReal_constant_50000 : IsReal (constant s .f32 0x47435000#32 : FVec Ideal s .f32) :=
  fun _ => ⟨50000, ofBits_50000⟩

/-- The splat of 0x47435000 is an array of positive reals. -/
theorem isPos_constant_50000 : IsPos (constant s .f32 0x47435000#32 : FVec Ideal s .f32) :=
  fun _ => ⟨50000, by norm_num, ofBits_50000⟩

/-- The splat of 0x3727C5AC is an array of positive reals. -/
theorem isPos_constant_eps : IsPos (constant s .f32 0x3727C5AC#32 : FVec Ideal s .f32) :=
  fun _ => ofBits_eps

/-- The splat of 0x3727C5AC is an array of reals. -/
theorem isReal_constant_eps : IsReal (constant s .f32 0x3727C5AC#32 : FVec Ideal s .f32) :=
  (isPos_constant_eps s).isReal

end Constants

/-- A positive real is greater than zero in the ideal comparison. -/
theorem cmp_ogt_zero_of_pos {p : ℝ} (hp : 0 < p) : Ideal.cmp .ogt (p : EReal) 0 = 1#1 := by
  have h : (0 : EReal) < (p : EReal) := by exact_mod_cast hp
  simp [Ideal.cmp, h]

/-! ## Regrouping a sum over rows by blocks

A sum over a * b rows is the sum, over a blocks, of the sums over the b rows of each block; row y of block t is
row b * t + y.  Nothing here is about the extended reals: any additive commutative monoid. -/

section Blocks
variable {M : Type} [AddCommMonoid M]

/-- Row y of block t is a row: b * t + y < a * b. -/
theorem block_lt {a b : ℕ} (t : Fin a) (y : Fin b) : b * t.val + y.val < a * b := by
  have h1 := t.isLt
  have h2 := y.isLt
  calc b * t.val + y.val < b * t.val + b := by omega
    _ = b * (t.val + 1) := by ring
    _ ≤ b * a := Nat.mul_le_mul_left _ h1
    _ = a * b := Nat.mul_comm _ _

/-- The sum over all a * b rows, regrouped by blocks, for ANY spelling g of "row y of block t" whose value is
    b * t + y. -/
theorem sum_blocks_of (a b : ℕ) (f : Fin (a * b) → M) (g : Fin a → Fin b → Fin (a * b))
    (hg : ∀ t y, (g t y).val = b * t.val + y.val) :
    ∑ t : Fin a, ∑ y : Fin b, f (g t y) = ∑ i : Fin (a * b), f i := by
  rw [← Equiv.sum_comp finProdFinEquiv f, Fintype.sum_prod_type]
  refine Finset.sum_congr rfl fun t _ => Finset.sum_congr rfl fun y _ => congrArg f (Fin.ext ?_)
  rw [hg, finProdFinEquiv_apply_val, Nat.add_comm]

/-- The same with the canonical spelling of the row. -/
theorem sum_blocks (a b : ℕ) (f : Fin (a * b) → M) :
    ∑ t : Fin a, ∑ y : Fin b, f ⟨b * t.val + y.val, block_lt t y⟩ = ∑ i : Fin (a * b), f i :=
  sum_blocks_of a b f (fun t y => ⟨b * t.val + y.val, block_lt t y⟩) fun _ _ => rfl

/-- One more block: the sum over the first n + 1 blocks is the sum over the first n plus block n. -/
theorem sum_range_step (B : ℕ → M) (n : ℕ) :
    ∑ t ∈ Finset.range (n + 1), B t = (∑ t ∈ Finset.range n, B t) + B n :=
  Finset.sum_range_succ B n

/-- A running total that starts at zero and adds block n at step n is, after n steps, the sum of the first n
    blocks (for the steps up to a bound a). -/
theorem running_total_eq_sum (W B : ℕ → M) (a : ℕ) (h0 : W 0 = 0) (hs : ∀ n, n < a → W (n + 1) = W n + B n) :
    ∀ n, n ≤ a → W n = ∑ t ∈ Finset.range n, B t := by
  intro n
  induction n with
  | zero => intro _; rw [h0, Finset.range_zero, Finset.sum_empty]
  | succ n ih => intro hn; rw [hs n hn, ih (Nat.le_of_succ_le hn), Finset.sum_range_succ]

/-- The block sums B 0, …, B (a - 1), each the sum over its block's rows, add up to the sum over all rows. -/
theorem sum_range_blocks_of (a b : ℕ) (f : Fin (a * b) → M) (g : Fin a → Fin b → Fin (a * b))
    (hg : ∀ t y, (g t y).val = b * t.val + y.val) (B : ℕ → M) (hB : ∀ t : Fin a, B t.val = ∑ y : Fin b, f (g t y)) :
    ∑ t ∈ Finset.range a, B t = ∑ i : Fin (a * b), f i := by
  rw [← Fin.sum_univ_eq_sum_range, ← sum_blocks_of a b f g hg]
  exact Finset.sum_congr rfl fun t _ => hB t

/-- Ten blocks of five thousand rows: the sum over the 50000 rows regrouped. -/
theorem sum_blocks_10_5000 (f : Fin 50000 → M) (g : Fin 10 → Fin 5000 → Fin 50000)
    (hg : ∀ t y, (g t y).val = 5000 * t.val + y.val) :
    ∑ t : Fin 10, ∑ y : Fin 5000, f (g t y) = ∑ i : Fin 50000, f i :=
  sum_blocks_of 10 5000 f g hg

/-- Ten block sums add up to the sum over the 50000 rows. -/
theorem sum_range_blocks_10_5000 (f : Fin 50000 → M) (g : Fin 10 → Fin 5000 → Fin 50000)
    (hg : ∀ t y, (g t y).val = 5000 * t.val + y.val) (B : ℕ → M)
    (hB : ∀ t : Fin 10, B t.val = ∑ y : Fin 5000, f (g t y)) :
    ∑ t ∈ Finset.range 10, B t = ∑ i : Fin 50000, f i :=
  sum_range_blocks_of 10 5000 f g hg B hB

end Blocks

end Cert.LibReal

end
-- ==== Proof.Finite.lean ====
/-
  What the precondition gives the proof: every entry of the query vector `Wq2` (a 64 × 1 array) is a real number.

  The precondition is a conjunction, over the float arguments in order, of "every entry has absolute value below +∞";
  the conjunct of `Wq2` is reached by dropping the conjuncts of the four later arguments, and an extended real
  whose absolute value `max x (-x)` is below `+∞` is neither infinity.
-/
import proofs.«181136_j28157805592958_1_alg».proof.Pre_finite_inputs
import proofs.«181136_j28157805592958_1_alg».proof.Proof.LibReal
import Idealize.ShloMosaic.PureOps.Ideal
import Idealize.ShloMosaic.Lib.ReduceAll
import Idealize.ShloMosaic.Lib.ValueIdx

noncomputable section

namespace Cert.Pre_finite_inputs.Finite

open Idealize.ShloMosaic Idealize.ShloMosaic.ValueIdx Cert.Pre_finite_inputs

instance : Subsingleton S_.Idx := ⟨fun a b => funext fun d => d.elim0⟩

/-- An extended real whose absolute value is below `+∞` is a real number. -/
theorem real_of_abs_lt (x : EReal) (h : Ideal.cmp .olt (max x (-x)) (Ideal.ofBits .f32 0x7F800000#32) = 1#1) :
    ∃ r : ℝ, x = (r : EReal) := by
  rw [Cert.LibReal.ofBits_inf] at h
  induction x using EReal.rec with
  | bot => simp [Ideal.cmp] at h
  | coe r => exact ⟨r, rfl⟩
  | top => simp [Ideal.cmp] at h

/-- Under the precondition every entry of the nineteenth argument is real. -/
theorem arg18_real [hP : Cert.Pre_finite_inputs.Facts] (a0 : FVec Ideal S30000x64 .f32) (a1 : FVec Ideal S20000x64 .f32) (a2 : FVec Ideal S20000x2048 .f32) (a3 : FVec Ideal S20000x768 .f32) (a4 : FVec Ideal S2048x64 .f32) (a5 : FVec Ideal S64 .f32) (a6 : FVec Ideal S768x64 .f32) (a7 : FVec Ideal S64 .f32) (a8 : FVec Ideal S64x64 .f32) (a9 : FVec Ideal S64 .f32) (a10 : FVec Ideal S64x64 .f32) (a11 : FVec Ideal S64 .f32) (a12 : FVec Ideal S64x64 .f32) (a13 : FVec Ideal S64 .f32) (a14 : FVec Ideal S64x64 .f32) (a15 : FVec Ideal S64 .f32) (a16 : FVec Ideal S64x64 .f32) (a17 : FVec Ideal S64 .f32) (a18 : FVec Ideal S64x1 .f32) (a19 : FVec Ideal S2000000 .f32) (a20 : FVec Ideal S200000 .f32) (a21 : FVec Ideal S200000 .f32) (a22 : FVec Ideal S1000000 .f32) (a23 : IVec S2000000 32) (a24 : IVec S2000000 32) (a25 : IVec S200000 32) (a26 : IVec S200000 32) (a27 : IVec S200000 32) (a28 : IVec S200000 32) (a29 : IVec S1000000 32) (a30 : IVec S1000000 32)
    (h : fn (F := Ideal) a0 a1 a2 a3 a4 a5 a6 a7 a8 a9 a10 a11 a12 a13 a14 a15 a16 a17 a18 a19 a20 a21 a22 a23 a24 a25 a26 a27 a28 a29 a30 = fun _ => 1#1) (i : S64x1.Idx) : ∃ r : ℝ, a18 i = (r : EReal) := by
  have h0 := congrFun h ix0
  dsimp only [fn, fn_part1, fn_part2, fn_part3, fn_part4, fn_part5, fn_part6] at h0
  have h1 := (IntOp.andi_eq_one.1 h0).1
  have h2 := (IntOp.andi_eq_one.1 h1).1
  have h3 := (IntOp.andi_eq_one.1 h2).1
  have h4 := (IntOp.andi_eq_one.1 h3).1
  have h5 := (IntOp.andi_eq_one.1 h4).2
  exact real_of_abs_lt _ (Host.reduce_andi_all _ _ _ _ _ h5 i)

end Cert.Pre_finite_inputs.Finite

end
-- ==== Proof.SoftmaxLaw.lean ====
/-
  The one law that joins the two programs.  For REAL logits `a, b` with `M = max a b`,

    e^(a - M) / (e^(a - M) + e^(b - M)) = 1 / (1 + e^(-(a - b)))      and
    e^(b - M) / (e^(a - M) + e^(b - M)) = 1 - 1 / (1 + e^(-(a - b))),

  since the ratio of the two exponentials is `e^(b - a)`.  On the extended reals this needs the logits finite
  (`∞ - ∞` is not `0`), and they are: a logit is a sum of 64 products `tanh (·) · Wq2(k)`, `tanh` takes real values
  at every extended real (`±1` at `±∞`), so the logit is real as soon as the 64 weights `Wq2(k)` are.  Hence the
  common rows of the two programs agree, and with them the two fused tables.
-/
import proofs.«181136_j28157805592958_1_alg».proof.Proof.Spec
import proofs.«181136_j28157805592958_1_alg».proof.Proof.LibReal

noncomputable section

namespace Cert.Spec

open Idealize.ShloMosaic Idealize.ShloMosaic.ValueIdx Cert.LibReal

/-- `tanh` is real-valued on all of the extended reals. -/
theorem tanh_real (x : EReal) : ∃ r : ℝ, Ideal.tanh x = (r : EReal) := by
  induction x using EReal.rec with
  | bot => exact ⟨-1, by rw [Ideal.tanh_bot, EReal.coe_neg, EReal.coe_one]⟩
  | coe r => exact ⟨Real.tanh r, Ideal.tanh_coe r⟩
  | top => exact ⟨1, by rw [Ideal.tanh_top, EReal.coe_one]⟩

/-- A logit is real when the 64 weights of the query vector are. -/
theorem att_real (x : Fin 64 → EReal) (Wq1 : Arr2 64 64) (bq1 : Fin 64 → EReal) (Wq2 : Arr2 64 1)
    (hW : ∀ k : Fin 64, ∃ r : ℝ, Wq2 (ix2 k (0 : Fin 1)) = (r : EReal)) :
    ∃ r : ℝ, att x Wq1 bq1 Wq2 = (r : EReal) :=
  real_sum _ _ fun k _ => real_mul (tanh_real _) (hW k)

/-- The ratio identity over the reals. -/
theorem soft_real (p q : ℝ) :
    Real.exp (p - max p q) / (Real.exp (p - max p q) + Real.exp (q - max p q)) = (1 + Real.exp (-(p - q)))⁻¹ := by
  have hv : Real.exp (q - max p q) = Real.exp (p - max p q) * Real.exp (-(p - q)) := by
    rw [← Real.exp_add]; congr 1; ring
  have hu : Real.exp (p - max p q) ≠ 0 := (Real.exp_pos _).ne'
  have h1 : (1 + Real.exp (-(p - q))) ≠ 0 := by positivity
  rw [hv]
  field_simp

/-- The first softmax weight is the kernel's weight, for real logits. -/
theorem softW0_coe (p q : ℝ) : softW0 (p : EReal) (q : EReal) = wK (p : EReal) (q : EReal) := by
  have hs : Real.exp (p - max p q) + Real.exp (q - max p q) ≠ 0 := by positivity
  unfold softW0 wK
  rw [coe_max', ← EReal.coe_sub, ← EReal.coe_sub, ← EReal.coe_sub, Ideal.exp_coe, Ideal.exp_coe, ← EReal.coe_add,
    div_coe_coe _ _ hs, Ideal.logistic_coe, soft_real]

/-- The second softmax weight is one minus the kernel's weight, for real logits. -/
theorem softW1_coe (p q : ℝ) : softW1 (p : EReal) (q : EReal) = 1 - wK (p : EReal) (q : EReal) := by
  have hs : Real.exp (p - max p q) + Real.exp (q - max p q) ≠ 0 := by positivity
  have h : Real.exp (q - max p q) / (Real.exp (p - max p q) + Real.exp (q - max p q)) = 1 - (1 + Real.exp (-(p - q)))⁻¹ := by
    rw [← soft_real]; field_simp; ring
  unfold softW1 wK
  rw [coe_max', ← EReal.coe_sub, ← EReal.coe_sub, ← EReal.coe_sub, Ideal.exp_coe, Ideal.exp_coe, ← EReal.coe_add,
    div_coe_coe _ _ hs, Ideal.logistic_coe, h, EReal.coe_sub, EReal.coe_one]

/-- The two blends agree on real logits. -/
theorem commonR_eq_commonK (x y : Fin 64 → EReal) {a b : EReal} (ha : ∃ r : ℝ, a = (r : EReal))
    (hb : ∃ r : ℝ, b = (r : EReal)) : commonR x y a b = commonK x y a b := by
  obtain ⟨p, rfl⟩ := ha
  obtain ⟨q, rfl⟩ := hb
  funext j
  unfold commonR commonK
  rw [softW0_coe, softW1_coe]

/-- The common rows of the two programs agree when the query vector's weights are real. -/
theorem cmR_eq_cmK (mmv mmt : Arr2 50000 64) (Wq1 : Arr2 64 64) (bq1 : Fin 64 → EReal) (Wq2 : Arr2 64 1)
    (hW : ∀ k : Fin 64, ∃ r : ℝ, Wq2 (ix2 k (0 : Fin 1)) = (r : EReal)) (r : Fin 50000) :
    cmR mmv mmt Wq1 bq1 Wq2 r = cmK mmv mmt Wq1 bq1 Wq2 r :=
  commonR_eq_commonK _ _ (att_real _ _ _ _ hW) (att_real _ _ _ _ hW)

/-- The two fused tables agree: the reference's, and the kernel's fed the two fixed rows its program computes. -/
theorem fuseR_eq_fuseK (content mmv mmt : Arr2 50000 64) (Wq1 : Arr2 64 64) (bq1 : Fin 64 → EReal) (Wq2 : Arr2 64 1)
    (Wpv : Arr2 64 64) (bpv : Fin 64 → EReal) (Wpt : Arr2 64 64) (bpt : Fin 64 → EReal)
    (hW : ∀ k : Fin 64, ∃ r : ℝ, Wq2 (ix2 k (0 : Fin 1)) = (r : EReal)) :
    fuseR content mmv mmt Wq1 bq1 Wq2 Wpv bpv Wpt bpt
      = fuseK content mmv mmt Wq1 bq1 Wq2 Wpv bpv Wpt bpt (d0K mmv mmt Wq1 bq1 Wq2) (d1K mmv mmt Wq1 bq1 Wq2) := by
  have e : cmR mmv mmt Wq1 bq1 Wq2 = cmK mmv mmt Wq1 bq1 Wq2 := funext (cmR_eq_cmK mmv mmt Wq1 bq1 Wq2 hW)
  unfold fuseR fuseK d0K d1K
  rw [e]

end Cert.Spec

end
-- ==== Proof.Bridge.lean ====
/-
  The fused table the kernel's program leaves equals the fused table of the reference.

  Both programs feed the same three tables into the fusion stage: the content table and the two modality tables are
  the same expressions of the arguments (the host graph propagation is shared), the gated item tables inside them
  being the common value `gate …` (the first kernel region on one side, the host expression on the other).  The second
  kernel region then computes `fuseK` of these tables with the two fixed rows its program prepared (`d0K`, `d1K`);
  the reference computes `fuseR`; and the two agree because the query vector's weights are real numbers under the
  precondition, so the two-way softmax of the logits is the logistic of their difference.
-/
import proofs.«181136_j28157805592958_1_alg».proof.Defs
import proofs.«181136_j28157805592958_1_alg».proof.Proof.Gen.Pre_finite_inputs
import proofs.«181136_j28157805592958_1_alg».proof.Proof.HostEdges
import proofs.«181136_j28157805592958_1_alg».proof.Proof.HostMid
import proofs.«181136_j28157805592958_1_alg».proof.Proof.Finite
import proofs.«181136_j28157805592958_1_alg».proof.Proof.SoftmaxLaw

set_option maxRecDepth 16384

noncomputable section

namespace Cert.Bridge

open Idealize.ShloMosaic Idealize.ShloMosaic.TcCoe Idealize.SL.Sem Idealize.ShloMosaic.StableHlo Idealize.ShloMosaic.ValueIdx
open Cert.KernelIdeal Cert.KernelIdeal.Gen Cert.KernelIdeal.Edges

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- The two memories agree on the 31 arguments at core `c`. -/
def Agree : Prop :=
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)

/-- What the first region leaves in its first output, for any entry contents. -/
def GateV : Prop := ∀ (V : (c : Dev nD) → (b : Ref sig .tc) → Buf (Elt Ideal) ((c : Thread nD τ).loc b)) (c : Dev nD),
  (dat0 (F := Ideal) V c).arrAt 11 cfg0.N = Cert.Spec.gate (V c main_arg2) (V c main_arg1) (V c main_arg4) (fun k => V c main_v0 (ix2 (0 : Fin 1) k)) (V c main_arg8) (fun k => V c main_v1 (ix2 (0 : Fin 1) k))
/-- What the first region leaves in its second output. -/
def GateT : Prop := ∀ (V : (c : Dev nD) → (b : Ref sig .tc) → Buf (Elt Ideal) ((c : Thread nD τ).loc b)) (c : Dev nD),
  (dat0 (F := Ideal) V c).arrAt 12 cfg0.N = Cert.Spec.gate (V c main_arg3) (V c main_arg1) (V c main_arg6) (fun k => V c main_v2 (ix2 (0 : Fin 1) k)) (V c main_arg10) (fun k => V c main_v3 (ix2 (0 : Fin 1) k))
/-- What the second region leaves in its output. -/
def FuseKer : Prop := ∀ (V : (c : Dev nD) → (b : Ref sig .tc) → Buf (Elt Ideal) ((c : Thread nD τ).loc b)) (c : Dev nD),
  (dat1 (F := Ideal) V c).arrAt 12 cfg1.N = Cert.Spec.fuseK (V c main_v35) (V c main_v75) (V c main_v89) (V c main_arg16) (fun k => V c main_v128 (ix2 (0 : Fin 1) k)) (V c main_arg18) (V c main_arg12) (fun k => V c main_v129 (ix2 (0 : Fin 1) k)) (V c main_arg14) (fun k => V c main_v130 (ix2 (0 : Fin 1) k)) (fun k => V c main_v131 (ix2 (0 : Fin 1) k)) (fun k => V c main_v132 (ix2 (0 : Fin 1) k))
/-- The two fixed rows the kernel's program prepares on the host. -/
def FixedRow0 : Prop := ∀ (W : Valuation τ sig (Elt Ideal)) (k : Fin 64),
  StableHlo.after (hostOps1 (F := Ideal)) W (Proc.devRef .tc main_v131) (ix2 (0 : Fin 1) k) = Cert.Spec.d0K (StableHlo.after hostOps1 W (Proc.devRef .tc main_v75)) (StableHlo.after hostOps1 W (Proc.devRef .tc main_v89)) (W (Proc.devRef .tc main_arg16)) (fun k => W (Proc.devRef .tc main_arg17) (ix1 k)) (W (Proc.devRef .tc main_arg18)) k
def FixedRow1 : Prop := ∀ (W : Valuation τ sig (Elt Ideal)) (k : Fin 64),
  StableHlo.after (hostOps1 (F := Ideal)) W (Proc.devRef .tc main_v132) (ix2 (0 : Fin 1) k) = Cert.Spec.d1K (StableHlo.after hostOps1 W (Proc.devRef .tc main_v75)) (StableHlo.after hostOps1 W (Proc.devRef .tc main_v89)) (W (Proc.devRef .tc main_arg16)) (fun k => W (Proc.devRef .tc main_arg17) (ix1 k)) (W (Proc.devRef .tc main_arg18)) k
/-- The reference's fused table as the specification's. -/
def FuseRefer : Prop := ∀ V0 : Valuation Cert.ReferenceIdeal.τ Cert.ReferenceIdeal.sig (Elt Ideal),
  Cert.ReferenceIdeal.Value.res_main_v182 V0 = Cert.Spec.fuseR (Cert.ReferenceIdeal.Value.res_main_v60 V0) (Cert.ReferenceIdeal.Value.res_main_v100 V0) (Cert.ReferenceIdeal.Value.res_main_v114 V0) (V0 (Proc.devRef .tc Cert.ReferenceIdeal.main_arg16)) (fun k => V0 (Proc.devRef .tc Cert.ReferenceIdeal.main_arg17) (ix1 k)) (V0 (Proc.devRef .tc Cert.ReferenceIdeal.main_arg18)) (V0 (Proc.devRef .tc Cert.ReferenceIdeal.main_arg12)) (fun k => V0 (Proc.devRef .tc Cert.ReferenceIdeal.main_arg13) (ix1 k)) (V0 (Proc.devRef .tc Cert.ReferenceIdeal.main_arg14)) (fun k => V0 (Proc.devRef .tc Cert.ReferenceIdeal.main_arg15) (ix1 k))

theorem fused_eq (hGv : GateV) (hGt : GateT) (hFk : FuseKer) (hD0 : FixedRow0) (hD1 : FixedRow1) (hFr : FuseRefer)
    (hpre : Cert.Pre_KernelIdeal m) (hag : Agree m m' c) :
    W4 m ρ c (Proc.devRef .tc main_v133) = Cert.ReferenceIdeal.Value.res_main_v182 (launchContents m' c) := by
  have a0 : launchContents m' c (Proc.devRef .tc Cert.ReferenceIdeal.main_arg0) = W2 m ρ c (Proc.devRef .tc main_arg0) := (hag.1).trans (W2_arg0 m ρ c).symm
  have a1 : launchContents m' c (Proc.devRef .tc Cert.ReferenceIdeal.main_arg1) = W2 m ρ c (Proc.devRef .tc main_arg1) := (hag.2.1).trans (W2_arg1 m ρ c).symm
  have a2 : launchContents m' c (Proc.devRef .tc Cert.ReferenceIdeal.main_arg2) = W2 m ρ c (Proc.devRef .tc main_arg2) := (hag.2.2.1).trans (W2_arg2 m ρ c).symm
  have a3 : launchContents m' c (Proc.devRef .tc Cert.ReferenceIdeal.main_arg3) = W2 m ρ c (Proc.devRef .tc main_arg3) := (hag.2.2.2.1).trans (W2_arg3 m ρ c).symm
  have a4 : launchContents m' c (Proc.devRef .tc Cert.ReferenceIdeal.main_arg4) = W2 m ρ c (Proc.devRef .tc main_arg4) := (hag.2.2.2.2.1).trans (W2_arg4 m ρ c).symm
  have a5 : launchContents m' c (Proc.devRef .tc Cert.ReferenceIdeal.main_arg5) = W2 m ρ c (Proc.devRef .tc main_arg5) := (hag.2.2.2.2.2.1).trans (W2_arg5 m ρ c).symm
  have a6 : launchContents m' c (Proc.devRef .tc Cert.ReferenceIdeal.main_arg6) = W2 m ρ c (Proc.devRef .tc main_arg6) := (hag.2.2.2.2.2.2.1).trans (W2_arg6 m ρ c).symm
  have a7 : launchContents m' c (Proc.devRef .tc Cert.ReferenceIdeal.main_arg7) = W2 m ρ c (Proc.devRef .tc main_arg7) := (hag.2.2.2.2.2.2.2.1).trans (W2_arg7 m ρ c).symm
  have a8 : launchContents m' c (Proc.devRef .tc Cert.ReferenceIdeal.main_arg8) = W2 m ρ c (Proc.devRef .tc main_arg8) := (hag.2.2.2.2.2.2.2.2.1).trans (W2_arg8 m ρ c).symm
  have a9 : launchContents m' c (Proc.devRef .tc Cert.ReferenceIdeal.main_arg9) = W2 m ρ c (Proc.devRef .tc main_arg9) := (hag.2.2.2.2.2.2.2.2.2.1).trans (W2_arg9 m ρ c).symm
  have a10 : launchContents m' c (Proc.devRef .tc Cert.ReferenceIdeal.main_arg10) = W2 m ρ c (Proc.devRef .tc main_arg10) := (hag.2.2.2.2.2.2.2.2.2.2.1).trans (W2_arg10 m ρ c).symm
  have a11 : launchContents m' c (Proc.devRef .tc Cert.ReferenceIdeal.main_arg11) = W2 m ρ c (Proc.devRef .tc main_arg11) := (hag.2.2.2.2.2.2.2.2.2.2.2.1).trans (W2_arg11 m ρ c).symm
  have a12 : launchContents m' c (Proc.devRef .tc Cert.ReferenceIdeal.main_arg12) = W2 m ρ c (Proc.devRef .tc main_arg12) := (hag.2.2.2.2.2.2.2.2.2.2.2.2.1).trans (W2_arg12 m ρ c).symm
  have a13 : launchContents m' c (Proc.devRef .tc Cert.ReferenceIdeal.main_arg13) = W2 m ρ c (Proc.devRef .tc main_arg13) := (hag.2.2.2.2.2.2.2.2.2.2.2.2.2.1).trans (W2_arg13 m ρ c).symm
  have a14 : launchContents m' c (Proc.devRef .tc Cert.ReferenceIdeal.main_arg14) = W2 m ρ c (Proc.devRef .tc main_arg14) := (hag.2.2.2.2.2.2.2.2.2.2.2.2.2.2.1).trans (W2_arg14 m ρ c).symm
  have a15 : launchContents m' c (Proc.devRef .tc Cert.ReferenceIdeal.main_arg15) = W2 m ρ c (Proc.devRef .tc main_arg15) := (hag.2.2.2.2.2.2.2.2.2.2.2.2.2.2.2.1).trans (W2_arg15 m ρ c).symm
  have a16 : launchContents m' c (Proc.devRef .tc Cert.ReferenceIdeal.main_arg16) = W2 m ρ c (Proc.devRef .tc main_arg16) := (hag.2.2.2.2.2.2.2.2.2.2.2.2.2.2.2.2.1).trans (W2_arg16 m ρ c).symm
  have a17 : launchContents m' c (Proc.devRef .tc Cert.ReferenceIdeal.main_arg17) = W2 m ρ c (Proc.devRef .tc main_arg17) := (hag.2.2.2.2.2.2.2.2.2.2.2.2.2.2.2.2.2.1).trans (W2_arg17 m ρ c).symm
  have a18 : launchContents m' c (Proc.devRef .tc Cert.ReferenceIdeal.main_arg18) = W2 m ρ c (Proc.devRef .tc main_arg18) := (hag.2.2.2.2.2.2.2.2.2.2.2.2.2.2.2.2.2.2.1).trans (W2_arg18 m ρ c).symm
  have a19 : launchContents m' c (Proc.devRef .tc Cert.ReferenceIdeal.main_arg19) = W2 m ρ c (Proc.devRef .tc main_arg19) := (hag.2.2.2.2.2.2.2.2.2.2.2.2.2.2.2.2.2.2.2.1).trans (W2_arg19 m ρ c).symm
  have a20 : launchContents m' c (Proc.devRef .tc Cert.ReferenceIdeal.main_arg20) = W2 m ρ c (Proc.devRef .tc main_arg20) := (hag.2.2.2.2.2.2.2.2.2.2.2.2.2.2.2.2.2.2.2.2.1).trans (W2_arg20 m ρ c).symm
  have a21 : launchContents m' c (Proc.devRef .tc Cert.ReferenceIdeal.main_arg21) = W2 m ρ c (Proc.devRef .tc main_arg21) := (hag.2.2.2.2.2.2.2.2.2.2.2.2.2.2.2.2.2.2.2.2.2.1).trans (W2_arg21 m ρ c).symm
  have a22 : launchContents m' c (Proc.devRef .tc Cert.ReferenceIdeal.main_arg22) = W2 m ρ c (Proc.devRef .tc main_arg22) := (hag.2.2.2.2.2.2.2.2.2.2.2.2.2.2.2.2.2.2.2.2.2.2.1).trans (W2_arg22 m ρ c).symm
  have a23 : launchContents m' c (Proc.devRef .tc Cert.ReferenceIdeal.main_arg23) = W2 m ρ c (Proc.devRef .tc main_arg23) := (hag.2.2.2.2.2.2.2.2.2.2.2.2.2.2.2.2.2.2.2.2.2.2.2.1).trans (W2_arg23 m ρ c).symm
  have a24 : launchContents m' c (Proc.devRef .tc Cert.ReferenceIdeal.main_arg24) = W2 m ρ c (Proc.devRef .tc main_arg24) := (hag.2.2.2.2.2.2.2.2.2.2.2.2.2.2.2.2.2.2.2.2.2.2.2.2.1).trans (W2_arg24 m ρ c).symm
  have a25 : launchContents m' c (Proc.devRef .tc Cert.ReferenceIdeal.main_arg25) = W2 m ρ c (Proc.devRef .tc main_arg25) := (hag.2.2.2.2.2.2.2.2.2.2.2.2.2.2.2.2.2.2.2.2.2.2.2.2.2.1).trans (W2_arg25 m ρ c).symm
  have a26 : launchContents m' c (Proc.devRef .tc Cert.ReferenceIdeal.main_arg26) = W2 m ρ c (Proc.devRef .tc main_arg26) := (hag.2.2.2.2.2.2.2.2.2.2.2.2.2.2.2.2.2.2.2.2.2.2.2.2.2.2.1).trans (W2_arg26 m ρ c).symm
  have a27 : launchContents m' c (Proc.devRef .tc Cert.ReferenceIdeal.main_arg27) = W2 m ρ c (Proc.devRef .tc main_arg27) := (hag.2.2.2.2.2.2.2.2.2.2.2.2.2.2.2.2.2.2.2.2.2.2.2.2.2.2.2.1).trans (W2_arg27 m ρ c).symm
  have a28 : launchContents m' c (Proc.devRef .tc Cert.ReferenceIdeal.main_arg28) = W2 m ρ c (Proc.devRef .tc main_arg28) := (hag.2.2.2.2.2.2.2.2.2.2.2.2.2.2.2.2.2.2.2.2.2.2.2.2.2.2.2.2.1).trans (W2_arg28 m ρ c).symm
  have a29 : launchContents m' c (Proc.devRef .tc Cert.ReferenceIdeal.main_arg29) = W2 m ρ c (Proc.devRef .tc main_arg29) := (hag.2.2.2.2.2.2.2.2.2.2.2.2.2.2.2.2.2.2.2.2.2.2.2.2.2.2.2.2.2.1).trans (W2_arg29 m ρ c).symm
  have a30 : launchContents m' c (Proc.devRef .tc Cert.ReferenceIdeal.main_arg30) = W2 m ρ c (Proc.devRef .tc main_arg30) := (hag.2.2.2.2.2.2.2.2.2.2.2.2.2.2.2.2.2.2.2.2.2.2.2.2.2.2.2.2.2.2).trans (W2_arg30 m ρ c).symm
  -- the query vector's weights are real
  have hW : ∀ k : Fin 64, ∃ r : ℝ, (m ((c : Thread Cert.KernelIdeal.nD Cert.KernelIdeal.τ).loc Cert.KernelIdeal.main_arg18)) (ix2 k (0 : Fin 1)) = (r : EReal) := fun k =>
    Cert.Pre_finite_inputs.Finite.arg18_real _ _ _ _ _ _ _ _ _ _ _ _ _ _ _ _ _ _ _ _ _ _ _ _ _ _ _ _ _ _ _ (hpre c) (ix2 k (0 : Fin 1))
  -- the gated tables at the first region's exit
  have gv : W2 m ρ c (Proc.devRef .tc main_v4_0) = Cert.Spec.gate (W2 m ρ c (Proc.devRef .tc main_arg2)) (W2 m ρ c (Proc.devRef .tc main_arg1)) (W2 m ρ c (Proc.devRef .tc main_arg4)) (fun k => W2 m ρ c (Proc.devRef .tc main_arg5) (ix1 k)) (W2 m ρ c (Proc.devRef .tc main_arg8)) (fun k => W2 m ρ c (Proc.devRef .tc main_arg9) (ix1 k)) := by
    refine (W2_arr m ρ c 11).trans ((hGv (V1 m ρ) c).trans ?_)
    rw [W2_arg2, W2_arg1, W2_arg4, W2_arg5, W2_arg8, W2_arg9]
    show Cert.Spec.gate (W1 m ρ c (Proc.devRef .tc main_arg2)) (W1 m ρ c (Proc.devRef .tc main_arg1)) (W1 m ρ c (Proc.devRef .tc main_arg4)) (fun k => W1 m ρ c (Proc.devRef .tc main_v0) (ix2 (0 : Fin 1) k)) (W1 m ρ c (Proc.devRef .tc main_arg8)) (fun k => W1 m ρ c (Proc.devRef .tc main_v1) (ix2 (0 : Fin 1) k)) = _
    rw [W1_arg2, W1_arg1, W1_arg4, W1_arg8, W1_v0, W1_v1]
    simp only [row_entry]
  have gt : W2 m ρ c (Proc.devRef .tc main_v4_1) = Cert.Spec.gate (W2 m ρ c (Proc.devRef .tc main_arg3)) (W2 m ρ c (Proc.devRef .tc main_arg1)) (W2 m ρ c (Proc.devRef .tc main_arg6)) (fun k => W2 m ρ c (Proc.devRef .tc main_arg7) (ix1 k)) (W2 m ρ c (Proc.devRef .tc main_arg10)) (fun k => W2 m ρ c (Proc.devRef .tc main_arg11) (ix1 k)) := by
    refine (W2_arr m ρ c 12).trans ((hGt (V1 m ρ) c).trans ?_)
    rw [W2_arg3, W2_arg1, W2_arg6, W2_arg7, W2_arg10, W2_arg11]
    show Cert.Spec.gate (W1 m ρ c (Proc.devRef .tc main_arg3)) (W1 m ρ c (Proc.devRef .tc main_arg1)) (W1 m ρ c (Proc.devRef .tc main_arg6)) (fun k => W1 m ρ c (Proc.devRef .tc main_v2) (ix2 (0 : Fin 1) k)) (W1 m ρ c (Proc.devRef .tc main_arg10)) (fun k => W1 m ρ c (Proc.devRef .tc main_v3) (ix2 (0 : Fin 1) k)) = _
    rw [W1_arg3, W1_arg1, W1_arg6, W1_arg10, W1_v2, W1_v3]
    simp only [row_entry]
  -- the three tables the fusion stage reads
  have eC : W3 m ρ c (Proc.devRef .tc main_v35) = Cert.ReferenceIdeal.Value.res_main_v60 (launchContents m' c) :=
    Cert.HostMid.content_eq (W2 m ρ c) (launchContents m' c) a0 a1 a19 a23 a24
  have eX : W3 m ρ c (Proc.devRef .tc main_v75) = Cert.ReferenceIdeal.Value.res_main_v100 (launchContents m' c) :=
    Cert.HostMid.mmv_eq (W2 m ρ c) (launchContents m' c) a1 a2 a4 a5 a8 a9 a20 a22 a25 a26 a29 a30 gv
  have eY : W3 m ρ c (Proc.devRef .tc main_v89) = Cert.ReferenceIdeal.Value.res_main_v114 (launchContents m' c) :=
    Cert.HostMid.mmt_eq (W2 m ρ c) (launchContents m' c) a1 a3 a6 a7 a10 a11 a21 a22 a27 a28 a29 a30 gt
  -- the kernel's fused table
  refine (W4_arr m ρ c 12).trans ((hFk (V3 m ρ) c).trans ?_)
  show Cert.Spec.fuseK (W3 m ρ c (Proc.devRef .tc main_v35)) (W3 m ρ c (Proc.devRef .tc main_v75)) (W3 m ρ c (Proc.devRef .tc main_v89)) (W3 m ρ c (Proc.devRef .tc main_arg16)) (fun k => W3 m ρ c (Proc.devRef .tc main_v128) (ix2 (0 : Fin 1) k)) (W3 m ρ c (Proc.devRef .tc main_arg18)) (W3 m ρ c (Proc.devRef .tc main_arg12)) (fun k => W3 m ρ c (Proc.devRef .tc main_v129) (ix2 (0 : Fin 1) k)) (W3 m ρ c (Proc.devRef .tc main_arg14)) (fun k => W3 m ρ c (Proc.devRef .tc main_v130) (ix2 (0 : Fin 1) k)) (fun k => W3 m ρ c (Proc.devRef .tc main_v131) (ix2 (0 : Fin 1) k)) (fun k => W3 m ρ c (Proc.devRef .tc main_v132) (ix2 (0 : Fin 1) k)) = _
  have e0 : (fun k => W3 m ρ c (Proc.devRef .tc main_v131) (ix2 (0 : Fin 1) k)) = Cert.Spec.d0K (W3 m ρ c (Proc.devRef .tc main_v75)) (W3 m ρ c (Proc.devRef .tc main_v89)) (W2 m ρ c (Proc.devRef .tc main_arg16)) (fun k => W2 m ρ c (Proc.devRef .tc main_arg17) (ix1 k)) (W2 m ρ c (Proc.devRef .tc main_arg18)) :=
    funext fun k => hD0 (W2 m ρ c) k
  have e1 : (fun k => W3 m ρ c (Proc.devRef .tc main_v132) (ix2 (0 : Fin 1) k)) = Cert.Spec.d1K (W3 m ρ c (Proc.devRef .tc main_v75)) (W3 m ρ c (Proc.devRef .tc main_v89)) (W2 m ρ c (Proc.devRef .tc main_arg16)) (fun k => W2 m ρ c (Proc.devRef .tc main_arg17) (ix1 k)) (W2 m ρ c (Proc.devRef .tc main_arg18)) :=
    funext fun k => hD1 (W2 m ρ c) k
  rw [e0, e1, eC, eX, eY, W3_arg16, W3_arg18, W3_arg12, W3_arg14, W3_v128, W3_v129, W3_v130, W2_arg16, W2_arg17, W2_arg18]
  simp only [row_entry]
  rw [hFr, a16, a17, a18, a12, a13, a14, a15, W2_arg16, W2_arg17, W2_arg18, W2_arg12, W2_arg13, W2_arg14, W2_arg15]
  exact (Cert.Spec.fuseR_eq_fuseK _ _ _ _ _ _ _ _ _ _ hW).symm

end Cert.Bridge

end
-- ==== Proof.Assemble.lean ====
/-
  The five claims.  The two kernel programs' frames are the generated ones; the reference's frame is its run with the
  results dropped; nothing was rewritten when the kernel was idealized, so there is nothing to preserve; and the two
  idealized programs end with equal results: each result is a row range of the fused table, and the two fused tables
  are equal.
-/
import proofs.«181136_j28157805592958_1_alg».proof.Defs
import proofs.«181136_j28157805592958_1_alg».proof.Proof.Gen.Kernel.Frame
import proofs.«181136_j28157805592958_1_alg».proof.Proof.Gen.KernelIdeal.Frame
import proofs.«181136_j28157805592958_1_alg».proof.Proof.Gen.ReferenceIdeal.Run
import proofs.«181136_j28157805592958_1_alg».proof.Proof.Gen.Pre_finite_inputs
import proofs.«181136_j28157805592958_1_alg».proof.Proof.KernelRun
import proofs.«181136_j28157805592958_1_alg».proof.Proof.Bridge

set_option maxRecDepth 16384

noncomputable section

namespace Cert.Proof.Claims

open Idealize.ShloMosaic Idealize.ShloMosaic.TcCoe Idealize.SL.Sem Idealize.ShloMosaic.StableHlo
open Cert.Bridge

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Equal results, from the facts about the two kernel regions, the two fixed rows and the reference's fusion. -/
theorem algebraic_of (hGv : GateV) (hGt : GateT) (hFk : FuseKer) (hD0 : FixedRow0) (hD1 : FixedRow1) (hFr : FuseRefer) :
    Cert.algebraic_KernelIdeal_ReferenceIdeal := by
  intro m ρ m' ρ' hpre hagree
  refine ⟨fun c => Cert.KernelIdeal.Gen.W5 m ρ c (Proc.devRef .tc Cert.KernelIdeal.main_v134),
    fun c => Cert.KernelIdeal.Gen.W5 m ρ c (Proc.devRef .tc Cert.KernelIdeal.main_v135),
    Cert.KernelIdeal.RunValue.run_named (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine Eq.symm ((Cert.KernelIdeal.Edges.W5_v134 m ρ c).trans ?_)
    rw [fused_eq m ρ m' c hGv hGt hFk hD0 hD1 hFr hpre (hagree c)]
  · refine Eq.symm ((Cert.KernelIdeal.Edges.W5_v135 m ρ c).trans ?_)
    rw [fused_eq m ρ m' c hGv hGt hFk hD0 hD1 hFr hpre (hagree c)]

end Cert.Proof.Claims

end
-- ==== Proof.GateKernel.lean ====
/-
  The gated item tables as the first kernel leaves them, index by index.

  At every grid point the kernel loads a block of 1000 rows of the features and of `Gi`, and the whole weight
  and bias arrays; it stores `Gi_block * σ ((feat_block · Wp + bp) · Wg + bg)` (the products taken at operands
  narrowed to bf16, which changes nothing at the extended reals; each bias a `1 × 64` row broadcast down the rows).
  Point `t` writes rows `1000 t … 1000 t + 999` of the output; the twenty blocks tile the `20000` rows, so the array
  ends holding the specification's `gate` of the arrays as the region finds them.
-/
import proofs.«181136_j28157805592958_1_alg».proof.Proof.Gen.KernelIdeal.Frame
import proofs.«181136_j28157805592958_1_alg».proof.Proof.Spec
import proofs.«181136_j28157805592958_1_alg».proof.Proof.LibVec
import Idealize.ShloMosaic.Lib.ValueIdx
import Idealize.ShloMosaic.Lib.ValueLayout
import Idealize.ShloMosaic.Lib.Pipeline.Value

noncomputable section

namespace Cert.KernelIdeal.GateValue

open Cert.KernelIdeal Cert.KernelIdeal.Gen Idealize.ShloMosaic Idealize.ShloMosaic.TcCoe Idealize.SL.Sem
open Idealize.ShloMosaic.ValueIdx
open Idealize.ShloMosaic.Pipeline (Dat)

/-! ## The stored values at an index -/

/-- `tpu.logistic` reads entry by entry. -/
theorem logistic_apply {s : Shape} {φ : FTy} (x : FVec Ideal s φ) (i : s.Idx) : logistic x i = Ideal.logistic (x i) := rfl

/-- A `1 × 64` bias row cast to its own shape and broadcast down 1000 rows reads, at `(p, q)`, the row at `q`. -/
theorem biasRow_apply (b : Vec Ideal S1x64 .f32) (p : Fin 1000) (q : Fin 64) :
    broadcastTo S1000x64 (shapeCast S1x64 b shapeCasts_S1x64_S1x64) broadcasts_S1x64_S1000x64 (ix2 p q) = b (ix2 (0 : Fin 1) q) := by
  rw [shapeCast_self, broadcastTo_1b_ab_apply]

/-- The first-modality store: entry `(p, q)` is `Gi (p, q) · σ ((x(p, ·) · Wp + bp) · Wg + bg) (q)`. -/
theorem pay_v_apply (v0 : Vec Ideal S1000x2048 .f32) (v2 : Vec Ideal S2048x64 .f32) (v5 : Vec Ideal S1x64 .f32)
    (v9 : Vec Ideal S64x64 .f32) (v13 : Vec Ideal S1x64 .f32) (v18 : Vec Ideal S1000x64 .f32) (p : Fin 1000) (q : Fin 64) :
    k0_pay2 v0 v2 v5 v9 v13 v18 (ix2 p q)
      = v18 (ix2 p q) * Ideal.logistic (Cert.Spec.affine (Cert.Spec.affine (fun l => v0 (ix2 p l)) v2 (fun k => v5 (ix2 (0 : Fin 1) k)))
          v9 (fun k => v13 (ix2 (0 : Fin 1) k)) q) := by
  unfold k0_pay2
  rw [mulf_apply, logistic_apply, addf_apply, biasRow_apply,
    Cert.LibVec.matmul_rowcol dot_S1000x64_S64x64_S1000x64_1_0_0_1_n_n rfl rfl (fun _ _ => rfl) (fun _ _ => rfl) (fun _ _ => rfl)
      (fun _ _ => rfl)]
  have inner : ∀ k : Fin 64,
      (truncf .bf16 (addf (matmul dot_S1000x2048_S2048x64_S1000x64_1_0_0_1_n_n none (truncf .bf16 v0 bitsLt_bf16_f32)
          (truncf .bf16 v2 bitsLt_bf16_f32) (constant S1000x64 .f32 0x00000000#32))
        (broadcastTo S1000x64 (shapeCast S1x64 v5 shapeCasts_S1x64_S1x64) broadcasts_S1x64_S1000x64)) bitsLt_bf16_f32 : FVec Ideal S1000x64 .bf16) (ix2 p k)
        = Cert.Spec.affine (fun l => v0 (ix2 p l)) v2 (fun k => v5 (ix2 (0 : Fin 1) k)) k := fun k => by
    rw [truncf_apply, addf_apply, biasRow_apply,
      Cert.LibVec.matmul_rowcol dot_S1000x2048_S2048x64_S1000x64_1_0_0_1_n_n rfl rfl (fun _ _ => rfl) (fun _ _ => rfl) (fun _ _ => rfl)
        (fun _ _ => rfl)]
    rfl
  simp only [inner]
  rfl

/-- The second-modality store, likewise. -/
theorem pay_t_apply (v21 : Vec Ideal S1000x768 .f32) (v23 : Vec Ideal S768x64 .f32) (v26 : Vec Ideal S1x64 .f32)
    (v30 : Vec Ideal S64x64 .f32) (v34 : Vec Ideal S1x64 .f32) (v39 : Vec Ideal S1000x64 .f32) (p : Fin 1000) (q : Fin 64) :
    k0_pay1 (k0_pay3 v30) (k0_pay4 v21 v23 v26) v34 v39 (ix2 p q)
      = v39 (ix2 p q) * Ideal.logistic (Cert.Spec.affine (Cert.Spec.affine (fun l => v21 (ix2 p l)) v23 (fun k => v26 (ix2 (0 : Fin 1) k)))
          v30 (fun k => v34 (ix2 (0 : Fin 1) k)) q) := by
  unfold k0_pay1
  rw [mulf_apply, logistic_apply, addf_apply, biasRow_apply,
    Cert.LibVec.matmul_rowcol dot_S1000x64_S64x64_S1000x64_1_0_0_1_n_n rfl rfl (fun _ _ => rfl) (fun _ _ => rfl) (fun _ _ => rfl)
      (fun _ _ => rfl)]
  have inner : ∀ k : Fin 64, k0_pay4 v21 v23 v26 (ix2 p k)
        = Cert.Spec.affine (fun l => v21 (ix2 p l)) v23 (fun k => v26 (ix2 (0 : Fin 1) k)) k := fun k => by
    unfold k0_pay4
    rw [truncf_apply, addf_apply, biasRow_apply,
      Cert.LibVec.matmul_rowcol dot_S1000x768_S768x64_S1000x64_1_0_0_1_n_n rfl rfl (fun _ _ => rfl) (fun _ _ => rfl) (fun _ _ => rfl)
        (fun _ _ => rfl)]
    rfl
  simp only [inner]
  rfl

/-! ## The windows' blocks as parts of the arrays -/

variable (V : (c : Dev nD) → (b : Ref sig .tc) → Buf (Elt Ideal) ((c : Thread nD τ).loc b))

/-- The index maps over the grid: the row-blocked windows (features, `Gi`, the two outputs) sit at block `(t, 0)`, the
    weight and bias windows at block `(0, 0)`. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = t.val ∧ win0_11.index t (1 : Fin 2) = 0)
    ∧ (win0_12.index t (0 : Fin 2) = t.val ∧ win0_12.index t (1 : Fin 2) = 0) :=
  (by decide +kernel : ∀ t : Fin grid0.N, _)

/-- The first-modality feature block at point `t`: row `p` of the block is row `1000 t + p` of the array. -/
theorem blk_featv (c : Dev nD) (t : Fin cfg0.N) (p : Fin 1000) (l : Fin 2048) (r : Fin 20000) (hr : r.val = 1000 * t.val + p.val) :
    (iblk0 V c 0 t : Vec Ideal S1000x2048 .f32) (ix2 p l) = (V c main_arg2 : S20000x2048.Idx → EReal) (ix2 r l) := by
  obtain ⟨e0, e1⟩ := (idx_facts t).1
  unfold iblk0
  rw [View.read_apply]
  show V c main_arg2 _ = V c main_arg2 _
  congr 1
  funext a
  apply Fin.ext
  match a with
  | ⟨0, _⟩ => show win0_0.index t (0 : Fin 2) * 1000 + 1 * p.val = r.val; rw [e0, hr]; omega
  | ⟨1, _⟩ => show win0_0.index t (1 : Fin 2) * 2048 + 1 * l.val = l.val; rw [e1]; omega

/-- The second-modality feature block, likewise. -/
theorem blk_featt (c : Dev nD) (t : Fin cfg0.N) (p : Fin 1000) (l : Fin 768) (r : Fin 20000) (hr : r.val = 1000 * t.val + p.val) :
    (iblk0 V c 1 t : Vec Ideal S1000x768 .f32) (ix2 p l) = (V c main_arg3 : S20000x768.Idx → EReal) (ix2 r l) := by
  obtain ⟨e0, e1⟩ := (idx_facts t).2.1
  unfold iblk0
  rw [View.read_apply]
  show V c main_arg3 _ = V c main_arg3 _
  congr 1
  funext a
  apply Fin.ext
  match a with
  | ⟨0, _⟩ => show win0_1.index t (0 : Fin 2) * 1000 + 1 * p.val = r.val; rw [e0, hr]; omega
  | ⟨1, _⟩ => show win0_1.index t (1 : Fin 2) * 768 + 1 * l.val = l.val; rw [e1]; omega

/-- The block of `Gi`, likewise. -/
theorem blk_gi (c : Dev nD) (t : Fin cfg0.N) (p : Fin 1000) (l : Fin 64) (r : Fin 20000) (hr : r.val = 1000 * t.val + p.val) :
    (iblk0 V c 2 t : Vec Ideal S1000x64 .f32) (ix2 p l) = (V c main_arg1 : S20000x64.Idx → EReal) (ix2 r l) := by
  obtain ⟨e0, e1⟩ := (idx_facts t).2.2.1
  unfold iblk0
  rw [View.read_apply]
  show V c main_arg1 _ = V c main_arg1 _
  congr 1
  funext a
  apply Fin.ext
  match a with
  | ⟨0, _⟩ => show win0_2.index t (0 : Fin 2) * 1000 + 1 * p.val = r.val; rw [e0, hr]; omega
  | ⟨1, _⟩ => show win0_2.index t (1 : Fin 2) * 64 + 1 * l.val = l.val; rw [e1]; omega

/-- Each weight or bias window's block, at every point, is its whole array. -/
theorem blk_wpv (c : Dev nD) (t : Fin cfg0.N) : (iblk0 V c 3 t : Vec Ideal S2048x64 .f32) = (V c main_arg4 : S2048x64.Idx → EReal) := by
  obtain ⟨e0, e1⟩ := (idx_facts t).2.2.2.1
  funext j
  unfold iblk0
  rw [View.read_apply]
  show V c main_arg4 _ = V c main_arg4 _
  congr 1
  funext a
  apply Fin.ext
  match a with
  | ⟨0, _⟩ => show win0_3.index t (0 : Fin 2) * 2048 + 1 * (j 0).val = (j 0).val; rw [e0]; omega
  | ⟨1, _⟩ => show win0_3.index t (1 : Fin 2) * 64 + 1 * (j 1).val = (j 1).val; rw [e1]; omega

theorem blk_bpv (c : Dev nD) (t : Fin cfg0.N) : (iblk0 V c 4 t : Vec Ideal S1x64 .f32) = (V c main_v0 : S1x64.Idx → EReal) := by
  obtain ⟨e0, e1⟩ := (idx_facts t).2.2.2.2.1
  funext j
  unfold iblk0
  rw [View.read_apply]
  show V c main_v0 _ = V c main_v0 _
  congr 1
  funext a
  apply Fin.ext
  match a with
  | ⟨0, _⟩ => show win0_4.index t (0 : Fin 2) * 1 + 1 * (j 0).val = (j 0).val; rw [e0]; omega
  | ⟨1, _⟩ => show win0_4.index t (1 : Fin 2) * 64 + 1 * (j 1).val = (j 1).val; rw [e1]; omega

theorem blk_wgv (c : Dev nD) (t : Fin cfg0.N) : (iblk0 V c 5 t : Vec Ideal S64x64 .f32) = (V c main_arg8 : S64x64.Idx → EReal) := by
  obtain ⟨e0, e1⟩ := (idx_facts t).2.2.2.2.2.1
  funext j
  unfold iblk0
  rw [View.read_apply]
  show V c main_arg8 _ = V c main_arg8 _
  congr 1
  funext a
  apply Fin.ext
  match a with
  | ⟨0, _⟩ => show win0_5.index t (0 : Fin 2) * 64 + 1 * (j 0).val = (j 0).val; rw [e0]; omega
  | ⟨1, _⟩ => show win0_5.index t (1 : Fin 2) * 64 + 1 * (j 1).val = (j 1).val; rw [e1]; omega

theorem blk_bgv (c : Dev nD) (t : Fin cfg0.N) : (iblk0 V c 6 t : Vec Ideal S1x64 .f32) = (V c main_v1 : S1x64.Idx → EReal) := by
  obtain ⟨e0, e1⟩ := (idx_facts t).2.2.2.2.2.2.1
  funext j
  unfold iblk0
  rw [View.read_apply]
  show V c main_v1 _ = V c main_v1 _
  congr 1
  funext a
  apply Fin.ext
  match a with
  | ⟨0, _⟩ => show win0_6.index t (0 : Fin 2) * 1 + 1 * (j 0).val = (j 0).val; rw [e0]; omega
  | ⟨1, _⟩ => show win0_6.index t (1 : Fin 2) * 64 + 1 * (j 1).val = (j 1).val; rw [e1]; omega

theorem blk_wpt (c : Dev nD) (t : Fin cfg0.N) : (iblk0 V c 7 t : Vec Ideal S768x64 .f32) = (V c main_arg6 : S768x64.Idx → EReal) := by
  obtain ⟨e0, e1⟩ := (idx_facts t).2.2.2.2.2.2.2.1
  funext j
  unfold iblk0
  rw [View.read_apply]
  show V c main_arg6 _ = V c main_arg6 _
  congr 1
  funext a
  apply Fin.ext
  match a with
  | ⟨0, _⟩ => show win0_7.index t (0 : Fin 2) * 768 + 1 * (j 0).val = (j 0).val; rw [e0]; omega
  | ⟨1, _⟩ => show win0_7.index t (1 : Fin 2) * 64 + 1 * (j 1).val = (j 1).val; rw [e1]; omega

theorem blk_bpt (c : Dev nD) (t : Fin cfg0.N) : (iblk0 V c 8 t : Vec Ideal S1x64 .f32) = (V c main_v2 : S1x64.Idx → EReal) := by
  obtain ⟨e0, e1⟩ := (idx_facts t).2.2.2.2.2.2.2.2.1
  funext j
  unfold iblk0
  rw [View.read_apply]
  show V c main_v2 _ = V c main_v2 _
  congr 1
  funext a
  apply Fin.ext
  match a with
  | ⟨0, _⟩ => show win0_8.index t (0 : Fin 2) * 1 + 1 * (j 0).val = (j 0).val; rw [e0]; omega
  | ⟨1, _⟩ => show win0_8.index t (1 : Fin 2) * 64 + 1 * (j 1).val = (j 1).val; rw [e1]; omega

theorem blk_wgt (c : Dev nD) (t : Fin cfg0.N) : (iblk0 V c 9 t : Vec Ideal S64x64 .f32) = (V c main_arg10 : S64x64.Idx → EReal) := by
  obtain ⟨e0, e1⟩ := (idx_facts t).2.2.2.2.2.2.2.2.2.1
  funext j
  unfold iblk0
  rw [View.read_apply]
  show V c main_arg10 _ = V c main_arg10 _
  congr 1
  funext a
  apply Fin.ext
  match a with
  | ⟨0, _⟩ => show win0_9.index t (0 : Fin 2) * 64 + 1 * (j 0).val = (j 0).val; rw [e0]; omega
  | ⟨1, _⟩ => show win0_9.index t (1 : Fin 2) * 64 + 1 * (j 1).val = (j 1).val; rw [e1]; omega

theorem blk_bgt (c : Dev nD) (t : Fin cfg0.N) : (iblk0 V c 10 t : Vec Ideal S1x64 .f32) = (V c main_v3 : S1x64.Idx → EReal) := by
  obtain ⟨e0, e1⟩ := (idx_facts t).2.2.2.2.2.2.2.2.2.2.1
  funext j
  unfold iblk0
  rw [View.read_apply]
  show V c main_v3 _ = V c main_v3 _
  congr 1
  funext a
  apply Fin.ext
  match a with
  | ⟨0, _⟩ => show win0_10.index t (0 : Fin 2) * 1 + 1 * (j 0).val = (j 0).val; rw [e0]; omega
  | ⟨1, _⟩ => show win0_10.index t (1 : Fin 2) * 64 + 1 * (j 1).val = (j 1).val; rw [e1]; omega

/-! ## What each point writes back, and the arrays after the region -/

theorem hz : (![0, 0] : Fin 2 → Nat) = fun _ => 0 := funext fun a => by fin_cases a <;> rfl

/-- The first-modality gated table of the arrays as the region finds them. -/
abbrev Gv (c : Dev nD) : Cert.Spec.Arr2 20000 64 :=
  Cert.Spec.gate (V c main_arg2) (V c main_arg1) (V c main_arg4) (fun k => V c main_v0 (ix2 (0 : Fin 1) k)) (V c main_arg8)
    (fun k => V c main_v1 (ix2 (0 : Fin 1) k))

/-- The second-modality gated table of the arrays as the region finds them. -/
abbrev Gt (c : Dev nD) : Cert.Spec.Arr2 20000 64 :=
  Cert.Spec.gate (V c main_arg3) (V c main_arg1) (V c main_arg6) (fun k => V c main_v2 (ix2 (0 : Fin 1) k)) (V c main_arg10)
    (fun k => V c main_v3 (ix2 (0 : Fin 1) k))

/-- Row `p` of an output block at point `t` is row `1000 t + p` of the array. -/
theorem emb_out_v (t : Fin cfg0.N) (p : Fin 1000) (q : Fin 64) (r : Fin 20000) (hr : r.val = 1000 * t.val + p.val) :
    ((cfg0.win 11).blk t).view.emb (ix2 p q) = (ix2 r q : S20000x64.Idx) := by
  obtain ⟨e0, e1⟩ := (idx_facts t).2.2.2.2.2.2.2.2.2.2.2.1
  funext a
  apply Fin.ext
  match a with
  | ⟨0, _⟩ => show win0_11.index t (0 : Fin 2) * 1000 + 1 * p.val = r.val; rw [e0, hr]; omega
  | ⟨1, _⟩ => show win0_11.index t (1 : Fin 2) * 64 + 1 * q.val = q.val; rw [e1]; omega

theorem emb_out_t (t : Fin cfg0.N) (p : Fin 1000) (q : Fin 64) (r : Fin 20000) (hr : r.val = 1000 * t.val + p.val) :
    ((cfg0.win 12).blk t).view.emb (ix2 p q) = (ix2 r q : S20000x64.Idx) := by
  obtain ⟨e0, e1⟩ := (idx_facts t).2.2.2.2.2.2.2.2.2.2.2.2
  funext a
  apply Fin.ext
  match a with
  | ⟨0, _⟩ => show win0_12.index t (0 : Fin 2) * 1000 + 1 * p.val = r.val; rw [e0, hr]; omega
  | ⟨1, _⟩ => show win0_12.index t (1 : Fin 2) * 64 + 1 * q.val = q.val; rw [e1]; omega

/-- The array row that row `p` of point `t`'s block is. -/
def rowOf (t : Fin cfg0.N) (p : Fin 1000) : Fin 20000 :=
  ⟨1000 * t.val + p.val, by have ht : t.val < 20 := t.isLt; have := p.isLt; omega⟩

/-- The first-modality store at point `t`, entry `(p, q)`, is the gated table at row `1000 t + p`. -/
theorem store_v_apply (c : Dev nD) (t : Fin cfg0.N) (p : Fin 1000) (q : Fin 64) :
    k0_pay2 (iblk0 V c 0 t) (iblk0 V c 3 t) (iblk0 V c 4 t) (iblk0 V c 5 t) (iblk0 V c 6 t) (iblk0 V c 2 t) (ix2 p q)
      = Gv V c (ix2 (rowOf t p) q) := by
  rw [pay_v_apply, blk_wpv, blk_bpv, blk_wgv, blk_bgv, blk_gi V c t p q (rowOf t p) rfl]
  have hrow : (fun l => (iblk0 V c 0 t : Vec Ideal S1000x2048 .f32) (ix2 p l)) = Cert.Spec.row (V c main_arg2) (rowOf t p) :=
    funext fun l => blk_featv V c t p l (rowOf t p) rfl
  rw [hrow]
  rfl

/-- The second-modality store, likewise. -/
theorem store_t_apply (c : Dev nD) (t : Fin cfg0.N) (p : Fin 1000) (q : Fin 64) :
    k0_pay1 (k0_pay3 (iblk0 V c 9 t)) (k0_pay4 (iblk0 V c 1 t) (iblk0 V c 7 t) (iblk0 V c 8 t)) (iblk0 V c 10 t) (iblk0 V c 2 t) (ix2 p q)
      = Gt V c (ix2 (rowOf t p) q) := by
  rw [pay_t_apply, blk_wpt, blk_bpt, blk_wgt, blk_bgt, blk_gi V c t p q (rowOf t p) rfl]
  have hrow : (fun l => (iblk0 V c 1 t : Vec Ideal S1000x768 .f32) (ix2 p l)) = Cert.Spec.row (V c main_arg3) (rowOf t p) :=
    funext fun l => blk_featt V c t p l (rowOf t p) rfl
  rw [hrow]
  rfl

/-- What point `t` writes back to the first-modality output is block `t` of the gated table. -/
theorem flushed_v_eq (c : Dev nD) (t : Fin cfg0.N) :
    (dat0 V c).flushed 11 t = ((cfg0.win 11).blk t).view.read (Elt Ideal) (Gv V c) := by
  show (cfg0.win 11).cut (grid0.coords t) ((dat0 V c).after 11 t) = _
  rw [after0_11]
  unfold out0_11
  rw [View.canon_unit_zero hz]
  simp only [View.ld_unit_zero (S := S1000x2048) hz, View.ld_unit_zero (S := S2048x64) hz, View.ld_unit_zero (S := S1x64) hz,
    View.ld_unit_zero (S := S64x64) hz, View.ld_unit_zero (S := S1000x64) hz]
  funext j
  obtain ⟨p, q, rfl⟩ : ∃ (p : Fin 1000) (q : Fin 64), j = ix2 p q := ⟨j 0, j 1, eq_ix2 j⟩
  rw [View.read_apply, emb_out_v t p q (rowOf t p) rfl]
  exact store_v_apply V c t p q

/-- What point `t` writes back to the second-modality output is block `t` of the gated table. -/
theorem flushed_t_eq (c : Dev nD) (t : Fin cfg0.N) :
    (dat0 V c).flushed 12 t = ((cfg0.win 12).blk t).view.read (Elt Ideal) (Gt V c) := by
  show (cfg0.win 12).cut (grid0.coords t) ((dat0 V c).after 12 t) = _
  rw [after0_12]
  unfold out0_12
  rw [View.canon_unit_zero hz]
  simp only [View.ld_unit_zero (S := S1000x768) hz, View.ld_unit_zero (S := S768x64) hz, View.ld_unit_zero (S := S1x64) hz,
    View.ld_unit_zero (S := S64x64) hz, View.ld_unit_zero (S := S1000x64) hz]
  funext j
  obtain ⟨p, q, rfl⟩ : ∃ (p : Fin 1000) (q : Fin 64), j = ix2 p q := ⟨j 0, j 1, eq_ix2 j⟩
  rw [View.read_apply, emb_out_t t p q (rowOf t p) rfl]
  exact store_t_apply V c t p q

/-- An index of the array is in point `t`'s block iff each coordinate is in the block's range on its axis. -/
theorem mem_blk_v (t : Fin cfg0.N) (i : S20000x64.Idx) :
    i ∈ ((cfg0.win 11).blk t).view.set ↔ ∀ a : Fin 2, win0_11.index t a * S1000x64.size a ≤ (i a).val ∧ (i a).val < win0_11.index t a * S1000x64.size a + S1000x64.size a := by
  show i ∈ ((View.whole main_v4_0).slice (win0_11.rect t)).set ↔ _
  rw [View.set_slice_whole, Rect.mem_set_unit]
  exact Iff.rfl

/-- Row `r` of the array is in the block of point `r / 1000`: the twenty blocks tile the rows. -/
theorem cover_v (i : S20000x64.Idx) : ∃ t : Fin cfg0.N, (cfg0.win 11).flush t = true ∧ i ∈ ((cfg0.win 11).blk t).view.set := by
  have hi0 : (i 0).val < 20000 := idx2_lt0 i
  have hi1 : (i 1).val < 64 := idx2_lt1 i
  obtain ⟨t, ht⟩ : ∃ t : Fin cfg0.N, t.val = (i 0).val / 1000 := ⟨⟨(i 0).val / 1000, by show (i 0).val / 1000 < 20; omega⟩, rfl⟩
  obtain ⟨e0, e1⟩ := (idx_facts t).2.2.2.2.2.2.2.2.2.2.2.1
  refine ⟨t, flush0_11 t, ?_⟩
  rw [mem_blk_v]
  intro a
  match a with
  | ⟨0, _⟩ =>
    show win0_11.index t (0 : Fin 2) * 1000 ≤ (i 0).val ∧ (i 0).val < win0_11.index t (0 : Fin 2) * 1000 + 1000
    rw [e0, ht]; omega
  | ⟨1, _⟩ =>
    show win0_11.index t (1 : Fin 2) * 64 ≤ (i 1).val ∧ (i 1).val < win0_11.index t (1 : Fin 2) * 64 + 64
    rw [e1]; omega

/-- An index of the array is in point `t`'s block iff each coordinate is in the block's range on its axis. -/
theorem mem_blk_t (t : Fin cfg0.N) (i : S20000x64.Idx) :
    i ∈ ((cfg0.win 12).blk t).view.set ↔ ∀ a : Fin 2, win0_12.index t a * S1000x64.size a ≤ (i a).val ∧ (i a).val < win0_12.index t a * S1000x64.size a + S1000x64.size a := by
  show i ∈ ((View.whole main_v4_1).slice (win0_12.rect t)).set ↔ _
  rw [View.set_slice_whole, Rect.mem_set_unit]
  exact Iff.rfl

/-- Row `r` of the array is in the block of point `r / 1000`: the twenty blocks tile the rows. -/
theorem cover_t (i : S20000x64.Idx) : ∃ t : Fin cfg0.N, (cfg0.win 12).flush t = true ∧ i ∈ ((cfg0.win 12).blk t).view.set := by
  have hi0 : (i 0).val < 20000 := idx2_lt0 i
  have hi1 : (i 1).val < 64 := idx2_lt1 i
  obtain ⟨t, ht⟩ : ∃ t : Fin cfg0.N, t.val = (i 0).val / 1000 := ⟨⟨(i 0).val / 1000, by show (i 0).val / 1000 < 20; omega⟩, rfl⟩
  obtain ⟨e0, e1⟩ := (idx_facts t).2.2.2.2.2.2.2.2.2.2.2.2
  refine ⟨t, flush0_12 t, ?_⟩
  rw [mem_blk_t]
  intro a
  match a with
  | ⟨0, _⟩ =>
    show win0_12.index t (0 : Fin 2) * 1000 ≤ (i 0).val ∧ (i 0).val < win0_12.index t (0 : Fin 2) * 1000 + 1000
    rw [e0, ht]; omega
  | ⟨1, _⟩ =>
    show win0_12.index t (1 : Fin 2) * 64 ≤ (i 1).val ∧ (i 1).val < win0_12.index t (1 : Fin 2) * 64 + 64
    rw [e1]; omega

/-! ## The two output arrays after the region -/

/-- After the region the first-modality output array is the gated table of the arrays as the region finds them. -/
theorem gated_v_array (c : Dev nD) :
    (dat0 (F := Ideal) V c).arrAt 11 cfg0.N
      = Cert.Spec.gate (V c main_arg2) (V c main_arg1) (V c main_arg4) (fun k => V c main_v0 (ix2 (0 : Fin 1) k)) (V c main_arg8)
          (fun k => V c main_v1 (ix2 (0 : Fin 1) k)) :=
  (dat0 V c).arrAt_eq_of_cover 11 (Gv V c) (fun t _ => flushed_v_eq V c t) cover_v

/-- After the region the second-modality output array is the gated table of the arrays as the region finds them. -/
theorem gated_t_array (c : Dev nD) :
    (dat0 (F := Ideal) V c).arrAt 12 cfg0.N
      = Cert.Spec.gate (V c main_arg3) (V c main_arg1) (V c main_arg6) (fun k => V c main_v2 (ix2 (0 : Fin 1) k)) (V c main_arg10)
          (fun k => V c main_v3 (ix2 (0 : Fin 1) k)) :=
  (dat0 V c).arrAt_eq_of_cover 12 (Gt V c) (fun t _ => flushed_t_eq V c t) cover_t

end Cert.KernelIdeal.GateValue

end
-- ==== Proof.FusePayload.lean ====
/-
  The fusion kernel's body, entry by entry, over the extended reals.

  The body works on a block of 5000 rows.  Narrowing to the 16-bit format is the identity on extended reals and
  a matrix product into the zero accumulator is a plain sum, so entry `(p, q)` of

  * `x · W + b` is `Cert.Spec.affine` of row `p` of `x` (`affine_apply`),
  * the attention logit column is `Cert.Spec.att` of row `p` (`att_apply`),
  * the common rows are `Cert.Spec.commonK` of the two modalities' rows `p` and their logits (`common_apply`),
  * the stored rows are `Cert.Spec.outRow` of the content row, the common row and the two fixed rows (`out_apply`).

  The literal `1.0` is the real 1 (`ofBits_one`); the literal `3.0` stays the word it is written as.
-/
import proofs.«181136_j28157805592958_1_alg».proof.Proof.Gen.KernelIdeal.Frame
import proofs.«181136_j28157805592958_1_alg».proof.Proof.Spec
import proofs.«181136_j28157805592958_1_alg».proof.Proof.LibVec
import Idealize.ShloMosaic.Lib.ValueIdx
import Idealize.ShloMosaic.Lib.ValueLayout
import Idealize.ShloMosaic.Lib.Pipeline.Value

noncomputable section

namespace Cert.KernelIdeal.FuseValue

open Cert.KernelIdeal.Gen Cert.KernelIdeal Idealize.ShloMosaic Idealize.ShloMosaic.ValueIdx

/-- The word 0x3F800000 denotes the real 1. -/
theorem ofBits_one : Ideal.ofBits .f32 0x3F800000#32 = 1 := by
  simp [Ideal.ofBits, Ideal.ieee, -EReal.coe_mul]; norm_num

/-- A product of a 5000 x 64 array with a 64 x 64 array into the zero accumulator, entry by entry. -/
theorem matmul64_apply {φ₁ φ₂ : FTy} (X : FVec Ideal S5000x64 φ₁) (Y : FVec Ideal S64x64 φ₂) (p : Fin 5000) (q : Fin 64) :
    matmul dot_S5000x64_S64x64_S5000x64_1_0_0_1_n_n none X Y (constant (F := Ideal) S5000x64 .f32 0x00000000#32) (ix2 p q)
      = ∑ k : Fin 64, X (ix2 p k) * Y (ix2 k q) :=
  Cert.LibVec.matmul_rowcol dot_S5000x64_S64x64_S5000x64_1_0_0_1_n_n rfl rfl (fun _ _ => rfl) (fun _ _ => rfl) (fun _ _ => rfl) (fun _ _ => rfl) none X Y p q

/-- A product of a 5000 x 64 array with a 64 x 1 column into the zero accumulator, entry by entry. -/
theorem matmul1_apply {φ₁ φ₂ : FTy} (X : FVec Ideal S5000x64 φ₁) (Y : FVec Ideal S64x1 φ₂) (p : Fin 5000) (u : Fin 1) :
    matmul dot_S5000x64_S64x1_S5000x1_1_0_0_1_n_n none X Y (constant (F := Ideal) S5000x1 .f32 0x00000000#32) (ix2 p u)
      = ∑ k : Fin 64, X (ix2 p k) * Y (ix2 k u) :=
  Cert.LibVec.matmul_rowcol dot_S5000x64_S64x1_S5000x1_1_0_0_1_n_n rfl rfl (fun _ _ => rfl) (fun _ _ => rfl) (fun _ _ => rfl) (fun _ _ => rfl) none X Y p u

/-- The hyperbolic tangent and the logistic function of an array read entry by entry. -/
theorem tanh_apply {s : Shape} {φ : FTy} (a : FVec Ideal s φ) (i : s.Idx) : tanh a i = Ideal.tanh (a i) := rfl
theorem logistic_apply {s : Shape} {φ : FTy} (a : FVec Ideal s φ) (i : s.Idx) : logistic a i = Ideal.logistic (a i) := rfl

/-- Column `q` of `x · W + b` for row `p` of `X`, as the kernel spells it: the product into the zero accumulator plus the
    bias row broadcast down the rows. -/
theorem affine_apply (X : FVec Ideal S5000x64 .bf16) (W : FVec Ideal S64x64 .bf16) (b : Vec Ideal S1x64 .f32) (p : Fin 5000) (q : Fin 64) :
    addf (matmul dot_S5000x64_S64x64_S5000x64_1_0_0_1_n_n none X W (constant (F := Ideal) S5000x64 .f32 0x00000000#32))
        (broadcastTo S5000x64 (shapeCast S1x64 b shapeCasts_S1x64_S1x64) broadcasts_S1x64_S5000x64) (ix2 p q)
      = Cert.Spec.affine (fun l => X (ix2 p l)) W (fun k => b (ix2 (0 : Fin 1) k)) q := by
  rw [addf_apply, matmul64_apply, broadcastTo_1b_ab_apply, shapeCast_self]
  rfl

/-- The attention logit of row `p`, as the kernel spells it. -/
theorem att_apply (X : FVec Ideal S5000x64 .bf16) (W : FVec Ideal S64x64 .bf16) (b : Vec Ideal S1x64 .f32) (w2 : FVec Ideal S64x1 .bf16)
    (p : Fin 5000) (u : Fin 1) :
    matmul dot_S5000x64_S64x1_S5000x1_1_0_0_1_n_n none
        (truncf .bf16 (tanh (addf (matmul dot_S5000x64_S64x64_S5000x64_1_0_0_1_n_n none X W (constant (F := Ideal) S5000x64 .f32 0x00000000#32))
          (broadcastTo S5000x64 (shapeCast S1x64 b shapeCasts_S1x64_S1x64) broadcasts_S1x64_S5000x64))) bitsLt_bf16_f32)
        w2 (constant (F := Ideal) S5000x1 .f32 0x00000000#32) (ix2 p u)
      = Cert.Spec.att (fun l => X (ix2 p l)) W (fun k => b (ix2 (0 : Fin 1) k)) w2 := by
  rw [matmul1_apply]
  unfold Cert.Spec.att
  refine Finset.sum_congr rfl fun k _ => ?_
  rw [truncf_apply, tanh_apply, affine_apply, Subsingleton.elim u (0 : Fin 1)]

/-- The common rows: entry `(p, q)` of the second payload is the kernel's blend of row `p` of the two modalities. -/
theorem common_apply (v2 v4 : Vec Ideal S5000x64 .f32) (v6 : Vec Ideal S64x64 .f32) (v8 : Vec Ideal S1x64 .f32) (v10 : Vec Ideal S64x1 .f32)
    (p : Fin 5000) (q : Fin 64) :
    k1_pay3 (F := Ideal) v2 v4 v6 v8 v10 (ix2 p q) =
      Cert.Spec.commonK (fun l => v2 (ix2 p l)) (fun l => v4 (ix2 p l))
        (Cert.Spec.att (fun l => v2 (ix2 p l)) v6 (fun k => v8 (ix2 (0 : Fin 1) k)) v10)
        (Cert.Spec.att (fun l => v4 (ix2 p l)) v6 (fun k => v8 (ix2 (0 : Fin 1) k)) v10) q := by
  unfold k1_pay3
  rw [addf_apply, mulf_apply, mulf_apply, Cert.LibVec.colBroadcast_apply, Cert.LibVec.colBroadcast_apply, subf_apply, broadcast_apply,
    logistic_apply, subf_apply, att_apply, att_apply]
  simp only [shapeCast_self]
  rw [show Scalar.ofBits (F := Ideal) .f32 0x3F800000#32 = (1 : EReal) from ofBits_one]
  rfl

/-- The output rows: entry `(p, q)` of the stored payload, from the content block, the common rows and the two fixed rows. -/
theorem out_apply (v1 v34 : FVec Ideal S5000x64 .f32) (v36 : FVec Ideal S64x64 .bf16) (v37 : Vec Ideal S64x64 .f32)
    (v41 v48 v53 v55 : Vec Ideal S1x64 .f32) (p : Fin 5000) (q : Fin 64) :
    k1_pay1 (F := Ideal) v1 v34 v36 v37 v41 v48 v53 v55 (ix2 p q) =
      Cert.Spec.outRow (fun l => v1 (ix2 p l)) (fun l => v34 (ix2 p l)) (fun k => v53 (ix2 (0 : Fin 1) k)) (fun k => v55 (ix2 (0 : Fin 1) k))
        v36 (fun k => v41 (ix2 (0 : Fin 1) k)) v37 (fun k => v48 (ix2 (0 : Fin 1) k)) q := by
  unfold k1_pay1
  rw [addf_apply, divf_apply, broadcast_apply, addf_apply, addf_apply, mulf_apply, mulf_apply, logistic_apply, logistic_apply,
    affine_apply, affine_apply, broadcastTo_1b_ab_apply, broadcastTo_1b_ab_apply]
  simp only [shapeCast_self]
  rw [show Scalar.ofBits (F := Ideal) .f32 0x40400000#32 = Cert.Spec.three from rfl]
  rfl

end Cert.KernelIdeal.FuseValue

end
-- ==== Proof.FuseBlocks.lean ====
/-
  The fusion kernel's input blocks as parts of the arrays the region is entered with.

  The grid has ten points.  At point `t` the content block and the two modality blocks are rows `5000 t … 5000 t + 4999`
  of their arrays (`rows0`, `rows1`, `rows2`); every weight, bias and fixed-row window is a single block, the whole
  array, at every point (`whole3` … `whole11`).  A block's coordinate on an axis is the block index times the block's
  size plus the coordinate inside the block; the block indices are decided once over the ten points (`idx_rows`,
  `idx_whole`).
-/
import proofs.«181136_j28157805592958_1_alg».proof.Proof.Gen.KernelIdeal.Frame
import proofs.«181136_j28157805592958_1_alg».proof.Proof.Spec
import Idealize.ShloMosaic.Lib.ValueIdx
import Idealize.ShloMosaic.Lib.ValueLayout
import Idealize.ShloMosaic.Lib.Pipeline.Value

noncomputable section

namespace Cert.KernelIdeal.FuseValue

open Cert.KernelIdeal.Gen Cert.KernelIdeal Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten grid points: the three row-block inputs and the output sit at block `(t, 0)`. -/
theorem idx_rows : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_12.index t (0 : Fin 2) = t.val ∧ win1_12.index t (1 : Fin 2) = 0 :=
  (by decide +kernel : ∀ t : Fin grid1.N, _)

/-- Every other window sits at block `(0, 0)` at every point. -/
theorem idx_whole : ∀ t : Fin cfg1.N,
    win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0
    ∧ win1_10.index t (0 : Fin 2) = 0 ∧ win1_10.index t (1 : Fin 2) = 0
    ∧ win1_11.index t (0 : Fin 2) = 0 ∧ win1_11.index t (1 : Fin 2) = 0 :=
  (by decide +kernel : ∀ t : Fin grid1.N, _)

/-- Row `p` of the content block at point `t` is row `5000 t + p` of the content array. -/
theorem rows0 (c : Dev nD) (t : Fin cfg1.N) (p : Fin 5000) (l : Fin 64) (r : Fin 50000) (hr : r.val = t.val * 5000 + p.val) :
    (iblk1 V c 0 t : Vec Ideal S5000x64 .f32) (ix2 p l) = (V c main_v35 : S50000x64.Idx → EReal) (ix2 r l) := by
  obtain ⟨e0, e1, -, -, -, -, -, -⟩ := idx_rows t
  unfold iblk1
  rw [View.read_apply]
  show V c main_v35 _ = V c main_v35 _
  congr 1
  funext a
  apply Fin.ext
  match a with
  | ⟨0, _⟩ => show win1_0.index t (0 : Fin 2) * 5000 + 1 * p.val = r.val; omega
  | ⟨1, _⟩ => show win1_0.index t (1 : Fin 2) * 64 + 1 * l.val = l.val; omega

/-- Row `p` of the first-modality block at point `t` is row `5000 t + p` of the first-modality array. -/
theorem rows1 (c : Dev nD) (t : Fin cfg1.N) (p : Fin 5000) (l : Fin 64) (r : Fin 50000) (hr : r.val = t.val * 5000 + p.val) :
    (iblk1 V c 1 t : Vec Ideal S5000x64 .f32) (ix2 p l) = (V c main_v75 : S50000x64.Idx → EReal) (ix2 r l) := by
  obtain ⟨-, -, e0, e1, -, -, -, -⟩ := idx_rows t
  unfold iblk1
  rw [View.read_apply]
  show V c main_v75 _ = V c main_v75 _
  congr 1
  funext a
  apply Fin.ext
  match a with
  | ⟨0, _⟩ => show win1_1.index t (0 : Fin 2) * 5000 + 1 * p.val = r.val; omega
  | ⟨1, _⟩ => show win1_1.index t (1 : Fin 2) * 64 + 1 * l.val = l.val; omega

/-- Row `p` of the second-modality block at point `t` is row `5000 t + p` of the second-modality array. -/
theorem rows2 (c : Dev nD) (t : Fin cfg1.N) (p : Fin 5000) (l : Fin 64) (r : Fin 50000) (hr : r.val = t.val * 5000 + p.val) :
    (iblk1 V c 2 t : Vec Ideal S5000x64 .f32) (ix2 p l) = (V c main_v89 : S50000x64.Idx → EReal) (ix2 r l) := by
  obtain ⟨-, -, -, -, e0, e1, -, -⟩ := idx_rows t
  unfold iblk1
  rw [View.read_apply]
  show V c main_v89 _ = V c main_v89 _
  congr 1
  funext a
  apply Fin.ext
  match a with
  | ⟨0, _⟩ => show win1_2.index t (0 : Fin 2) * 5000 + 1 * p.val = r.val; omega
  | ⟨1, _⟩ => show win1_2.index t (1 : Fin 2) * 64 + 1 * l.val = l.val; omega

/-- The block of the first attention weight is the whole array, at every point. -/
theorem whole3 (c : Dev nD) (t : Fin cfg1.N) : (iblk1 V c 3 t : Vec Ideal S64x64 .f32) = (V c main_arg16 : S64x64.Idx → EReal) := by
  obtain ⟨e0, e1, -, -, -, -, -, -, -, -, -, -, -, -, -, -, -, -⟩ := idx_whole t
  funext y
  unfold iblk1
  rw [View.read_apply]
  show V c main_arg16 _ = V c main_arg16 y
  congr 1
  funext a
  apply Fin.ext
  match a with
  | ⟨0, _⟩ => show win1_3.index t (0 : Fin 2) * 64 + 1 * (y 0).val = (y 0).val; omega
  | ⟨1, _⟩ => show win1_3.index t (1 : Fin 2) * 64 + 1 * (y 1).val = (y 1).val; omega

/-- The block of the attention bias row is the whole array, at every point. -/
theorem whole4 (c : Dev nD) (t : Fin cfg1.N) : (iblk1 V c 4 t : Vec Ideal S1x64 .f32) = (V c main_v128 : S1x64.Idx → EReal) := by
  obtain ⟨-, -, e0, e1, -, -, -, -, -, -, -, -, -, -, -, -, -, -⟩ := idx_whole t
  funext y
  unfold iblk1
  rw [View.read_apply]
  show V c main_v128 _ = V c main_v128 y
  congr 1
  funext a
  apply Fin.ext
  match a with
  | ⟨0, _⟩ => show win1_4.index t (0 : Fin 2) * 1 + 1 * (y 0).val = (y 0).val; omega
  | ⟨1, _⟩ => show win1_4.index t (1 : Fin 2) * 64 + 1 * (y 1).val = (y 1).val; omega

/-- The block of the second attention weight is the whole array, at every point. -/
theorem whole5 (c : Dev nD) (t : Fin cfg1.N) : (iblk1 V c 5 t : Vec Ideal S64x1 .f32) = (V c main_arg18 : S64x1.Idx → EReal) := by
  obtain ⟨-, -, -, -, e0, e1, -, -, -, -, -, -, -, -, -, -, -, -⟩ := idx_whole t
  funext y
  unfold iblk1
  rw [View.read_apply]
  show V c main_arg18 _ = V c main_arg18 y
  congr 1
  funext a
  apply Fin.ext
  match a with
  | ⟨0, _⟩ => show win1_5.index t (0 : Fin 2) * 64 + 1 * (y 0).val = (y 0).val; omega
  | ⟨1, _⟩ => show win1_5.index t (1 : Fin 2) * 1 + 1 * (y 1).val = (y 1).val; omega

/-- The block of the first preference weight is the whole array, at every point. -/
theorem whole6 (c : Dev nD) (t : Fin cfg1.N) : (iblk1 V c 6 t : Vec Ideal S64x64 .f32) = (V c main_arg12 : S64x64.Idx → EReal) := by
  obtain ⟨-, -, -, -, -, -, e0, e1, -, -, -, -, -, -, -, -, -, -⟩ := idx_whole t
  funext y
  unfold iblk1
  rw [View.read_apply]
  show V c main_arg12 _ = V c main_arg12 y
  congr 1
  funext a
  apply Fin.ext
  match a with
  | ⟨0, _⟩ => show win1_6.index t (0 : Fin 2) * 64 + 1 * (y 0).val = (y 0).val; omega
  | ⟨1, _⟩ => show win1_6.index t (1 : Fin 2) * 64 + 1 * (y 1).val = (y 1).val; omega

/-- The block of the first preference bias row is the whole array, at every point. -/
theorem whole7 (c : Dev nD) (t : Fin cfg1.N) : (iblk1 V c 7 t : Vec Ideal S1x64 .f32) = (V c main_v129 : S1x64.Idx → EReal) := by
  obtain ⟨-, -, -, -, -, -, -, -, e0, e1, -, -, -, -, -, -, -, -⟩ := idx_whole t
  funext y
  unfold iblk1
  rw [View.read_apply]
  show V c main_v129 _ = V c main_v129 y
  congr 1
  funext a
  apply Fin.ext
  match a with
  | ⟨0, _⟩ => show win1_7.index t (0 : Fin 2) * 1 + 1 * (y 0).val = (y 0).val; omega
  | ⟨1, _⟩ => show win1_7.index t (1 : Fin 2) * 64 + 1 * (y 1).val = (y 1).val; omega

/-- The block of the second preference weight is the whole array, at every point. -/
theorem whole8 (c : Dev nD) (t : Fin cfg1.N) : (iblk1 V c 8 t : Vec Ideal S64x64 .f32) = (V c main_arg14 : S64x64.Idx → EReal) := by
  obtain ⟨-, -, -, -, -, -, -, -, -, -, e0, e1, -, -, -, -, -, -⟩ := idx_whole t
  funext y
  unfold iblk1
  rw [View.read_apply]
  show V c main_arg14 _ = V c main_arg14 y
  congr 1
  funext a
  apply Fin.ext
  match a with
  | ⟨0, _⟩ => show win1_8.index t (0 : Fin 2) * 64 + 1 * (y 0).val = (y 0).val; omega
  | ⟨1, _⟩ => show win1_8.index t (1 : Fin 2) * 64 + 1 * (y 1).val = (y 1).val; omega

/-- The block of the second preference bias row is the whole array, at every point. -/
theorem whole9 (c : Dev nD) (t : Fin cfg1.N) : (iblk1 V c 9 t : Vec Ideal S1x64 .f32) = (V c main_v130 : S1x64.Idx → EReal) := by
  obtain ⟨-, -, -, -, -, -, -, -, -, -, -, -, e0, e1, -, -, -, -⟩ := idx_whole t
  funext y
  unfold iblk1
  rw [View.read_apply]
  show V c main_v130 _ = V c main_v130 y
  congr 1
  funext a
  apply Fin.ext
  match a with
  | ⟨0, _⟩ => show win1_9.index t (0 : Fin 2) * 1 + 1 * (y 0).val = (y 0).val; omega
  | ⟨1, _⟩ => show win1_9.index t (1 : Fin 2) * 64 + 1 * (y 1).val = (y 1).val; omega

/-- The block of the first fixed row is the whole array, at every point. -/
theorem whole10 (c : Dev nD) (t : Fin cfg1.N) : (iblk1 V c 10 t : Vec Ideal S1x64 .f32) = (V c main_v131 : S1x64.Idx → EReal) := by
  obtain ⟨-, -, -, -, -, -, -, -, -, -, -, -, -, -, e0, e1, -, -⟩ := idx_whole t
  funext y
  unfold iblk1
  rw [View.read_apply]
  show V c main_v131 _ = V c main_v131 y
  congr 1
  funext a
  apply Fin.ext
  match a with
  | ⟨0, _⟩ => show win1_10.index t (0 : Fin 2) * 1 + 1 * (y 0).val = (y 0).val; omega
  | ⟨1, _⟩ => show win1_10.index t (1 : Fin 2) * 64 + 1 * (y 1).val = (y 1).val; omega

/-- The block of the second fixed row is the whole array, at every point. -/
theorem whole11 (c : Dev nD) (t : Fin cfg1.N) : (iblk1 V c 11 t : Vec Ideal S1x64 .f32) = (V c main_v132 : S1x64.Idx → EReal) := by
  obtain ⟨-, -, -, -, -, -, -, -, -, -, -, -, -, -, -, -, e0, e1⟩ := idx_whole t
  funext y
  unfold iblk1
  rw [View.read_apply]
  show V c main_v132 _ = V c main_v132 y
  congr 1
  funext a
  apply Fin.ext
  match a with
  | ⟨0, _⟩ => show win1_11.index t (0 : Fin 2) * 1 + 1 * (y 0).val = (y 0).val; omega
  | ⟨1, _⟩ => show win1_11.index t (1 : Fin 2) * 64 + 1 * (y 1).val = (y 1).val; omega

end Cert.KernelIdeal.FuseValue

end
-- ==== Proof.FuseKernel.lean ====
/-
  The fusion kernel's output array, over the extended reals.

  At grid point `t` the body reads the content block, the two modality blocks (rows `5000 t … 5000 t + 4999` of their
  arrays) and the whole weight, bias and fixed-row arrays, and stores one block of 5000 rows.  Entry `(p, q)` of that
  block is entry `(5000 t + p, q)` of `Cert.Spec.fuseK` of the arrays (`body_entry`, `flushed_eq`); row `r` of the output
  is written back by point `r / 5000` (`covered`), so the output array after the region is `Cert.Spec.fuseK` of the arrays
  the region is entered with (`fused_array`).
-/
import proofs.«181136_j28157805592958_1_alg».proof.Proof.Gen.KernelIdeal.Frame
import proofs.«181136_j28157805592958_1_alg».proof.Proof.Spec
import proofs.«181136_j28157805592958_1_alg».proof.Proof.LibVec
import proofs.«181136_j28157805592958_1_alg».proof.Proof.FusePayload
import proofs.«181136_j28157805592958_1_alg».proof.Proof.FuseBlocks
import Idealize.ShloMosaic.Lib.ValueIdx
import Idealize.ShloMosaic.Lib.ValueLayout
import Idealize.ShloMosaic.Lib.Pipeline.Value

noncomputable section

namespace Cert.KernelIdeal.FuseValue

open Cert.KernelIdeal.Gen Cert.KernelIdeal Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-- Entry `(p, q)` of the body's result on blocks whose rows `p` are rows `r` of three arrays: entry `(r, q)` of the
    fused table of those arrays, with the remaining blocks as the weights, the bias rows and the two fixed rows. -/
theorem body_entry (A0 A1 A2 : Cert.Spec.Arr2 50000 64)
    (x0 x1 x2 : Vec Ideal S5000x64 .f32) (x3 : Vec Ideal S64x64 .f32) (x4 : Vec Ideal S1x64 .f32) (x5 : Vec Ideal S64x1 .f32)
    (x6 : Vec Ideal S64x64 .f32) (x7 : Vec Ideal S1x64 .f32) (x8 : Vec Ideal S64x64 .f32) (x9 x10 x11 : Vec Ideal S1x64 .f32)
    (p : Fin 5000) (q : Fin 64) (r : Fin 50000)
    (h0 : ∀ l, x0 (ix2 p l) = A0 (ix2 r l)) (h1 : ∀ l, x1 (ix2 p l) = A1 (ix2 r l)) (h2 : ∀ l, x2 (ix2 p l) = A2 (ix2 r l)) :
    k1_pay1 (F := Ideal) (k1_pay2 x0) (k1_pay3 x1 x2 x3 x4 x5) (k1_pay4 x6) x8 x7 x9 x10 x11 (ix2 p q)
      = Cert.Spec.fuseK A0 A1 A2 x3 (fun k => x4 (ix2 (0 : Fin 1) k)) x5 x6 (fun k => x7 (ix2 (0 : Fin 1) k)) x8
          (fun k => x9 (ix2 (0 : Fin 1) k)) (fun k => x10 (ix2 (0 : Fin 1) k)) (fun k => x11 (ix2 (0 : Fin 1) k)) (ix2 r q) := by
  rw [out_apply]
  have e0 : (fun l => k1_pay2 (F := Ideal) x0 (ix2 p l)) = Cert.Spec.row A0 r := funext fun l => by
    unfold k1_pay2; rw [shapeCast_self]; exact h0 l
  have e1 : (fun l => x1 (ix2 p l)) = Cert.Spec.row A1 r := funext h1
  have e2 : (fun l => x2 (ix2 p l)) = Cert.Spec.row A2 r := funext h2
  have ec : (fun l => k1_pay3 (F := Ideal) x1 x2 x3 x4 x5 (ix2 p l))
      = Cert.Spec.cmK A1 A2 x3 (fun k => x4 (ix2 (0 : Fin 1) k)) x5 r := funext fun l => by
    rw [common_apply, e1, e2]; rfl
  rw [e0, ec]
  rfl

/-- The fused table of the arrays the region is entered with. -/
abbrev fused (c : Dev nD) : S50000x64.Idx → EReal :=
  Cert.Spec.fuseK (V c main_v35) (V c main_v75) (V c main_v89) (V c main_arg16) (fun k => V c main_v128 (ix2 (0 : Fin 1) k))
    (V c main_arg18) (V c main_arg12) (fun k => V c main_v129 (ix2 (0 : Fin 1) k)) (V c main_arg14)
    (fun k => V c main_v130 (ix2 (0 : Fin 1) k)) (fun k => V c main_v131 (ix2 (0 : Fin 1) k)) (fun k => V c main_v132 (ix2 (0 : Fin 1) k))

/-- What point `t` writes back is block `t` of the fused table. -/
theorem flushed_eq (c : Dev nD) (t : Fin cfg1.N) :
    (dat1 (F := Ideal) V c).flushed 12 t = ((cfg1.win 12).blk t).view.read (Elt Ideal) (fused V c) := by
  show (cfg1.win 12).cut (grid1.coords t) ((dat1 V c).after 12 t) = _
  rw [after1_12]
  unfold out1_12
  rw [View.canon_unit_zero hz]
  simp only [View.ld_unit_zero (S := S5000x64) hz, View.ld_unit_zero (S := S64x64) hz, View.ld_unit_zero (S := S1x64) hz,
    View.ld_unit_zero (S := S64x1) hz]
  obtain ⟨-, -, -, -, -, -, e0, e1⟩ := idx_rows t
  have ht : t.val < 10 := t.isLt.trans_eq N_1
  funext j
  have hj0 : (j 0).val < 5000 := (j 0).isLt
  have hj1 : (j 1).val < 64 := (j 1).isLt
  have ej : (cfg1.win 12).xinj (grid1.coords t) j = ix2 (⟨(j 0).val, hj0⟩ : Fin 5000) (⟨(j 1).val, hj1⟩ : Fin 64) :=
    funext fun a => by
      match a with
      | ⟨0, _⟩ => rfl
      | ⟨1, _⟩ => rfl
  have ei : ((cfg1.win 12).blk t).view.emb j
      = ix2 (⟨t.val * 5000 + (j 0).val, by omega⟩ : Fin 50000) (⟨(j 1).val, hj1⟩ : Fin 64) :=
    funext fun a => Fin.ext (by
      match a with
      | ⟨0, _⟩ => show win1_12.index t (0 : Fin 2) * 5000 + 1 * (j 0).val = t.val * 5000 + (j 0).val; omega
      | ⟨1, _⟩ => show win1_12.index t (1 : Fin 2) * 64 + 1 * (j 1).val = (j 1).val; omega)
  rw [View.read_apply]
  show k1_pay1 (F := Ideal) _ _ _ _ _ _ _ _ ((cfg1.win 12).xinj (grid1.coords t) j) = fused V c (((cfg1.win 12).blk t).view.emb j)
  rw [ej, ei]
  refine (body_entry (V c main_v35) (V c main_v75) (V c main_v89) (iblk1 V c 0 t) (iblk1 V c 1 t) (iblk1 V c 2 t) (iblk1 V c 3 t)
    (iblk1 V c 4 t) (iblk1 V c 5 t) (iblk1 V c 6 t) (iblk1 V c 7 t) (iblk1 V c 8 t) (iblk1 V c 9 t) (iblk1 V c 10 t) (iblk1 V c 11 t)
    (⟨(j 0).val, hj0⟩ : Fin 5000) (⟨(j 1).val, hj1⟩ : Fin 64) (⟨t.val * 5000 + (j 0).val, by omega⟩ : Fin 50000)
    (fun l => rows0 V c t _ l _ rfl) (fun l => rows1 V c t _ l _ rfl) (fun l => rows2 V c t _ l _ rfl)).trans ?_
  rw [whole3 V c t, whole4 V c t, whole5 V c t, whole6 V c t, whole7 V c t, whole8 V c t, whole9 V c t, whole10 V c t, whole11 V c t]

/-- An index of the output array is in point `t`'s block iff each coordinate is in the block's range on its axis. -/
theorem mem_blk (t : Fin cfg1.N) (i : S50000x64.Idx) :
    i ∈ ((cfg1.win 12).blk t).view.set ↔ ∀ a : Fin 2, win1_12.index t a * S5000x64.size a ≤ (i a).val
      ∧ (i a).val < win1_12.index t a * S5000x64.size a + S5000x64.size a := by
  show i ∈ ((View.whole main_v133).slice (win1_12.rect t)).set ↔ _
  rw [View.set_slice_whole, Rect.mem_set_unit]
  exact Iff.rfl

/-- Row `r` of the output array is written back by point `r / 5000`. -/
theorem covered (i : S50000x64.Idx) :
    ∃ t : Fin cfg1.N, (cfg1.win 12).flush t = true ∧ i ∈ ((cfg1.win 12).blk t).view.set := by
  have hi0 : (i 0).val < 50000 := (i 0).isLt
  have hi1 : (i 1).val < 64 := (i 1).isLt
  have hN : (i 0).val / 5000 < cfg1.N := by rw [show cfg1.N = 10 from N_1]; omega
  obtain ⟨-, -, -, -, -, -, e0, e1⟩ := idx_rows ⟨(i 0).val / 5000, hN⟩
  refine ⟨⟨(i 0).val / 5000, hN⟩, flush1_12 _, ?_⟩
  rw [mem_blk]
  intro a
  match a with
  | ⟨0, _⟩ =>
    show win1_12.index ⟨(i 0).val / 5000, hN⟩ (0 : Fin 2) * 5000 ≤ (i 0).val
      ∧ (i 0).val < win1_12.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win1_12.index ⟨(i 0).val / 5000, hN⟩ (1 : Fin 2) * 64 ≤ (i 1).val
      ∧ (i 1).val < win1_12.index ⟨(i 0).val / 5000, hN⟩ (1 : Fin 2) * 64 + 64
    rw [e1]; omega

/-- The output array after the region: the fused table of the arrays the region is entered with. -/
theorem fused_array (c : Dev nD) :
    (dat1 (F := Ideal) V c).arrAt 12 cfg1.N
      = Cert.Spec.fuseK (V c main_v35) (V c main_v75) (V c main_v89) (V c main_arg16) (fun k => V c main_v128 (ix2 (0 : Fin 1) k))
          (V c main_arg18) (V c main_arg12) (fun k => V c main_v129 (ix2 (0 : Fin 1) k)) (V c main_arg14)
          (fun k => V c main_v130 (ix2 (0 : Fin 1) k)) (fun k => V c main_v131 (ix2 (0 : Fin 1) k))
          (fun k => V c main_v132 (ix2 (0 : Fin 1) k)) :=
  (dat1 (F := Ideal) V c).arrAt_eq_of_cover 12 (fused V c) (fun t _ => flushed_eq V c t) covered

end Cert.KernelIdeal.FuseValue

end
-- ==== Proof.FixedRows.lean ====
/-
  The two fixed rows the program computes on the host before its second region.

  From the two 50000 × 64 tables `X` (first modality) and `Y` (second modality) the program takes rows 0 and 1,
  computes each row's attention logit `tanh (x · Wq1 + bq1) · Wq2`, the weight `w = 1 / (1 + e^(-(a - b)))` of the
  first modality (the `1` spelt as the word `0x3F800000`), `w' = 1 - w`, the common row `w · x + w' · y`, and then
  `d0 = (x - common)` at node 0 and `d1 = (y - common)` at node 1, each laid out as a `1 × 64` array.

  * The last 46 of the 150 host operations (`tailOps`) do all of this; the 104 before them build the two tables.
    `StableHlo.after` of the whole list is the 46 run from what the 104 leave (`hostOps1_split`).
  * The composed terms of the 46 are named over variables (`top2`, `logits2`, `w2`, `common2`, `d0T`, `d1T`) and read
    entry by entry against the specification (`…_apply`): slices and broadcasts read one entry of their operand, the
    host's product is the sum over the contracted axis, the pointwise operations are the extended reals' own.
  * `d0_entry`, `d1_entry`: at every valuation, entry `(0, k)` of the buffer handed to the second region is
    `Cert.Spec.d0K` / `Cert.Spec.d1K` of the two tables as they stand after the host operations and of the three weights.
-/
import proofs.«181136_j28157805592958_1_alg».proof.Proof.Gen.KernelIdeal.Frame
import proofs.«181136_j28157805592958_1_alg».proof.Proof.Spec
import proofs.«181136_j28157805592958_1_alg».proof.Proof.LibVec
import proofs.«181136_j28157805592958_1_alg».proof.Proof.GateRef
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

set_option maxRecDepth 16384

noncomputable section

namespace Cert.KernelIdeal.FixedRows

open Cert.KernelIdeal.Gen Cert.KernelIdeal Idealize.ShloMosaic Idealize.ShloMosaic.ValueIdx Idealize.ShloMosaic.StableHlo
open Idealize.ShloMosaic.TcCoe

/-- The last 46 host operations before the second region: the two fixed rows from the two 50000 × 64 tables. -/
abbrev tailOps {F : FTy → Type} [FloatOps F] : List (HloOp τ sig (Elt F)) :=
  (
     StableHlo.unary main_v75 main_v90 ((extractStridedSlice S2x64 ![0, 0] · slices_S50000x64_S2x64_0_0) : (⟨S50000x64, .f32⟩ : BufTy).Contents (Elt F) → (⟨S2x64, .f32⟩ : BufTy).Contents (Elt F))
  :: StableHlo.binary main_v90 main_arg16 main_v91 ((fun l r => Host.dotGeneral dot_S2x64_S64x64_S2x64_1_0_0_1_n_n none l r) : (⟨S2x64, .f32⟩ : BufTy).Contents (Elt F) → (⟨S64x64, .f32⟩ : BufTy).Contents (Elt F) → (⟨S2x64, .f32⟩ : BufTy).Contents (Elt F))
  :: StableHlo.unary main_arg17 main_v92 (broadcastInDim S1x64 ![1] bcast_S64_S1x64_1 : (⟨S64, .f32⟩ : BufTy).Contents (Elt F) → (⟨S1x64, .f32⟩ : BufTy).Contents (Elt F))
  :: StableHlo.unary main_v92 main_v93 (broadcastInDim S2x64 ![0, 1] bcast_S1x64_S2x64_0_1 : (⟨S1x64, .f32⟩ : BufTy).Contents (Elt F) → (⟨S2x64, .f32⟩ : BufTy).Contents (Elt F))
  :: StableHlo.binary main_v91 main_v93 main_v94 (addf : (⟨S2x64, .f32⟩ : BufTy).Contents (Elt F) → (⟨S2x64, .f32⟩ : BufTy).Contents (Elt F) → (⟨S2x64, .f32⟩ : BufTy).Contents (Elt F))
  :: StableHlo.unary main_v94 main_v95 (Host.tanh : (⟨S2x64, .f32⟩ : BufTy).Contents (Elt F) → (⟨S2x64, .f32⟩ : BufTy).Contents (Elt F))
  :: StableHlo.binary main_v95 main_arg18 main_v96 ((fun l r => Host.dotGeneral dot_S2x64_S64x1_S2x1_1_0_0_1_n_n none l r) : (⟨S2x64, .f32⟩ : BufTy).Contents (Elt F) → (⟨S64x1, .f32⟩ : BufTy).Contents (Elt F) → (⟨S2x1, .f32⟩ : BufTy).Contents (Elt F))
  :: StableHlo.unary main_v89 main_v97 ((extractStridedSlice S2x64 ![0, 0] · slices_S50000x64_S2x64_0_0) : (⟨S50000x64, .f32⟩ : BufTy).Contents (Elt F) → (⟨S2x64, .f32⟩ : BufTy).Contents (Elt F))
  :: StableHlo.binary main_v97 main_arg16 main_v98 ((fun l r => Host.dotGeneral dot_S2x64_S64x64_S2x64_1_0_0_1_n_n none l r) : (⟨S2x64, .f32⟩ : BufTy).Contents (Elt F) → (⟨S64x64, .f32⟩ : BufTy).Contents (Elt F) → (⟨S2x64, .f32⟩ : BufTy).Contents (Elt F))
  :: StableHlo.unary main_arg17 main_v99 (broadcastInDim S1x64 ![1] bcast_S64_S1x64_1 : (⟨S64, .f32⟩ : BufTy).Contents (Elt F) → (⟨S1x64, .f32⟩ : BufTy).Contents (Elt F))
  :: StableHlo.unary main_v99 main_v100 (broadcastInDim S2x64 ![0, 1] bcast_S1x64_S2x64_0_1 : (⟨S1x64, .f32⟩ : BufTy).Contents (Elt F) → (⟨S2x64, .f32⟩ : BufTy).Contents (Elt F))
  :: StableHlo.binary main_v98 main_v100 main_v101 (addf : (⟨S2x64, .f32⟩ : BufTy).Contents (Elt F) → (⟨S2x64, .f32⟩ : BufTy).Contents (Elt F) → (⟨S2x64, .f32⟩ : BufTy).Contents (Elt F))
  :: StableHlo.unary main_v101 main_v102 (Host.tanh : (⟨S2x64, .f32⟩ : BufTy).Contents (Elt F) → (⟨S2x64, .f32⟩ : BufTy).Contents (Elt F))
  :: StableHlo.binary main_v102 main_arg18 main_v103 ((fun l r => Host.dotGeneral dot_S2x64_S64x1_S2x1_1_0_0_1_n_n none l r) : (⟨S2x64, .f32⟩ : BufTy).Contents (Elt F) → (⟨S64x1, .f32⟩ : BufTy).Contents (Elt F) → (⟨S2x1, .f32⟩ : BufTy).Contents (Elt F))
  :: StableHlo.binary main_v96 main_v103 main_v104 (subf : (⟨S2x1, .f32⟩ : BufTy).Contents (Elt F) → (⟨S2x1, .f32⟩ : BufTy).Contents (Elt F) → (⟨S2x1, .f32⟩ : BufTy).Contents (Elt F))
  :: StableHlo.unary main_v104 main_v105 (Host.negf : (⟨S2x1, .f32⟩ : BufTy).Contents (Elt F) → (⟨S2x1, .f32⟩ : BufTy).Contents (Elt F))
  :: StableHlo.unary main_v105 main_v106 (Host.exp : (⟨S2x1, .f32⟩ : BufTy).Contents (Elt F) → (⟨S2x1, .f32⟩ : BufTy).Contents (Elt F))
  :: StableHlo.nullary main_cst_17 (constant S_ .f32 0x3F800000#32)
  :: StableHlo.unary main_cst_17 main_v107 (broadcastInDim S2x1 ![] bcast_S_S2x1 : (⟨S_, .f32⟩ : BufTy).Contents (Elt F) → (⟨S2x1, .f32⟩ : BufTy).Contents (Elt F))
  :: StableHlo.binary main_v107 main_v106 main_v108 (addf : (⟨S2x1, .f32⟩ : BufTy).Contents (Elt F) → (⟨S2x1, .f32⟩ : BufTy).Contents (Elt F) → (⟨S2x1, .f32⟩ : BufTy).Contents (Elt F))
  :: StableHlo.nullary main_cst_18 (constant S_ .f32 0x3F800000#32)
  :: StableHlo.unary main_cst_18 main_v109 (broadcastInDim S2x1 ![] bcast_S_S2x1 : (⟨S_, .f32⟩ : BufTy).Contents (Elt F) → (⟨S2x1, .f32⟩ : BufTy).Contents (Elt F))
  :: StableHlo.binary main_v109 main_v108 main_v110 (Host.divf : (⟨S2x1, .f32⟩ : BufTy).Contents (Elt F) → (⟨S2x1, .f32⟩ : BufTy).Contents (Elt F) → (⟨S2x1, .f32⟩ : BufTy).Contents (Elt F))
  :: StableHlo.nullary main_cst_19 (constant S_ .f32 0x3F800000#32)
  :: StableHlo.unary main_cst_19 main_v111 (broadcastInDim S2x1 ![] bcast_S_S2x1 : (⟨S_, .f32⟩ : BufTy).Contents (Elt F) → (⟨S2x1, .f32⟩ : BufTy).Contents (Elt F))
  :: StableHlo.binary main_v111 main_v110 main_v112 (subf : (⟨S2x1, .f32⟩ : BufTy).Contents (Elt F) → (⟨S2x1, .f32⟩ : BufTy).Contents (Elt F) → (⟨S2x1, .f32⟩ : BufTy).Contents (Elt F))
  :: StableHlo.unary main_v75 main_v113 ((extractStridedSlice S2x64 ![0, 0] · slices_S50000x64_S2x64_0_0) : (⟨S50000x64, .f32⟩ : BufTy).Contents (Elt F) → (⟨S2x64, .f32⟩ : BufTy).Contents (Elt F))
  :: StableHlo.unary main_v110 main_v114 (broadcastInDim S2x64 ![0, 1] bcast_S2x1_S2x64_0_1 : (⟨S2x1, .f32⟩ : BufTy).Contents (Elt F) → (⟨S2x64, .f32⟩ : BufTy).Contents (Elt F))
  :: StableHlo.binary main_v114 main_v113 main_v115 (mulf : (⟨S2x64, .f32⟩ : BufTy).Contents (Elt F) → (⟨S2x64, .f32⟩ : BufTy).Contents (Elt F) → (⟨S2x64, .f32⟩ : BufTy).Contents (Elt F))
  :: StableHlo.unary main_v89 main_v116 ((extractStridedSlice S2x64 ![0, 0] · slices_S50000x64_S2x64_0_0) : (⟨S50000x64, .f32⟩ : BufTy).Contents (Elt F) → (⟨S2x64, .f32⟩ : BufTy).Contents (Elt F))
  :: StableHlo.unary main_v112 main_v117 (broadcastInDim S2x64 ![0, 1] bcast_S2x1_S2x64_0_1 : (⟨S2x1, .f32⟩ : BufTy).Contents (Elt F) → (⟨S2x64, .f32⟩ : BufTy).Contents (Elt F))
  :: StableHlo.binary main_v117 main_v116 main_v118 (mulf : (⟨S2x64, .f32⟩ : BufTy).Contents (Elt F) → (⟨S2x64, .f32⟩ : BufTy).Contents (Elt F) → (⟨S2x64, .f32⟩ : BufTy).Contents (Elt F))
  :: StableHlo.binary main_v115 main_v118 main_v119 (addf : (⟨S2x64, .f32⟩ : BufTy).Contents (Elt F) → (⟨S2x64, .f32⟩ : BufTy).Contents (Elt F) → (⟨S2x64, .f32⟩ : BufTy).Contents (Elt F))
  :: StableHlo.unary main_v75 main_v120 ((extractStridedSlice S2x64 ![0, 0] · slices_S50000x64_S2x64_0_0) : (⟨S50000x64, .f32⟩ : BufTy).Contents (Elt F) → (⟨S2x64, .f32⟩ : BufTy).Contents (Elt F))
  :: StableHlo.binary main_v120 main_v119 main_v121 (subf : (⟨S2x64, .f32⟩ : BufTy).Contents (Elt F) → (⟨S2x64, .f32⟩ : BufTy).Contents (Elt F) → (⟨S2x64, .f32⟩ : BufTy).Contents (Elt F))
  :: StableHlo.unary main_v121 main_v122 ((extractStridedSlice S1x64 ![0, 0] · slices_S2x64_S1x64_0_0) : (⟨S2x64, .f32⟩ : BufTy).Contents (Elt F) → (⟨S1x64, .f32⟩ : BufTy).Contents (Elt F))
  :: StableHlo.reshape main_v122 main_v123 rfl shapeCasts_S1x64_S64
  :: StableHlo.unary main_v89 main_v124 ((extractStridedSlice S2x64 ![0, 0] · slices_S50000x64_S2x64_0_0) : (⟨S50000x64, .f32⟩ : BufTy).Contents (Elt F) → (⟨S2x64, .f32⟩ : BufTy).Contents (Elt F))
  :: StableHlo.binary main_v124 main_v119 main_v125 (subf : (⟨S2x64, .f32⟩ : BufTy).Contents (Elt F) → (⟨S2x64, .f32⟩ : BufTy).Contents (Elt F) → (⟨S2x64, .f32⟩ : BufTy).Contents (Elt F))
  :: StableHlo.unary main_v125 main_v126 ((extractStridedSlice S1x64 ![1, 0] · slices_S2x64_S1x64_1_0) : (⟨S2x64, .f32⟩ : BufTy).Contents (Elt F) → (⟨S1x64, .f32⟩ : BufTy).Contents (Elt F))
  :: StableHlo.reshape main_v126 main_v127 rfl shapeCasts_S1x64_S64
  :: StableHlo.reshape main_arg17 main_v128 rfl shapeCasts_S64_S1x64
  :: StableHlo.reshape main_arg13 main_v129 rfl shapeCasts_S64_S1x64
  :: StableHlo.reshape main_arg15 main_v130 rfl shapeCasts_S64_S1x64
  :: StableHlo.reshape main_v123 main_v131 rfl shapeCasts_S64_S1x64
  :: StableHlo.reshape main_v127 main_v132 rfl shapeCasts_S64_S1x64
  :: [] )

open Cert.ReferenceIdeal.GateRef (hostDot_rowcol rowBias_apply hostExp_apply hostNegf_apply)

/-! ## Reads at an index -/

/-- The word `0x3F800000` is the real number one. -/
theorem ofBits_one : Ideal.ofBits .f32 0x3F800000#32 = 1 := by
  simp [Ideal.ofBits, Ideal.ieee, -EReal.coe_mul]; norm_num

/-- The product of two rows with the 64 × 64 weight. -/
theorem dotA_apply (A : FVec Ideal S2x64 .f32) (B : FVec Ideal S64x64 .f32) (r : Fin 2) (j : Fin 64) :
    Host.dotGeneral dot_S2x64_S64x64_S2x64_1_0_0_1_n_n none A B (ix2 r j) = ∑ k : Fin 64, A (ix2 r k) * B (ix2 k j) :=
  hostDot_rowcol _ rfl rfl (fun _ _ => rfl) (fun _ _ => rfl) (fun _ _ => rfl) (fun _ _ => rfl) none A B r j

/-- The product of two rows with the 64 × 1 weight. -/
theorem dotB_apply (A : FVec Ideal S2x64 .f32) (B : FVec Ideal S64x1 .f32) (r : Fin 2) (j : Fin 1) :
    Host.dotGeneral dot_S2x64_S64x1_S2x1_1_0_0_1_n_n none A B (ix2 r j) = ∑ k : Fin 64, A (ix2 r k) * B (ix2 k j) :=
  hostDot_rowcol _ rfl rfl (fun _ _ => rfl) (fun _ _ => rfl) (fun _ _ => rfl) (fun _ _ => rfl) none A B r j

/-- The host's `tanh` and quotient read entry by entry. -/
theorem hostTanh_apply {s : Shape} {φ : FTy} (x : FVec Ideal s φ) (i : s.Idx) : Host.tanh x i = Ideal.tanh (x i) := rfl
theorem hostDivf_apply {s : Shape} {φ : FTy} (x y : FVec Ideal s φ) (i : s.Idx) : Host.divf x y i = Ideal.div (x i) (y i) := rfl

/-- A column of two numbers laid along 64 lanes reads, at `(r, k)`, the column at `r`. -/
theorem colLanes_apply {α : Type} (v : S2x1.Idx → α) (r : Fin 2) (k : Fin 64) :
    broadcastInDim S2x64 ![0, 1] bcast_S2x1_S2x64_0_1 v (ix2 r k) = v (ix2 r (0 : Fin 1)) :=
  broadcastInDim_apply _ _ v _ _ fun a => by
    match a with
    | ⟨0, _⟩ => rfl
    | ⟨1, _⟩ => rfl

/-- A scalar spread over the column of two reads the scalar everywhere. -/
theorem scalarCol_apply {α : Type} (v : S_.Idx → α) (i : S2x1.Idx) :
    broadcastInDim S2x1 ![] bcast_S_S2x1 v i = v ix0 :=
  broadcastInDim_apply _ _ v _ _ fun a => a.elim0

/-! ## The program's terms, over the two tables and the three weights -/

/-- Node `r` of the two first nodes. -/
abbrev node (r : Fin 2) : Fin 50000 := ⟨r.val, by omega⟩

/-- The first two rows of a table. -/
def top2 (X : FVec Ideal S50000x64 .f32) : FVec Ideal S2x64 .f32 :=
  extractStridedSlice S2x64 ![0, 0] X slices_S50000x64_S2x64_0_0

theorem top2_apply (X : FVec Ideal S50000x64 .f32) (r : Fin 2) (k : Fin 64) : top2 X (ix2 r k) = X (ix2 (node r) k) :=
  slice2_axis0_apply 0 X _ r k (node r) (Nat.zero_add _).symm

/-- The two rows' attention logits. -/
def logits2 (X : FVec Ideal S50000x64 .f32) (Wq1 : FVec Ideal S64x64 .f32) (bq1 : FVec Ideal S64 .f32)
    (Wq2 : FVec Ideal S64x1 .f32) : FVec Ideal S2x1 .f32 :=
  Host.dotGeneral dot_S2x64_S64x1_S2x1_1_0_0_1_n_n none
    (Host.tanh (addf (Host.dotGeneral dot_S2x64_S64x64_S2x64_1_0_0_1_n_n none (top2 X) Wq1)
      (broadcastInDim S2x64 ![0, 1] bcast_S1x64_S2x64_0_1 (broadcastInDim S1x64 ![1] bcast_S64_S1x64_1 bq1)))) Wq2

theorem logits2_apply (X : FVec Ideal S50000x64 .f32) (Wq1 : FVec Ideal S64x64 .f32) (bq1 : FVec Ideal S64 .f32)
    (Wq2 : FVec Ideal S64x1 .f32) (r : Fin 2) :
    logits2 X Wq1 bq1 Wq2 (ix2 r (0 : Fin 1))
      = Cert.Spec.att (Cert.Spec.row X (node r)) Wq1 (fun k => bq1 (ix1 k)) Wq2 := by
  unfold logits2 Cert.Spec.att
  rw [dotB_apply]
  refine Finset.sum_congr rfl fun k _ => ?_
  congr 1
  rw [hostTanh_apply, addf_apply, dotA_apply, rowBias_apply]
  congr 1
  unfold Cert.Spec.affine Cert.Spec.row
  congr 1
  refine Finset.sum_congr rfl fun l _ => ?_
  rw [top2_apply]

/-- The real number one at each of the two nodes. -/
def one2 : FVec Ideal S2x1 .f32 := broadcastInDim S2x1 ![] bcast_S_S2x1 (constant (F := Ideal) S_ .f32 0x3F800000#32)

theorem one2_apply (i : S2x1.Idx) : one2 i = 1 := by
  unfold one2; rw [scalarCol_apply, constant_apply, ofBits_one]

/-- The two nodes' first-modality weights. -/
def w2 (X Y : FVec Ideal S50000x64 .f32) (Wq1 : FVec Ideal S64x64 .f32) (bq1 : FVec Ideal S64 .f32)
    (Wq2 : FVec Ideal S64x1 .f32) : FVec Ideal S2x1 .f32 :=
  Host.divf one2 (addf one2 (Host.exp (Host.negf (subf (logits2 X Wq1 bq1 Wq2) (logits2 Y Wq1 bq1 Wq2)))))

theorem w2_apply (X Y : FVec Ideal S50000x64 .f32) (Wq1 : FVec Ideal S64x64 .f32) (bq1 : FVec Ideal S64 .f32)
    (Wq2 : FVec Ideal S64x1 .f32) (r : Fin 2) :
    w2 X Y Wq1 bq1 Wq2 (ix2 r (0 : Fin 1))
      = Cert.Spec.wK (Cert.Spec.att (Cert.Spec.row X (node r)) Wq1 (fun k => bq1 (ix1 k)) Wq2)
          (Cert.Spec.att (Cert.Spec.row Y (node r)) Wq1 (fun k => bq1 (ix1 k)) Wq2) := by
  unfold w2 Cert.Spec.wK Ideal.logistic
  rw [hostDivf_apply, addf_apply, hostExp_apply, hostNegf_apply, subf_apply, one2_apply, logits2_apply, logits2_apply]

/-- The two nodes' common rows. -/
def common2 (X Y : FVec Ideal S50000x64 .f32) (Wq1 : FVec Ideal S64x64 .f32) (bq1 : FVec Ideal S64 .f32)
    (Wq2 : FVec Ideal S64x1 .f32) : FVec Ideal S2x64 .f32 :=
  addf (mulf (broadcastInDim S2x64 ![0, 1] bcast_S2x1_S2x64_0_1 (w2 X Y Wq1 bq1 Wq2)) (top2 X))
    (mulf (broadcastInDim S2x64 ![0, 1] bcast_S2x1_S2x64_0_1 (subf one2 (w2 X Y Wq1 bq1 Wq2))) (top2 Y))

theorem common2_apply (X Y : FVec Ideal S50000x64 .f32) (Wq1 : FVec Ideal S64x64 .f32) (bq1 : FVec Ideal S64 .f32)
    (Wq2 : FVec Ideal S64x1 .f32) (r : Fin 2) (k : Fin 64) :
    common2 X Y Wq1 bq1 Wq2 (ix2 r k) = Cert.Spec.cmK X Y Wq1 (fun k => bq1 (ix1 k)) Wq2 (node r) k := by
  unfold common2 Cert.Spec.cmK Cert.Spec.commonK
  rw [addf_apply, mulf_apply, mulf_apply, colLanes_apply, colLanes_apply, subf_apply, one2_apply, w2_apply,
    top2_apply, top2_apply]
  rfl

/-- The first fixed row as the program lays it out: node 0's first-modality row minus its common row. -/
def d0T (X Y : FVec Ideal S50000x64 .f32) (Wq1 : FVec Ideal S64x64 .f32) (bq1 : FVec Ideal S64 .f32)
    (Wq2 : FVec Ideal S64x1 .f32) : FVec Ideal S1x64 .f32 :=
  shapeCast S1x64 (shapeCast S64 (extractStridedSlice S1x64 ![0, 0] (subf (top2 X) (common2 X Y Wq1 bq1 Wq2))
    slices_S2x64_S1x64_0_0) shapeCasts_S1x64_S64) shapeCasts_S64_S1x64

/-- The second fixed row: node 1's second-modality row minus its common row. -/
def d1T (X Y : FVec Ideal S50000x64 .f32) (Wq1 : FVec Ideal S64x64 .f32) (bq1 : FVec Ideal S64 .f32)
    (Wq2 : FVec Ideal S64x1 .f32) : FVec Ideal S1x64 .f32 :=
  shapeCast S1x64 (shapeCast S64 (extractStridedSlice S1x64 ![1, 0] (subf (top2 Y) (common2 X Y Wq1 bq1 Wq2))
    slices_S2x64_S1x64_1_0) shapeCasts_S1x64_S64) shapeCasts_S64_S1x64

theorem d0T_apply (X Y : FVec Ideal S50000x64 .f32) (Wq1 : FVec Ideal S64x64 .f32) (bq1 : FVec Ideal S64 .f32)
    (Wq2 : FVec Ideal S64x1 .f32) (k : Fin 64) :
    d0T X Y Wq1 bq1 Wq2 (ix2 (0 : Fin 1) k) = Cert.Spec.d0K X Y Wq1 (fun k => bq1 (ix1 k)) Wq2 k := by
  unfold d0T Cert.Spec.d0K
  rw [shapeCast_a_1a_apply, shapeCast_1a_a_apply, slice2_axis0_apply 0 _ _ (0 : Fin 1) k (0 : Fin 2) rfl, subf_apply,
    top2_apply, common2_apply]
  rfl

theorem d1T_apply (X Y : FVec Ideal S50000x64 .f32) (Wq1 : FVec Ideal S64x64 .f32) (bq1 : FVec Ideal S64 .f32)
    (Wq2 : FVec Ideal S64x1 .f32) (k : Fin 64) :
    d1T X Y Wq1 bq1 Wq2 (ix2 (0 : Fin 1) k) = Cert.Spec.d1K X Y Wq1 (fun k => bq1 (ix1 k)) Wq2 k := by
  unfold d1T Cert.Spec.d1K
  rw [shapeCast_a_1a_apply, shapeCast_1a_a_apply, slice2_axis0_apply 1 _ _ (0 : Fin 1) k (1 : Fin 2) rfl, subf_apply,
    top2_apply, common2_apply]
  rfl

/-! ## The run of the host operations -/

/-- The operations before the second region are 104 operations followed by the 46 above. -/
theorem hostOps1_split : (hostOps1 (F := Ideal)) = (hostOps1 (F := Ideal)).take 104 ++ tailOps := by
  have h : (hostOps1 (F := Ideal)).drop 104 = tailOps := rfl
  rw [← h, List.take_append_drop]

set_option maxHeartbeats 4000000 in
/-- What the 46 operations leave in the first fixed row's buffer. -/
theorem tail_v131 (V : Valuation τ sig (Elt Ideal)) :
    after (tailOps (F := Ideal)) V (Proc.devRef .tc main_v131)
      = d0T (V (Proc.devRef .tc main_v75)) (V (Proc.devRef .tc main_v89)) (V (Proc.devRef .tc main_arg16))
          (V (Proc.devRef .tc main_arg17)) (V (Proc.devRef .tc main_arg18)) := by
  after_results_simp
  rfl

set_option maxHeartbeats 4000000 in
/-- What they leave in the second fixed row's buffer. -/
theorem tail_v132 (V : Valuation τ sig (Elt Ideal)) :
    after (tailOps (F := Ideal)) V (Proc.devRef .tc main_v132)
      = d1T (V (Proc.devRef .tc main_v75)) (V (Proc.devRef .tc main_v89)) (V (Proc.devRef .tc main_arg16))
          (V (Proc.devRef .tc main_arg17)) (V (Proc.devRef .tc main_arg18)) := by
  after_results_simp
  rfl

set_option maxHeartbeats 4000000 in
/-- They write neither table and none of the three weights. -/
theorem tail_v75 (V : Valuation τ sig (Elt Ideal)) :
    after (tailOps (F := Ideal)) V (Proc.devRef .tc main_v75) = V (Proc.devRef .tc main_v75) := by after_results_simp
set_option maxHeartbeats 4000000 in
theorem tail_v89 (V : Valuation τ sig (Elt Ideal)) :
    after (tailOps (F := Ideal)) V (Proc.devRef .tc main_v89) = V (Proc.devRef .tc main_v89) := by after_results_simp
set_option maxHeartbeats 4000000 in
theorem tail_arg16 (V : Valuation τ sig (Elt Ideal)) :
    after (tailOps (F := Ideal)) V (Proc.devRef .tc main_arg16) = V (Proc.devRef .tc main_arg16) := by after_results_simp
set_option maxHeartbeats 4000000 in
theorem tail_arg17 (V : Valuation τ sig (Elt Ideal)) :
    after (tailOps (F := Ideal)) V (Proc.devRef .tc main_arg17) = V (Proc.devRef .tc main_arg17) := by after_results_simp
set_option maxHeartbeats 4000000 in
theorem tail_arg18 (V : Valuation τ sig (Elt Ideal)) :
    after (tailOps (F := Ideal)) V (Proc.devRef .tc main_arg18) = V (Proc.devRef .tc main_arg18) := by after_results_simp

set_option maxHeartbeats 4000000 in
/-- None of the 150 operations writes the 64 × 64 weight, -/
theorem whole_arg16 (W : Valuation τ sig (Elt Ideal)) :
    after (hostOps1 (F := Ideal)) W (Proc.devRef .tc main_arg16) = W (Proc.devRef .tc main_arg16) :=
  StableHlo.after_of_forall_not_mem (b := Proc.devRef .tc main_arg16) _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
set_option maxHeartbeats 4000000 in
/-- or the bias, -/
theorem whole_arg17 (W : Valuation τ sig (Elt Ideal)) :
    after (hostOps1 (F := Ideal)) W (Proc.devRef .tc main_arg17) = W (Proc.devRef .tc main_arg17) :=
  StableHlo.after_of_forall_not_mem (b := Proc.devRef .tc main_arg17) _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))
set_option maxHeartbeats 4000000 in
/-- or the 64 × 1 weight. -/
theorem whole_arg18 (W : Valuation τ sig (Elt Ideal)) :
    after (hostOps1 (F := Ideal)) W (Proc.devRef .tc main_arg18) = W (Proc.devRef .tc main_arg18) :=
  StableHlo.after_of_forall_not_mem (b := Proc.devRef .tc main_arg18) _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

/-! ## The two fixed rows -/

/-- The first fixed row the program hands the second region is the specification's, entry by entry. -/
theorem d0_entry (W : Valuation τ sig (Elt Ideal)) (k : Fin 64) :
    after (hostOps1 (F := Ideal)) W (Proc.devRef .tc main_v131) (ix2 (0 : Fin 1) k)
      = Cert.Spec.d0K (after hostOps1 W (Proc.devRef .tc main_v75)) (after hostOps1 W (Proc.devRef .tc main_v89))
          (W (Proc.devRef .tc main_arg16)) (fun k => W (Proc.devRef .tc main_arg17) (ix1 k))
          (W (Proc.devRef .tc main_arg18)) k := by
  rw [← whole_arg16 W, ← whole_arg17 W, ← whole_arg18 W, hostOps1_split, after_append]
  generalize after (List.take 104 (hostOps1 (F := Ideal))) W = V
  rw [tail_v131, tail_v75, tail_v89, tail_arg16, tail_arg17, tail_arg18, d0T_apply]

/-- The second fixed row is the specification's, entry by entry. -/
theorem d1_entry (W : Valuation τ sig (Elt Ideal)) (k : Fin 64) :
    after (hostOps1 (F := Ideal)) W (Proc.devRef .tc main_v132) (ix2 (0 : Fin 1) k)
      = Cert.Spec.d1K (after hostOps1 W (Proc.devRef .tc main_v75)) (after hostOps1 W (Proc.devRef .tc main_v89))
          (W (Proc.devRef .tc main_arg16)) (fun k => W (Proc.devRef .tc main_arg17) (ix1 k))
          (W (Proc.devRef .tc main_arg18)) k := by
  rw [← whole_arg16 W, ← whole_arg17 W, ← whole_arg18 W, hostOps1_split, after_append]
  generalize after (List.take 104 (hostOps1 (F := Ideal))) W = V
  rw [tail_v132, tail_v75, tail_v89, tail_arg16, tail_arg17, tail_arg18, d1T_apply]

end Cert.KernelIdeal.FixedRows

end
-- ==== Proof.FuseRefLib.lean ====
/-
  The fusion stage of the reference, operation by operation, read at an index: program-free in the arrays (every
  statement is over arbitrary arrays of the program's shapes), at the ideal values where a float is an extended real.

  * the two matrix products, the bias broadcast, the attention logit of a row;
  * two columns laid side by side; the maximum and the sum along a row of two entries; the two-way softmax;
  * the blend of two rows by the softmax columns (the common row);
  * the logistic function as the program spells it; a fixed row cut out and broadcast back;
  * the output entry, and the specification's forms it is compared with.
-/
import proofs.«181136_j28157805592958_1_alg».proof.Proof.Gen.ReferenceIdeal.Run
import proofs.«181136_j28157805592958_1_alg».proof.Proof.Spec
import proofs.«181136_j28157805592958_1_alg».proof.Proof.LibVec
import proofs.«181136_j28157805592958_1_alg».proof.Proof.LibReal
import proofs.«181136_j28157805592958_1_alg».proof.Proof.GateRef
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.ReferenceIdeal.FuseRefLib

open Cert.ReferenceIdeal Cert.ReferenceIdeal.Value Cert.ReferenceIdeal.GateRef Idealize.ShloMosaic Idealize.ShloMosaic.ValueIdx

/-! ## The two matrix products of the fusion stage -/

/-- The 50000×64 by 64×64 product of the program at (r, j). -/
theorem dot64_apply (X : FVec Ideal S50000x64 .f32) (W : FVec Ideal S64x64 .f32) (r : Fin 50000) (j : Fin 64) :
    Host.dotGeneral dot_S50000x64_S64x64_S50000x64_1_0_0_1_n_n none X W (ix2 r j) = ∑ k : Fin 64, X (ix2 r k) * W (ix2 k j) :=
  hostDot_rowcol dot_S50000x64_S64x64_S50000x64_1_0_0_1_n_n rfl rfl (fun _ _ => rfl) (fun _ _ => rfl) (fun _ _ => rfl) (fun _ _ => rfl) none X W r j

/-- The 50000×64 by 64×1 product of the program at (r, u). -/
theorem dot1_apply (X : FVec Ideal S50000x64 .f32) (W : FVec Ideal S64x1 .f32) (r : Fin 50000) (u : Fin 1) :
    Host.dotGeneral dot_S50000x64_S64x1_S50000x1_1_0_0_1_n_n none X W (ix2 r u) = ∑ k : Fin 64, X (ix2 r k) * W (ix2 k u) :=
  hostDot_rowcol dot_S50000x64_S64x1_S50000x1_1_0_0_1_n_n rfl rfl (fun _ _ => rfl) (fun _ _ => rfl) (fun _ _ => rfl) (fun _ _ => rfl) none X W r u

/-! ## Broadcasts and pointwise host operations read at an index -/

/-- A scalar constant broadcast to 50000×64 reads the number its word denotes. -/
theorem scalarBcast_apply (w : BitVec 32) (h : S_.BroadcastsInDim S50000x64 (![] : Fin 0 → Fin S50000x64.rank)) (i : S50000x64.Idx) :
    broadcastInDim S50000x64 ![] h (constant (F := Ideal) S_ .f32 w) i = Ideal.ofBits .f32 w := by
  rw [broadcastInDim_scalar_apply]; rfl

theorem hostTanh_apply {s : Shape} {φ : FTy} (x : FVec Ideal s φ) (i : s.Idx) : Host.tanh x i = Ideal.tanh (x i) := rfl

/-! ## The attention logits -/

/-- Entry (r, j) of X · W + b is column j of the affine image of row r. -/
theorem affine_apply (X : FVec Ideal S50000x64 .f32) (W : FVec Ideal S64x64 .f32) (b : FVec Ideal S64 .f32)
    (h1 : S64.BroadcastsInDim S1x64 (![1] : Fin 1 → Fin S1x64.rank))
    (h2 : S1x64.BroadcastsInDim S50000x64 (![0, 1] : Fin 2 → Fin S50000x64.rank)) (r : Fin 50000) (j : Fin 64) :
    addf (Host.dotGeneral dot_S50000x64_S64x64_S50000x64_1_0_0_1_n_n none X W)
        (broadcastInDim S50000x64 ![0, 1] h2 (broadcastInDim S1x64 ![1] h1 b)) (ix2 r j)
      = Cert.Spec.affine (Cert.Spec.row X r) W (fun k => b (ix1 k)) j := by
  rw [addf_apply, dot64_apply, rowBias_apply]
  rfl

/-- The one column of tanh (X · Wq1 + bq1) · Wq2 at row r is the attention logit of row r. -/
theorem logit_apply (X : FVec Ideal S50000x64 .f32) (Wq1 : FVec Ideal S64x64 .f32) (bq1 : FVec Ideal S64 .f32)
    (Wq2 : FVec Ideal S64x1 .f32) (h1 : S64.BroadcastsInDim S1x64 (![1] : Fin 1 → Fin S1x64.rank))
    (h2 : S1x64.BroadcastsInDim S50000x64 (![0, 1] : Fin 2 → Fin S50000x64.rank)) (r : Fin 50000) :
    Host.dotGeneral dot_S50000x64_S64x1_S50000x1_1_0_0_1_n_n none
        (Host.tanh (addf (Host.dotGeneral dot_S50000x64_S64x64_S50000x64_1_0_0_1_n_n none X Wq1)
          (broadcastInDim S50000x64 ![0, 1] h2 (broadcastInDim S1x64 ![1] h1 bq1)))) Wq2 (ix2 r (0 : Fin 1))
      = Cert.Spec.att (Cert.Spec.row X r) Wq1 (fun k => bq1 (ix1 k)) Wq2 := by
  rw [dot1_apply]
  unfold Cert.Spec.att
  refine Finset.sum_congr rfl fun k _ => ?_
  rw [hostTanh_apply, affine_apply]

/-- Two columns laid side by side: column 0 of the 50000×2 array is the first. -/
theorem concat_apply0 {α : Type} (A B : S50000x1.Idx → α) (h : Shape.Concatenates [S50000x1, S50000x1] S50000x2 1) (r : Fin 50000) :
    concatenate S50000x2 1 [⟨S50000x1, A⟩, ⟨S50000x1, B⟩] h (ix2 r (0 : Fin 2)) = A (ix2 r (0 : Fin 1)) := by
  refine concatenate_pair_apply_left 1 A B h (ix2 r (0 : Fin 2)) rfl (ix2 r (0 : Fin 1)) fun b => ?_
  match b with
  | ⟨0, _⟩ => rfl
  | ⟨1, _⟩ => rfl

/-- Column 1 of the 50000×2 array is the second. -/
theorem concat_apply1 {α : Type} (A B : S50000x1.Idx → α) (h : Shape.Concatenates [S50000x1, S50000x1] S50000x2 1) (r : Fin 50000) :
    concatenate S50000x2 1 [⟨S50000x1, A⟩, ⟨S50000x1, B⟩] h (ix2 r (1 : Fin 2)) = B (ix2 r (0 : Fin 1)) := by
  refine concatenate_pair_apply_right 1 A B h (ix2 r (1 : Fin 2)) rfl rfl (ix2 r (0 : Fin 1)) (fun b hb => ?_) rfl
  match b, hb with
  | ⟨0, _⟩, _ => rfl
  | ⟨1, _⟩, hb => exact absurd rfl hb

/-! ## The two-way softmax along a row -/

/-- The pattern of -∞ denotes the bottom element. -/
theorem ofBits_neg_inf : Ideal.ofBits .f32 0xFF800000#32 = ⊥ := by
  simp [Ideal.ofBits, Ideal.ieee]

/-- The index a reduction along the columns inserts is (r, k). -/
theorem lift_eq (hR : S50000x2.Reduces [1] S50000) (r : Fin 50000) (k : Fin 2) : hR.lift (ix1 r) k = ix2 r k :=
  funext fun ax => Fin.ext (by
    match ax with
    | ⟨0, _⟩ => rfl
    | ⟨1, _⟩ => rfl)

/-- A row statistic cast to a column and broadcast along the two columns reads, at (r, c), the statistic at r. -/
theorem colBcast2_apply {α : Type} (v : S50000.Idx → α) (h1 : S50000.BroadcastsInDim S50000x1 (![0] : Fin 1 → Fin S50000x1.rank))
    (h2 : S50000x1.BroadcastsInDim S50000x2 (![0, 1] : Fin 2 → Fin S50000x2.rank)) (r : Fin 50000) (c : Fin 2) :
    broadcastInDim S50000x2 ![0, 1] h2 (broadcastInDim S50000x1 ![0] h1 v) (ix2 r c) = v (ix1 r) := by
  refine (broadcastInDim_apply _ h2 _ (ix2 r c) (ix2 r (0 : Fin 1)) fun a => ?_).trans ?_
  · match a with
    | ⟨0, _⟩ => rfl
    | ⟨1, _⟩ => rfl
  · refine broadcastInDim_apply _ h1 _ _ (ix1 r) fun a => ?_
    match a with
    | ⟨0, _⟩ => rfl

/-- A fold of max over two indices. -/
theorem fold_max_fin2 (b : EReal) (f : Fin 2 → EReal) :
    (Finset.univ : Finset (Fin 2)).fold max b f = max (f 0) (max (f 1) b) := by
  have h2 : (Finset.univ : Finset (Fin 2)) = insert 0 {1} := by decide
  rw [h2, Finset.fold_insert (by decide), Finset.fold_singleton]

/-- The maximum along a row of two entries, taken from -∞ and then joined with -∞ once more, is the maximum of the two. -/
theorem rowMax_apply (L : FVec Ideal S50000x2 .f32) (hb : S_.BroadcastsInDim S50000 (![] : Fin 0 → Fin S50000.rank))
    (hred : S50000x2.ReducesTo [1] S50000) (hu : 0 < S_.numel) (r : Fin 50000) :
    maximumf (broadcastInDim S50000 ![] hb (constant (F := Ideal) S_ .f32 0xFF800000#32))
        (Host.reduce FloatOps.maximumf L (constant (F := Ideal) S_ .f32 0xFF800000#32) hred hu) (ix1 r)
      = max (L (ix2 r (0 : Fin 2))) (L (ix2 r (1 : Fin 2))) := by
  have hR : S50000x2.Reduces [1] S50000 := by decide
  rw [maximumf_apply, broadcastInDim_scalar_apply, Host.reduce_eq_fold_single FloatOps.maximumf L _ hred hR hu]
  refine (congrArg (max _) (fold_max_fin2 _ _)).trans ?_
  show max (Ideal.ofBits .f32 0xFF800000#32)
      (max (L (hR.lift (ix1 r) (0 : Fin 2))) (max (L (hR.lift (ix1 r) (1 : Fin 2))) (Ideal.ofBits .f32 0xFF800000#32))) = _
  rw [ofBits_neg_inf, lift_eq, lift_eq, max_bot_right, max_bot_left]

/-- exp (L - row maximum) at (r, c). -/
theorem expSub_apply (L : FVec Ideal S50000x2 .f32) (hb : S_.BroadcastsInDim S50000 (![] : Fin 0 → Fin S50000.rank))
    (hred : S50000x2.ReducesTo [1] S50000) (hu : 0 < S_.numel)
    (h1 : S50000.BroadcastsInDim S50000x1 (![0] : Fin 1 → Fin S50000x1.rank))
    (h2 : S50000x1.BroadcastsInDim S50000x2 (![0, 1] : Fin 2 → Fin S50000x2.rank)) (r : Fin 50000) (c : Fin 2) :
    Host.exp (subf L (broadcastInDim S50000x2 ![0, 1] h2 (broadcastInDim S50000x1 ![0] h1
        (maximumf (broadcastInDim S50000 ![] hb (constant (F := Ideal) S_ .f32 0xFF800000#32))
          (Host.reduce FloatOps.maximumf L (constant (F := Ideal) S_ .f32 0xFF800000#32) hred hu))))) (ix2 r c)
      = Ideal.exp (L (ix2 r c) - max (L (ix2 r (0 : Fin 2))) (L (ix2 r (1 : Fin 2)))) := by
  rw [hostExp_apply, subf_apply, colBcast2_apply, rowMax_apply]

/-- The sum along a row of two entries, from the zero word, is the sum of the two. -/
theorem rowSum_apply (E : FVec Ideal S50000x2 .f32) (hred : S50000x2.ReducesTo [1] S50000) (hu : 0 < S_.numel) (r : Fin 50000) :
    Host.reduceAdd E (constant (F := Ideal) S_ .f32 0x00000000#32) hred hu (ix1 r)
      = E (ix2 r (0 : Fin 2)) + E (ix2 r (1 : Fin 2)) := by
  have hR : S50000x2.Reduces [1] S50000 := by decide
  rw [hostReduceAdd_apply, Ideal.hostReduceAdd_single hred hR]
  show Ideal.ofBits .f32 0x00000000#32 + ∑ k : Fin 2, E (hR.lift (ix1 r) k) = _
  rw [Ideal.ofBits_zero_f32, zero_add, Fin.sum_univ_two, lift_eq, lift_eq]

/-- E divided by its row sum at (r, c). -/
theorem softmax_apply (E : FVec Ideal S50000x2 .f32) (hred : S50000x2.ReducesTo [1] S50000) (hu : 0 < S_.numel)
    (h1 : S50000.BroadcastsInDim S50000x1 (![0] : Fin 1 → Fin S50000x1.rank))
    (h2 : S50000x1.BroadcastsInDim S50000x2 (![0, 1] : Fin 2 → Fin S50000x2.rank)) (r : Fin 50000) (c : Fin 2) :
    Host.divf E (broadcastInDim S50000x2 ![0, 1] h2 (broadcastInDim S50000x1 ![0] h1
        (Host.reduceAdd E (constant (F := Ideal) S_ .f32 0x00000000#32) hred hu))) (ix2 r c)
      = Ideal.div (E (ix2 r c)) (E (ix2 r (0 : Fin 2)) + E (ix2 r (1 : Fin 2))) := by
  rw [hostDivf_apply, colBcast2_apply, rowSum_apply]

/-! ## The common row -/

/-- A column broadcast along the 64 lanes reads, at (r, j), the column at r. -/
theorem colBcast64_apply {α : Type} (v : S50000x1.Idx → α)
    (h : S50000x1.BroadcastsInDim S50000x64 (![0, 1] : Fin 2 → Fin S50000x64.rank)) (r : Fin 50000) (j : Fin 64) :
    broadcastInDim S50000x64 ![0, 1] h v (ix2 r j) = v (ix2 r (0 : Fin 1)) := by
  refine broadcastInDim_apply _ h _ _ _ fun a => ?_
  match a with
  | ⟨0, _⟩ => rfl
  | ⟨1, _⟩ => rfl

/-- The slice [0:50000, 0:1] of a 50000×2 array is its column 0. -/
theorem slice0_apply {α : Type} (P : S50000x2.Idx → α) (h : S50000x2.Slices ![0, 0] S50000x1) (r : Fin 50000) :
    extractStridedSlice S50000x1 ![0, 0] P h (ix2 r (0 : Fin 1)) = P (ix2 r (0 : Fin 2)) := by
  refine extractStridedSlice_apply _ P h _ _ fun a => ?_
  match a with
  | ⟨0, _⟩ => exact (Nat.zero_add _).symm
  | ⟨1, _⟩ => rfl

/-- The slice [0:50000, 1:2] of a 50000×2 array is its column 1. -/
theorem slice1_apply {α : Type} (P : S50000x2.Idx → α) (h : S50000x2.Slices ![0, 1] S50000x1) (r : Fin 50000) :
    extractStridedSlice S50000x1 ![0, 1] P h (ix2 r (0 : Fin 1)) = P (ix2 r (1 : Fin 2)) := by
  refine extractStridedSlice_apply _ P h _ _ fun a => ?_
  match a with
  | ⟨0, _⟩ => exact (Nat.zero_add _).symm
  | ⟨1, _⟩ => rfl

/-- Column 0 of P times X plus column 1 of P times Y, at (r, j). -/
theorem common_apply (P : FVec Ideal S50000x2 .f32) (X Y : FVec Ideal S50000x64 .f32)
    (hb : S50000x1.BroadcastsInDim S50000x64 (![0, 1] : Fin 2 → Fin S50000x64.rank))
    (hs0 : S50000x2.Slices ![0, 0] S50000x1) (hs1 : S50000x2.Slices ![0, 1] S50000x1) (r : Fin 50000) (j : Fin 64) :
    addf (mulf (broadcastInDim S50000x64 ![0, 1] hb (extractStridedSlice S50000x1 ![0, 0] P hs0)) X)
        (mulf (broadcastInDim S50000x64 ![0, 1] hb (extractStridedSlice S50000x1 ![0, 1] P hs1)) Y) (ix2 r j)
      = P (ix2 r (0 : Fin 2)) * X (ix2 r j) + P (ix2 r (1 : Fin 2)) * Y (ix2 r j) := by
  rw [addf_apply, mulf_apply, mulf_apply, colBcast64_apply, colBcast64_apply, slice0_apply, slice1_apply]

/-! ## The gates, the two fixed rows and the output entry -/

/-- 1 / (1 + exp (-z)), the one spelt by its word, is the logistic function. -/
theorem sigma_apply (Z : FVec Ideal S50000x64 .f32) (hb : S_.BroadcastsInDim S50000x64 (![] : Fin 0 → Fin S50000x64.rank))
    (i : S50000x64.Idx) :
    Host.divf (broadcastInDim S50000x64 ![] hb (constant (F := Ideal) S_ .f32 0x3F800000#32))
        (addf (broadcastInDim S50000x64 ![] hb (constant (F := Ideal) S_ .f32 0x3F800000#32)) (Host.exp (Host.negf Z))) i
      = Ideal.logistic (Z i) := by
  rw [hostDivf_apply, addf_apply, scalarBcast_apply, hostExp_apply, hostNegf_apply, Ideal.ofBits_one_f32]
  rfl

/-- Row 0 of D, cut out, flattened and broadcast back down the rows, reads at (r, j) the entry (0, j) of D. -/
theorem fixedRow0_apply {α : Type} (D : S50000x64.Idx → α) (hs : S50000x64.Slices ![0, 0] S1x64) (hc : S1x64.ShapeCasts S64)
    (h1 : S64.BroadcastsInDim S1x64 (![1] : Fin 1 → Fin S1x64.rank))
    (h2 : S1x64.BroadcastsInDim S50000x64 (![0, 1] : Fin 2 → Fin S50000x64.rank)) (r : Fin 50000) (j : Fin 64) :
    broadcastInDim S50000x64 ![0, 1] h2 (broadcastInDim S1x64 ![1] h1
        (shapeCast S64 (extractStridedSlice S1x64 ![0, 0] D hs) hc)) (ix2 r j) = D (ix2 Cert.Spec.n0 j) := by
  rw [rowBias_apply]
  refine (shapeCast_apply _ hc (ix1 j) (ix2 (0 : Fin 1) j) ?_).trans ?_
  · rw [Shape.rowMajor_val_two, Shape.rowMajor_val_one]
    show 0 * 64 + j.val = j.val
    omega
  · refine extractStridedSlice_apply _ D hs _ _ fun a => ?_
    match a with
    | ⟨0, _⟩ => rfl
    | ⟨1, _⟩ => exact (Nat.zero_add _).symm

/-- Row 1 of D, cut out, flattened and broadcast back down the rows, reads at (r, j) the entry (1, j) of D. -/
theorem fixedRow1_apply {α : Type} (D : S50000x64.Idx → α) (hs : S50000x64.Slices ![1, 0] S1x64) (hc : S1x64.ShapeCasts S64)
    (h1 : S64.BroadcastsInDim S1x64 (![1] : Fin 1 → Fin S1x64.rank))
    (h2 : S1x64.BroadcastsInDim S50000x64 (![0, 1] : Fin 2 → Fin S50000x64.rank)) (r : Fin 50000) (j : Fin 64) :
    broadcastInDim S50000x64 ![0, 1] h2 (broadcastInDim S1x64 ![1] h1
        (shapeCast S64 (extractStridedSlice S1x64 ![1, 0] D hs) hc)) (ix2 r j) = D (ix2 Cert.Spec.n1 j) := by
  rw [rowBias_apply]
  refine (shapeCast_apply _ hc (ix1 j) (ix2 (0 : Fin 1) j) ?_).trans ?_
  · rw [Shape.rowMajor_val_two, Shape.rowMajor_val_one]
    show 0 * 64 + j.val = j.val
    omega
  · refine extractStridedSlice_apply _ D hs _ _ fun a => ?_
    match a with
    | ⟨0, _⟩ => rfl
    | ⟨1, _⟩ => exact (Nat.zero_add _).symm

/-- The output entry (r, j), the common rows CM given: the content entry plus a third of the gated fixed rows
    plus the common entry. -/
theorem fuse_apply (C X Y CM : FVec Ideal S50000x64 .f32) (Wpv : FVec Ideal S64x64 .f32) (bpv : FVec Ideal S64 .f32)
    (Wpt : FVec Ideal S64x64 .f32) (bpt : FVec Ideal S64 .f32)
    (hb : S_.BroadcastsInDim S50000x64 (![] : Fin 0 → Fin S50000x64.rank))
    (h1 : S64.BroadcastsInDim S1x64 (![1] : Fin 1 → Fin S1x64.rank))
    (h2 : S1x64.BroadcastsInDim S50000x64 (![0, 1] : Fin 2 → Fin S50000x64.rank))
    (hs0 : S50000x64.Slices ![0, 0] S1x64) (hs1 : S50000x64.Slices ![1, 0] S1x64) (hc : S1x64.ShapeCasts S64)
    (r : Fin 50000) (j : Fin 64) :
    addf C (Host.divf (addf (addf
        (mulf (Host.divf (broadcastInDim S50000x64 ![] hb (constant (F := Ideal) S_ .f32 0x3F800000#32))
            (addf (broadcastInDim S50000x64 ![] hb (constant (F := Ideal) S_ .f32 0x3F800000#32))
              (Host.exp (Host.negf (addf (Host.dotGeneral dot_S50000x64_S64x64_S50000x64_1_0_0_1_n_n none C Wpv)
                (broadcastInDim S50000x64 ![0, 1] h2 (broadcastInDim S1x64 ![1] h1 bpv)))))))
          (broadcastInDim S50000x64 ![0, 1] h2 (broadcastInDim S1x64 ![1] h1
            (shapeCast S64 (extractStridedSlice S1x64 ![0, 0] (subf X CM) hs0) hc))))
        (mulf (Host.divf (broadcastInDim S50000x64 ![] hb (constant (F := Ideal) S_ .f32 0x3F800000#32))
            (addf (broadcastInDim S50000x64 ![] hb (constant (F := Ideal) S_ .f32 0x3F800000#32))
              (Host.exp (Host.negf (addf (Host.dotGeneral dot_S50000x64_S64x64_S50000x64_1_0_0_1_n_n none C Wpt)
                (broadcastInDim S50000x64 ![0, 1] h2 (broadcastInDim S1x64 ![1] h1 bpt)))))))
          (broadcastInDim S50000x64 ![0, 1] h2 (broadcastInDim S1x64 ![1] h1
            (shapeCast S64 (extractStridedSlice S1x64 ![1, 0] (subf Y CM) hs1) hc))))) CM)
      (broadcastInDim S50000x64 ![] hb (constant (F := Ideal) S_ .f32 0x40400000#32))) (ix2 r j)
      = C (ix2 r j) + Ideal.div
          ((Ideal.logistic (Cert.Spec.affine (Cert.Spec.row C r) Wpv (fun k => bpv (ix1 k)) j)
              * (X (ix2 Cert.Spec.n0 j) - CM (ix2 Cert.Spec.n0 j))
            + Ideal.logistic (Cert.Spec.affine (Cert.Spec.row C r) Wpt (fun k => bpt (ix1 k)) j)
              * (Y (ix2 Cert.Spec.n1 j) - CM (ix2 Cert.Spec.n1 j)))
            + CM (ix2 r j)) Cert.Spec.three := by
  rw [addf_apply, hostDivf_apply, addf_apply, addf_apply, mulf_apply, mulf_apply, sigma_apply, sigma_apply,
    affine_apply, affine_apply, fixedRow0_apply, fixedRow1_apply, subf_apply, subf_apply, scalarBcast_apply]
  rfl

/-! ## The specification's forms, over arbitrary arrays -/

/-- From the logits L, the exponentials E and the softmax P, read index by index, the blend of the two rows by the
    softmax columns is the specification's common row. -/
theorem cm_eq (X Y : FVec Ideal S50000x64 .f32) (Wq1 : FVec Ideal S64x64 .f32) (bq1 : FVec Ideal S64 .f32)
    (Wq2 : FVec Ideal S64x1 .f32) (L E P : FVec Ideal S50000x2 .f32)
    (hL0 : ∀ r, L (ix2 r (0 : Fin 2)) = Cert.Spec.att (Cert.Spec.row X r) Wq1 (fun k => bq1 (ix1 k)) Wq2)
    (hL1 : ∀ r, L (ix2 r (1 : Fin 2)) = Cert.Spec.att (Cert.Spec.row Y r) Wq1 (fun k => bq1 (ix1 k)) Wq2)
    (hE : ∀ r c, E (ix2 r c) = Ideal.exp (L (ix2 r c) - max (L (ix2 r (0 : Fin 2))) (L (ix2 r (1 : Fin 2)))))
    (hP : ∀ r c, P (ix2 r c) = Ideal.div (E (ix2 r c)) (E (ix2 r (0 : Fin 2)) + E (ix2 r (1 : Fin 2))))
    (r : Fin 50000) (j : Fin 64) :
    P (ix2 r (0 : Fin 2)) * X (ix2 r j) + P (ix2 r (1 : Fin 2)) * Y (ix2 r j)
      = Cert.Spec.cmR X Y Wq1 (fun k => bq1 (ix1 k)) Wq2 r j := by
  rw [hP, hP, hE, hE, hL0, hL1]
  rfl

/-- The specification's fused table at (r, j), spelt out. -/
theorem fuseR_apply (C X Y : FVec Ideal S50000x64 .f32) (Wq1 : FVec Ideal S64x64 .f32) (bq1 : Fin 64 → EReal)
    (Wq2 : FVec Ideal S64x1 .f32) (Wpv : FVec Ideal S64x64 .f32) (bpv : Fin 64 → EReal) (Wpt : FVec Ideal S64x64 .f32)
    (bpt : Fin 64 → EReal) (r : Fin 50000) (j : Fin 64) :
    Cert.Spec.fuseR C X Y Wq1 bq1 Wq2 Wpv bpv Wpt bpt (ix2 r j)
      = C (ix2 r j) + Ideal.div
          ((Ideal.logistic (Cert.Spec.affine (Cert.Spec.row C r) Wpv bpv j)
              * (X (ix2 Cert.Spec.n0 j) - Cert.Spec.cmR X Y Wq1 bq1 Wq2 Cert.Spec.n0 j)
            + Ideal.logistic (Cert.Spec.affine (Cert.Spec.row C r) Wpt bpt j)
              * (Y (ix2 Cert.Spec.n1 j) - Cert.Spec.cmR X Y Wq1 bq1 Wq2 Cert.Spec.n1 j))
            + Cert.Spec.cmR X Y Wq1 bq1 Wq2 r j) Cert.Spec.three := rfl

end Cert.ReferenceIdeal.FuseRefLib

end
-- ==== Proof.FuseRef.lean ====
/-
  The fusion stage of the reference, read index by index: the fused table it computes is the specification's.

  The logits of the two modalities' rows are the attention logits; the exponentials of the logits less the row
  maximum, divided by their row sum, are the two-way softmax weights; the blend of the two rows by those weights is
  the common row; and the output entry is the content entry plus a third of the two gated fixed rows plus the common
  entry.  Every step is a program-free read at an index over arbitrary arrays; here the reads are chained along the
  named intermediate terms of the reference's run.  No finiteness is used: both sides are the same expression on the
  extended reals.
-/
import proofs.«181136_j28157805592958_1_alg».proof.Proof.Gen.ReferenceIdeal.Run
import proofs.«181136_j28157805592958_1_alg».proof.Proof.Spec
import proofs.«181136_j28157805592958_1_alg».proof.Proof.LibVec
import proofs.«181136_j28157805592958_1_alg».proof.Proof.LibReal
import proofs.«181136_j28157805592958_1_alg».proof.Proof.FuseRefLib

noncomputable section

namespace Cert.ReferenceIdeal.FuseRef

open Cert.ReferenceIdeal Cert.ReferenceIdeal.Value Cert.ReferenceIdeal.FuseRefLib Idealize.ShloMosaic Idealize.ShloMosaic.ValueIdx
open Idealize.ShloMosaic.TcCoe Idealize.SL.Sem Idealize.ShloMosaic.StableHlo

variable (V0 : Valuation τ sig (Elt Ideal))

set_option maxRecDepth 8192 in
/-- Column 0 of the logits is the attention logit of the first modality's row. -/
theorem res127_apply0 (r : Fin 50000) :
    res_main_v127 V0 (ix2 r (0 : Fin 2))
      = Cert.Spec.att (Cert.Spec.row (res_main_v100 V0) r) (V0 (Proc.devRef .tc main_arg16))
          (fun k => V0 (Proc.devRef .tc main_arg17) (ix1 k)) (V0 (Proc.devRef .tc main_arg18)) := by
  unfold res_main_v127
  exact (concat_apply0 _ _ _ r).trans (logit_apply (res_main_v100 V0) _ _ _ _ _ r)

set_option maxRecDepth 8192 in
/-- Column 1 of the logits is the attention logit of the second modality's row. -/
theorem res127_apply1 (r : Fin 50000) :
    res_main_v127 V0 (ix2 r (1 : Fin 2))
      = Cert.Spec.att (Cert.Spec.row (res_main_v114 V0) r) (V0 (Proc.devRef .tc main_arg16))
          (fun k => V0 (Proc.devRef .tc main_arg17) (ix1 k)) (V0 (Proc.devRef .tc main_arg18)) := by
  unfold res_main_v127
  exact (concat_apply1 _ _ _ r).trans (logit_apply (res_main_v114 V0) _ _ _ _ _ r)

set_option maxRecDepth 8192 in
/-- The common rows of the reference are the specification's: the exponentials of the logits less the row maximum,
    divided by their row sum, blend the two modalities' rows. -/
theorem res145_apply (r : Fin 50000) (j : Fin 64) :
    res_main_v145 V0 (ix2 r j)
      = Cert.Spec.cmR (res_main_v100 V0) (res_main_v114 V0) (V0 (Proc.devRef .tc main_arg16))
          (fun k => V0 (Proc.devRef .tc main_arg17) (ix1 k)) (V0 (Proc.devRef .tc main_arg18)) r j := by
  unfold res_main_v145
  refine (common_apply (res_main_v138 V0) (res_main_v100 V0) (res_main_v114 V0) _ _ _ r j).trans
    (cm_eq (res_main_v100 V0) (res_main_v114 V0) (V0 (Proc.devRef .tc main_arg16)) (V0 (Proc.devRef .tc main_arg17))
      (V0 (Proc.devRef .tc main_arg18)) (res_main_v127 V0) (res_main_v134 V0) (res_main_v138 V0)
      (res127_apply0 V0) (res127_apply1 V0) (fun r c => ?_) (fun r c => ?_) r j)
  · unfold res_main_v134
    exact expSub_apply (res_main_v127 V0) _ _ _ _ _ r c
  · unfold res_main_v138
    exact softmax_apply (res_main_v134 V0) _ _ _ _ r c

set_option maxRecDepth 8192 in
/-- The same as an equation between arrays. -/
theorem res145_eq :
    res_main_v145 V0 = fun i => Cert.Spec.cmR (res_main_v100 V0) (res_main_v114 V0) (V0 (Proc.devRef .tc main_arg16))
      (fun k => V0 (Proc.devRef .tc main_arg17) (ix1 k)) (V0 (Proc.devRef .tc main_arg18)) (i 0) (i 1) := by
  funext i
  obtain ⟨r, j, rfl⟩ : ∃ (r : Fin 50000) (j : Fin 64), i = ix2 r j := ⟨i 0, i 1, eq_ix2 i⟩
  exact res145_apply V0 r j

set_option maxRecDepth 8192 in
/-- The fused table of the reference is the specification's. -/
theorem res182_eq :
    res_main_v182 V0 = Cert.Spec.fuseR (res_main_v60 V0) (res_main_v100 V0) (res_main_v114 V0)
      (V0 (Proc.devRef .tc main_arg16)) (fun k => V0 (Proc.devRef .tc main_arg17) (ix1 k)) (V0 (Proc.devRef .tc main_arg18))
      (V0 (Proc.devRef .tc main_arg12)) (fun k => V0 (Proc.devRef .tc main_arg13) (ix1 k))
      (V0 (Proc.devRef .tc main_arg14)) (fun k => V0 (Proc.devRef .tc main_arg15) (ix1 k)) := by
  funext i
  obtain ⟨r, j, rfl⟩ : ∃ (r : Fin 50000) (j : Fin 64), i = ix2 r j := ⟨i 0, i 1, eq_ix2 i⟩
  unfold res_main_v182
  refine (fuse_apply (res_main_v60 V0) (res_main_v100 V0) (res_main_v114 V0) (res_main_v145 V0)
    (V0 (Proc.devRef .tc main_arg12)) (V0 (Proc.devRef .tc main_arg13)) (V0 (Proc.devRef .tc main_arg14))
    (V0 (Proc.devRef .tc main_arg15)) _ _ _ _ _ _ r j).trans ?_
  rw [res145_apply V0 Cert.Spec.n0 j, res145_apply V0 Cert.Spec.n1 j, res145_apply V0 r j]
  exact (fuseR_apply (res_main_v60 V0) (res_main_v100 V0) (res_main_v114 V0) (V0 (Proc.devRef .tc main_arg16))
    (fun k => V0 (Proc.devRef .tc main_arg17) (ix1 k)) (V0 (Proc.devRef .tc main_arg18))
    (V0 (Proc.devRef .tc main_arg12)) (fun k => V0 (Proc.devRef .tc main_arg13) (ix1 k))
    (V0 (Proc.devRef .tc main_arg14)) (fun k => V0 (Proc.devRef .tc main_arg15) (ix1 k)) r j).symm

end Cert.ReferenceIdeal.FuseRef

end
-- ==== Proof.lean ====
/-
  The certificate of `Cert.Claim`: the facts of the three programs and of the precondition, then the five claims.

  The kernel's program gates the item embeddings in a first kernel region, propagates them over the graphs on the
  host, and fuses the content table with the two modality tables in a second kernel region; the reference does all
  of it on the host.  At the exact-real reading the two first stages compute the same gated tables (tiled matrix
  products are the whole products, and the logistic is 1 / (1 + e^(-x)) on both sides), the host propagation is the
  same expression, and the fusion stages agree because the two-way softmax of two REAL logits is the logistic of
  their difference — the logits are real since the query vector's weights are finite under the precondition.
-/
import proofs.«181136_j28157805592958_1_alg».proof.Defs
import proofs.«181136_j28157805592958_1_alg».proof.Proof.Gen.Kernel
import proofs.«181136_j28157805592958_1_alg».proof.Proof.Gen.KernelIdeal
import proofs.«181136_j28157805592958_1_alg».proof.Proof.Gen.ReferenceIdeal
import proofs.«181136_j28157805592958_1_alg».proof.Proof.Gen.Pre_finite_inputs
import proofs.«181136_j28157805592958_1_alg».proof.Proof.Assemble
import proofs.«181136_j28157805592958_1_alg».proof.Proof.GateKernel
import proofs.«181136_j28157805592958_1_alg».proof.Proof.FuseKernel
import proofs.«181136_j28157805592958_1_alg».proof.Proof.FixedRows
import proofs.«181136_j28157805592958_1_alg».proof.Proof.FuseRef

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves,
    Claims.algebraic_of
      (fun V c => Cert.KernelIdeal.GateValue.gated_v_array V c)
      (fun V c => Cert.KernelIdeal.GateValue.gated_t_array V c)
      (fun V c => Cert.KernelIdeal.FuseValue.fused_array V c)
      (fun W k => Cert.KernelIdeal.FixedRows.d0_entry W k)
      (fun W k => Cert.KernelIdeal.FixedRows.d1_entry W k)
      (fun V0 => Cert.ReferenceIdeal.FuseRef.res182_eq V0)⟩

end Cert.Proof

end
